-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x256 : Shape := ⟨2, ![12288, 256]⟩
abbrev S12288x12288 : Shape := ⟨2, ![12288, 12288]⟩
abbrev S256x64 : Shape := ⟨2, ![256, 64]⟩
abbrev S128x1 : Shape := ⟨2, ![128, 1]⟩
abbrev S_ : Shape := ⟨0, ![]⟩

class Facts : Prop where
  bcast_S_S12288x256 : S_.BroadcastsInDim S12288x256 (![] : Fin 0 → Fin S12288x256.rank)
  reducesTo_S12288x256_S_d0_1 : S12288x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S12288x256 .f32) (main_arg1 : IVec S12288x12288 32) (main_arg2 : FVec F S256x64 .f32) (main_arg3 : FVec F S128x1 .f32) : IVec S_ 1 :=
  let main_v0 : FVec F S12288x256 .f32 := Host.absf main_arg0
  let main_cst : FVec F S_ .f32 := constant S_ .f32 0x7F800000#32
  let main_v1 : FVec F S12288x256 .f32 := broadcastInDim S12288x256 ![] bcast_S_S12288x256 main_cst
  let main_v2 : IVec S12288x256 1 := cmpf .olt main_v0 main_v1
  let main_c : IVec S_ 1 := constantI S_ 1 1#1
  let main_v3 : IVec S_ 1 := (fun x v => Host.reduce IntOp.andi x v reducesTo_S12288x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S12288x256 : Shape := ⟨2, ![12288, 256]⟩
abbrev S12288x12288 : Shape := ⟨2, ![12288, 12288]⟩
abbrev S256x64 : Shape := ⟨2, ![256, 64]⟩
abbrev S128x1 : Shape := ⟨2, ![128, 1]⟩
abbrev S12288x64 : Shape := ⟨2, ![12288, 64]⟩
abbrev S12288x1 : Shape := ⟨2, ![12288, 1]⟩
abbrev S2048x256 : Shape := ⟨2, ![2048, 256]⟩
abbrev S2048x64 : Shape := ⟨2, ![2048, 64]⟩
abbrev S2048x1 : Shape := ⟨2, ![2048, 1]⟩
abbrev S64x1 : Shape := ⟨2, ![64, 1]⟩
abbrev S1x12288 : Shape := ⟨2, ![1, 12288]⟩
abbrev S_ : Shape := ⟨0, ![]⟩
abbrev S2048x1024 : Shape := ⟨2, ![2048, 1024]⟩
abbrev S1x1024 : Shape := ⟨2, ![1, 1024]⟩
abbrev S1024x64 : Shape := ⟨2, ![1024, 64]⟩
abbrev S2048 : Shape := ⟨1, ![2048]⟩

abbrev nBuf : Space → Nat
  | .hbm => 21
  | .vmem => 24
  | .smem => 0
  | _ => 0

abbrev bufTy : (tb : Table) → Fin (tcTables nBuf tb) → BufTy
  | .hbm, ⟨0, _⟩ => ⟨S12288x256, .f32⟩
  | .hbm, ⟨1, _⟩ => ⟨S12288x12288, .i32⟩
  | .hbm, ⟨2, _⟩ => ⟨S256x64, .f32⟩
  | .hbm, ⟨3, _⟩ => ⟨S128x1, .f32⟩
  | .hbm, ⟨4, _⟩ => ⟨S12288x64, .bf16⟩
  | .hbm, ⟨5, _⟩ => ⟨S12288x1, .f32⟩
  | .hbm, ⟨6, _⟩ => ⟨S12288x1, .f32⟩
  | .hbm, ⟨7, _⟩ => ⟨S1x12288, .f32⟩
  | .hbm, ⟨8, _⟩ => ⟨S_, .f32⟩
  | .hbm, ⟨9, _⟩ => ⟨S_, .f32⟩
  | .hbm, ⟨10, _⟩ => ⟨S12288x1, .f32⟩
  | .hbm, ⟨11, _⟩ => ⟨S12288x1, .f32⟩
  | .hbm, ⟨12, _⟩ => ⟨S_, .f32⟩
  | .hbm, ⟨13, _⟩ => ⟨S_, .f32⟩
  | .hbm, ⟨14, _⟩ => ⟨S12288x1, .f32⟩
  | .hbm, ⟨15, _⟩ => ⟨S12288x1, .i1⟩
  | .hbm, ⟨16, _⟩ => ⟨S_, .f32⟩
  | .hbm, ⟨17, _⟩ => ⟨S12288x1, .f32⟩
  | .hbm, ⟨18, _⟩ => ⟨S12288x1, .f32⟩
  | .hbm, ⟨19, _⟩ => ⟨S12288x1, .f32⟩
  | .hbm, ⟨20, _⟩ => ⟨S12288x64, .f32⟩
  | .local _ .vmem, ⟨0, _⟩ => ⟨S2048x256, .f32⟩
  | .local _ .vmem, ⟨1, _⟩ => ⟨S2048x256, .f32⟩
  | .local _ .vmem, ⟨2, _⟩ => ⟨S256x64, .f32⟩
  | .local _ .vmem, ⟨3, _⟩ => ⟨S128x1, .f32⟩
  | .local _ .vmem, ⟨4, _⟩ => ⟨S2048x64, .bf16⟩
  | .local _ .vmem, ⟨5, _⟩ => ⟨S2048x64, .bf16⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1024, .i32⟩
  | .local _ .vmem, ⟨11, _⟩ => ⟨S2048x1024, .i32⟩
  | .local _ .vmem, ⟨12, _⟩ => ⟨S2048x1, .f32⟩
  | .local _ .vmem, ⟨13, _⟩ => ⟨S2048x1, .f32⟩
  | .local _ .vmem, ⟨14, _⟩ => ⟨S1x1024, .f32⟩
  | .local _ .vmem, ⟨15, _⟩ => ⟨S1x1024, .f32⟩
  | .local _ .vmem, ⟨16, _⟩ => ⟨S2048x1, .f32⟩
  | .local _ .vmem, ⟨17, _⟩ => ⟨S2048x1, .f32⟩
  | .local _ .vmem, ⟨18, _⟩ => ⟨S1024x64, .bf16⟩
  | .local _ .vmem, ⟨19, _⟩ => ⟨S1024x64, .bf16⟩
  | .local _ .vmem, ⟨20, _⟩ => ⟨S2048x64, .f32⟩
  | .local _ .vmem, ⟨21, _⟩ => ⟨S2048x64, .f32⟩
  | .local _ .vmem, ⟨22, _⟩ => ⟨S2048x1, .f32⟩
  | .local _ .vmem, ⟨23, _⟩ => ⟨S2048x64, .f32⟩
  | _, _ => ⟨S12288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![6, 12], ![false, false]⟩

def k1_cond2 (i : grid1.Coords) : BitVec 1 :=
  let arg1 : BitVec 32 := BitVec.ofNat 32 (i 1).val
  let c11_i32 : BitVec 32 := 11#32
  let v41 : BitVec 1 := Scalar.cmpi .eq arg1 c11_i32
  let v42 : BitVec 32 := Scalar.extui v41
  let c0_i32_23 : BitVec 32 := 0#32
  let v43 : BitVec 1 := Scalar.cmpi .ne v42 c0_i32_23
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S2048x256_S2048x256_0_0 : ∀ a, (![0, 0] : Fin 2 → Nat) a + S2048x256.size a ≤ S2048x256.size a
  h_S2048x256 : 0 < S2048x256.numel
  inb_S256x64_S256x64_0_0 : ∀ a, (![0, 0] : Fin 2 → Nat) a + S256x64.size a ≤ S256x64.size a
  h_S256x64 : 0 < S256x64.numel
  inb_S128x1_S128x1_0_0 : ∀ a, (![0, 0] : Fin 2 → Nat) a + S128x1.size a ≤ S128x1.size a
  h_S128x1 : 0 < S128x1.numel
  slices_S128x1_o0_0_S64x1 : S128x1.Slices ![0, 0] S64x1
  slices_S128x1_o64_0_S64x1 : S128x1.Slices ![64, 0] S64x1
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  inb_S2048x1_S2048x1_0_0 : ∀ a, (![0, 0] : Fin 2 → Nat) a + S2048x1.size a ≤ S2048x1.size a
  h_S2048x1 : 0 < S2048x1.numel
  transposes_S12288x1_S1x12288_1_0 : S12288x1.Transposes [1, 0] S1x12288
  reducesTo_S12288x1_S_d0_1 : S12288x1.ReducesTo [0, 1] S_
  h_S_ : 0 < S_.numel
  bcast_S_S12288x1 : S_.BroadcastsInDim S12288x1 (![] : Fin 0 → Fin S12288x1.rank)
  shapeCasts_S2048x1_S2048x1 : S2048x1.ShapeCasts S2048x1
  shapeCasts_S2048x64_S2048x64 : S2048x64.ShapeCasts S2048x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S2048x1_S2048x64 : S2048x1.Broadcasts S2048x64
  dot_S2048x256_S256x64_S2048x64_1_0_0_1_n_n_wf : DotDims.WF S2048x256 S256x64 S2048x64 [1] [0] [0] [1] [] []
  dot_S2048x64_S64x1_S2048x1_1_0_0_1_n_n_wf : DotDims.WF S2048x64 S64x1 S2048x1 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S12288x256.size a
  hwx0_0 : ∀ i : grid0.Coords, EltTy.bits .f32 = 32 ∨ (Rect.block (s := S12288x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S12288x64.size a
  hwx0_3 : ∀ i : grid0.Coords, EltTy.bits .bf16 = 32 ∨ (Rect.block (s := S12288x64) S2048x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S12288x1.size a
  hwx0_4 : ∀ i : grid0.Coords, EltTy.bits .f32 = 32 ∨ (Rect.block (s := S12288x1) S2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S12288x1.size a
  hwx0_5 : ∀ i : grid0.Coords, EltTy.bits .f32 = 32 ∨ (Rect.block (s := S12288x1) S2048x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S12288x12288.size a
  hwx1_0 : ∀ i : grid1.Coords, EltTy.bits .i32 = 32 ∨ (Rect.block (s := S12288x12288) S2048x1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S12288x1.size a
  hwx1_1 : ∀ i : grid1.Coords, EltTy.bits .f32 = 32 ∨ (Rect.block (s := S12288x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x12288.size a
  hwx1_2 : ∀ i : grid1.Coords, EltTy.bits .f32 = 32 ∨ (Rect.block (s := S1x12288) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S12288x1.size a
  hwx1_3 : ∀ i : grid1.Coords, EltTy.bits .f32 = 32 ∨ (Rect.block (s := S12288x1) S2048x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S12288x64.size a
  hwx1_4 : ∀ i : grid1.Coords, EltTy.bits .bf16 = 32 ∨ (Rect.block (s := S12288x64) S1024x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S12288x64.size a
  hwx1_5 : ∀ i : grid1.Coords, EltTy.bits .f32 = 32 ∨ (Rect.block (s := S12288x64) S2048x64.size (cc1_transform_5 i) (hinb1_5 i)).WholeWords (EltTy.packing .f32)

variable [Facts₀]

def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2048x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_0) S1024x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S2048x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S12288x256 : Shape := ⟨2, ![12288, 256]⟩
abbrev S12288x12288 : Shape := ⟨2, ![12288, 12288]⟩
abbrev S256x64 : Shape := ⟨2, ![256, 64]⟩
abbrev S128x1 : Shape := ⟨2, ![128, 1]⟩
abbrev S12288x64 : Shape := ⟨2, ![12288, 64]⟩
abbrev S64x1 : Shape := ⟨2, ![64, 1]⟩
abbrev S12288x1 : Shape := ⟨2, ![12288, 1]⟩
abbrev S1x12288 : Shape := ⟨2, ![1, 12288]⟩
abbrev S_ : Shape := ⟨0, ![]⟩
abbrev S12288 : Shape := ⟨1, ![12288]⟩

abbrev nBuf : Space → Nat
  | .hbm => 51
  | .vmem => 0
  | .smem => 0
  | _ => 0

abbrev bufTy : (tb : Table) → Fin (tcTables nBuf tb) → BufTy
  | .hbm, ⟨0, _⟩ => ⟨S12288x256, .f32⟩
  | .hbm, ⟨1, _⟩ => ⟨S12288x12288, .i32⟩
  | .hbm, ⟨2, _⟩ => ⟨S256x64, .f32⟩
  | .hbm, ⟨3, _⟩ => ⟨S128x1, .f32⟩
  | .hbm, ⟨4, _⟩ => ⟨S12288x64, .f32⟩
  | .hbm, ⟨5, _⟩ => ⟨S64x1, .f32⟩
  | .hbm, ⟨6, _⟩ => ⟨S64x1, .f32⟩
  | .hbm, ⟨7, _⟩ => ⟨S12288x1, .f32⟩
  | .hbm, ⟨8, _⟩ => ⟨S12288x1, .f32⟩
  | .hbm, ⟨9, _⟩ => ⟨S1x12288, .f32⟩
  | .hbm, ⟨10, _⟩ => ⟨S12288x12288, .f32⟩
  | .hbm, ⟨11, _⟩ => ⟨S12288x12288, .f32⟩
  | .hbm, ⟨12, _⟩ => ⟨S12288x12288, .f32⟩
  | .hbm, ⟨13, _⟩ => ⟨S_, .f32⟩
  | .hbm, ⟨14, _⟩ => ⟨S_, .f32⟩
  | .hbm, ⟨15, _⟩ => ⟨S12288x12288, .f32⟩
  | .hbm, ⟨16, _⟩ => ⟨S12288x12288, .i1⟩
  | .hbm, ⟨17, _⟩ => ⟨S_, .f32⟩
  | .hbm, ⟨18, _⟩ => ⟨S12288x12288, .f32⟩
  | .hbm, ⟨19, _⟩ => ⟨S12288x12288, .f32⟩
  | .hbm, ⟨20, _⟩ => ⟨S12288x12288, .f32⟩
  | .hbm, ⟨21, _⟩ => ⟨S_, .i32⟩
  | .hbm, ⟨22, _⟩ => ⟨S12288x12288, .i32⟩
  | .hbm, ⟨23, _⟩ => ⟨S12288x12288, .i1⟩
  | .hbm, ⟨24, _⟩ => ⟨S_, .f32⟩
  | .hbm, ⟨25, _⟩ => ⟨S_, .f32⟩
  | .hbm, ⟨26, _⟩ => ⟨S12288x12288, .f32⟩
  | .hbm, ⟨27, _⟩ => ⟨S12288x12288, .f32⟩
  | .hbm, ⟨28, _⟩ => ⟨S_, .f32⟩
  | .hbm, ⟨29, _⟩ => ⟨S12288, .f32⟩
  | .hbm, ⟨30, _⟩ => ⟨S_, .f32⟩
  | .hbm, ⟨31, _⟩ => ⟨S12288, .f32⟩
  | .hbm, ⟨32, _⟩ => ⟨S12288, .f32⟩
  | .hbm, ⟨33, _⟩ => ⟨S12288x1, .f32⟩
  | .hbm, ⟨34, _⟩ => ⟨S12288x12288, .f32⟩
  | .hbm, ⟨35, _⟩ => ⟨S12288x12288, .f32⟩
  | .hbm, ⟨36, _⟩ => ⟨S12288x12288, .f32⟩
  | .hbm, ⟨37, _⟩ => ⟨S_, .f32⟩
  | .hbm, ⟨38, _⟩ => ⟨S12288, .f32⟩
  | .hbm, ⟨39, _⟩ => ⟨S12288x1, .f32⟩
  | .hbm, ⟨40, _⟩ => ⟨S12288x12288, .f32⟩
  | .hbm, ⟨41, _⟩ => ⟨S12288x12288, .f32⟩
  | .hbm, ⟨42, _⟩ => ⟨S12288x64, .f32⟩
  | .hbm, ⟨43, _⟩ => ⟨S_, .f32⟩
  | .hbm, ⟨44, _⟩ => ⟨S_, .f32⟩
  | .hbm, ⟨45, _⟩ => ⟨S12288x64, .f32⟩
  | .hbm, ⟨46, _⟩ => ⟨S12288x64, .i1⟩
  | .hbm, ⟨47, _⟩ => ⟨S_, .f32⟩
  | .hbm, ⟨48, _⟩ => ⟨S12288x64, .f32⟩
  | .hbm, ⟨49, _⟩ => ⟨S12288x64, .f32⟩
  | .hbm, ⟨50, _⟩ => ⟨S12288x64, .f32⟩
  | _, _ => ⟨S12288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v25 : Ref sig .tc := ⟨.hbm, 50, rfl⟩

abbrev nD : Nat := 1
abbrev τ : Topo := Topo.v7x

variable {F : FTy → Type} [FloatOps F]

class Facts₀ : Prop where
  slices_S128x1_S64x1_0_0 : S128x1.Slices ![0, 0] S64x1
  slices_S128x1_S64x1_64_0 : S128x1.Slices ![64, 0] S64x1
  transposes_S12288x1_S1x12288_1_0 : S12288x1.Transposes [1, 0] S1x12288
  bcast_S12288x1_S12288x12288_0_1 : S12288x1.BroadcastsInDim S12288x12288 (![0, 1] : Fin 2 → Fin S12288x12288.rank)
  bcast_S1x12288_S12288x12288_0_1 : S1x12288.BroadcastsInDim S12288x12288 (![0, 1] : Fin 2 → Fin S12288x12288.rank)
  bcast_S_S12288x12288 : S_.BroadcastsInDim S12288x12288 (![] : Fin 0 → Fin S12288x12288.rank)
  reducesTo_S12288x12288_S12288_d1 : S12288x12288.ReducesTo [1] S12288
  h_S_ : 0 < S_.numel
  bcast_S_S12288 : S_.BroadcastsInDim S12288 (![] : Fin 0 → Fin S12288.rank)
  bcast_S12288_S12288x1_0 : S12288.BroadcastsInDim S12288x1 (![0] : Fin 1 → Fin S12288x1.rank)
  bcast_S_S12288x64 : S_.BroadcastsInDim S12288x64 (![] : Fin 0 → Fin S12288x64.rank)
  dot_S12288x256_S256x64_S12288x64_1_0_0_1_n_n_wf : DotDims.WF S12288x256 S256x64 S12288x64 [1] [0] [0] [1] [] []
  dot_S12288x64_S64x1_S12288x1_1_0_0_1_n_n_wf : DotDims.WF S12288x64 S64x1 S12288x1 [1] [0] [0] [1] [] []
  dot_S12288x12288_S12288x64_S12288x64_1_0_0_1_n_n_wf : DotDims.WF S12288x12288 S12288x64 S12288x64 [1] [0] [0] [1] [] []

variable [Facts₀]

def dot_S12288x256_S256x64_S12288x64_1_0_0_1_n_n : DotDims S12288x256 S256x64 S12288x64 where
  lhsContracting := [1]
  rhsContracting := [0]
  lhsNonContracting := [0]
  rhsNonContracting := [1]
  lhsBatch := []
  rhsBatch := []
  wf := dot_S12288x256_S256x64_S12288x64_1_0_0_1_n_n_wf
def dot_S12288x64_S64x1_S12288x1_1_0_0_1_n_n : DotDims S12288x64 S64x1 S12288x1 where
  lhsContracting := [1]
  rhsContracting := [0]
  lhsNonContracting := [0]
  rhsNonContracting := [1]
  lhsBatch := []
  rhsBatch := []
  wf := dot_S12288x64_S64x1_S12288x1_1_0_0_1_n_n_wf
def dot_S12288x12288_S12288x64_S12288x64_1_0_0_1_n_n : DotDims S12288x12288 S12288x64 S12288x64 where
  lhsContracting := [1]
  rhsContracting := [0]
  lhsNonContracting := [0]
  rhsNonContracting := [1]
  lhsBatch := []
  rhsBatch := []
  wf := dot_S12288x12288_S12288x64_S12288x64_1_0_0_1_n_n_wf

class Facts : Prop extends Facts₀ where

variable [Facts]
-- ==== Proof.Region0.lean ====
/-
  The projection kernel (the first of the program's two kernels) as one region of the launch.

  Its grid has six points, one per tile of 2048 rows. At a point it reads three blocks — 2048 rows of x, all of W,
  all of the attention vector — and stores three blocks whole: the rows' features h = x·W (kept in the narrow float
  format), and the two columns w1 = h·a[0:64], w2 = h·a[64:128]. Nothing is kept between points, so what each
  output buffer holds after the body is a function of the three input blocks alone: the one store into it, read back.
  Everything here is stated at a parameter V, the contents of the core's buffers when the region is entered.
-/
import proofs.«100860_j31645319037629_2_alg».proof.Proof.Gen.KernelIdeal.Launch
import proofs.«100860_j31645319037629_2_alg».proof.Proof.Gen.KernelIdeal.Skeleton
import proofs.«100860_j31645319037629_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched the block's index has not moved since it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store takes its buffer whole -/

abbrev rX : Rect S2048x256 := Rect.unit (s := S2048x256) ![0, 0] S2048x256.size inb_S2048x256_S2048x256_0_0
abbrev rW : Rect S256x64 := Rect.unit (s := S256x64) ![0, 0] S256x64.size inb_S256x64_S256x64_0_0
abbrev rA : Rect S128x1 := Rect.unit (s := S128x1) ![0, 0] S128x1.size inb_S128x1_S128x1_0_0
abbrev rH : Rect S2048x64 := Rect.unit (s := S2048x64) ![0, 0] S2048x64.size inb_S2048x64_S2048x64_0_0
abbrev rC : Rect S2048x1 := Rect.unit (s := S2048x1) ![0, 0] S2048x1.size inb_S2048x1_S2048x1_0_0

/-! ## What the body leaves in each output window's buffer -/

/-- The features' buffer after the body: its one store, read back. -/
def out0_3 (x0 : Vec F S2048x256 .f32) (x1 : Vec F S256x64 .f32) : Vec F S2048x64 .bf16 :=
  View.canon [⟨rH, k0_pay2 (View.ld x0 rX) (View.ld x1 rW)⟩]
/-- The source scores' buffer after the body. -/
def out0_4 (x0 : Vec F S2048x256 .f32) (x1 : Vec F S256x64 .f32) (x2 : Vec F S128x1 .f32) : Vec F S2048x1 .f32 :=
  View.canon [⟨rC, k0_pay3 (View.ld x0 rX) (View.ld x1 rW) (View.ld x2 rA)⟩]
/-- The destination scores' buffer after the body. -/
def out0_5 (x0 : Vec F S2048x256 .f32) (x1 : Vec F S256x64 .f32) (x2 : Vec F S128x1 .f32) : Vec F S2048x1 .f32 :=
  View.canon [⟨rC, k0_pay4 (View.ld x0 rX) (View.ld x1 rW) (View.ld x2 rA)⟩]

/-- A store of the whole buffer covers it. -/
theorem cover0_H (p0 : Vec F S2048x64 .bf16) (y : S2048x64.Idx) :
    ∃ pc ∈ ([⟨rH, p0⟩] : List (View.Piece (Elt F) S2048x64 .bf16)), y ∈ pc.1.set :=
  View.cover_of_tiled [⟨rH, p0⟩] S2048x64.size (by rfl) y
theorem cover0_C (p0 : Vec F S2048x1 .f32) (y : S2048x1.Idx) :
    ∃ pc ∈ ([⟨rC, p0⟩] : List (View.Piece (Elt F) S2048x1 .f32)), y ∈ pc.1.set :=
  View.cover_of_tiled [⟨rC, p0⟩] S2048x1.size (by rfl) y

/-! ## The body's triple -/

set_option maxHeartbeats 4000000 in
/-- The body on whole staging memrefs, the inputs' at their contents and the outputs' at anything, runs to the
    continuation holding the inputs' as they were and each output's at its store read back. -/
theorem sound_kernel0 (c : Dev nD) (E : Set ℕ) (i : grid0.Coords)
    (arg1 : Memref sig .tc .vmem S2048x256 .f32) (harg1 : arg1.IsWhole) (arg2 : Memref sig .tc .vmem S256x64 .f32) (harg2 : arg2.IsWhole)
    (arg3 : Memref sig .tc .vmem S128x1 .f32) (harg3 : arg3.IsWhole) (arg4 : Memref sig .tc .vmem S2048x64 .bf16) (harg4 : arg4.IsWhole)
    (arg5 : Memref sig .tc .vmem S2048x1 .f32) (harg5 : arg5.IsWhole) (arg6 : Memref sig .tc .vmem S2048x1 .f32) (harg6 : arg6.IsWhole)
    (x0 : Vec F S2048x256 .f32) (x1 : Vec F S256x64 .f32) (x2 : Vec F S128x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_H _)
  isplitl [H4]
  · iexists _; isplitr
    swap; · iexact H4
    ipureintro
    exact View.read_writes_eq_canon _ _ _ (cover0_C _)
  iexists _; isplitr
  swap; · iexact H5
  ipureintro
  exact View.read_writes_eq_canon _ _ _ (cover0_C _)

/-! ## The region's proof data -/

/-- The proof data of the projection kernel's pipeline on core `c`: the arrays as the region finds them; after the body
    at point `t` each input's buffer at its block and each output's at its store of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Runs.lean ====
/-
  The attention kernel's body, run once per case of its two conditionals.

  The grid is 6 × 12: a point (q, k) handles the 2048 × 1024 tile of query rows q and key columns k. Two scratch buffers
  are carried along the key axis: the running sum l of the exponentials of a row, and the running sum acc of the
  exponentials times the keys' features. At k = 0 both are first reset to zero; at every k the tile's terms are added;
  at k = 11 the output block is stored, acc / l followed by the leaky rectifier. So there are three cases:
  A (k = 0), B (0 < k < 11) and C (k = 11). In each, what the run leaves in a buffer is the list of the pieces it stored
  there, found when the run hands the buffer on.
-/
import proofs.«100860_j31645319037629_2_alg».proof.Proof.Gen.KernelIdeal.Launch
import proofs.«100860_j31645319037629_2_alg».proof.Proof.Gen.KernelIdeal.Skeleton
import proofs.«100860_j31645319037629_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The first conditional's condition: the key coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 12 = 0 :=
  (by decide +kernel : ∀ t : Fin grid1.N, cond1_0 (grid1.coords t) ↔ t.val % 12 = 0)
/-- The second conditional's condition: the key coordinate is 11, the last. -/
abbrev cond1_1 (i : grid1.Coords) : Prop := k1_cond2 i = 1#1
theorem hcond1_1 : ∀ t : Fin cfg1.N, cond1_1 (grid1.coords t) ↔ t.val % 12 = 11 :=
  (by decide +kernel : ∀ t : Fin grid1.N, cond1_1 (grid1.coords t) ↔ t.val % 12 = 11)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last key tile the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last key tile it is live. -/
theorem liveAt1_5 : ∀ t : Fin cfg1.N, cond1_1 (grid1.coords t) → cfg1.idle 5 (grid1.coords t) = false := by decide +kernel

/-! ## The memrefs the pipeline passes the body -/

abbrev VO1_5 : View sig .tc .vmem S2048x64 .f32 := (Memref.whole cc1_stg5_0 : Memref sig .tc .vmem S2048x64 .f32).view
abbrev ms1_0 (t : Fin cfg1.N) : Memref sig .tc .vmem S2048x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x64 .f32 := win1_5.stage (cfg1.slots t 5)
abbrev hs1_5 (t : Fin cfg1.N) : (ms1_5 t).IsWhole := hstage1_5 ((cfg1.slots t 5).cast nbuf1_5)
/-- The two scratch operands: the row sums l and the weighted sums acc. -/
abbrev scM1_0 : Memref sig .tc .vmem S2048x1 .f32 := Memref.whole cc1_scratch0
abbrev scM1_1 : Memref sig .tc .vmem S2048x64 .f32 := Memref.whole cc1_scratch1
abbrev VS1_0 : View sig .tc .vmem S2048x1 .f32 := scM1_0.view
abbrev VS1_1 : View sig .tc .vmem S2048x64 .f32 := scM1_1.view

/-- A scoped buffer of the core that this kernel does not use, whole at some contents. -/
abbrev spare (c : Dev nD) (b : Ref sig .tc) : sProp 𝕄 :=
  iprop(∃ f : Buf (Elt F) ((c : Thread nD τ).loc b), ((c : Thread nD τ).loc b) ↦{fullShare} f)

/-- The region's class invariant with the two scratch operands named: the other kernel's ten staging buffers at
    anything, the two scratch buffers owned at some contents, the generator register at some state. -/
theorem PhiA1_eq (c : Dev nD) :
    (Pipeline.ΦA spec1 c : sProp 𝕄)
      = iprop(iprop(spare c cc0_stg0_0 ∗ spare c cc0_stg0_1 ∗ spare c cc0_stg1_0 ∗ spare c cc0_stg2_0 ∗ spare c cc0_stg3_0 ∗ spare c cc0_stg3_1
          ∗ spare c cc0_stg4_0 ∗ spare c cc0_stg4_1 ∗ spare c cc0_stg5_0 ∗ spare c cc0_stg5_1
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The three runs -/

set_option maxHeartbeats 8000000 in
/-- CASE A (key tile 0): both scratch buffers are reset, then the tile's terms are added; the output is not touched. -/
noncomputable def kernelRun1_A (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : cond1_0 i) (hc1 : ¬cond1_1 i)
    (x0 : Vec F S2048x1024 .i32) (x1 : Vec F S2048x1 .f32) (x2 : Vec F S1x1024 .f32) (x3 : Vec F S2048x1 .f32) (x4 : Vec F S1024x64 .bf16) :
    Σ' (L5 : List (View.Piece (Elt F) S2048x64 .f32)), Σ' (LS0 : List (View.Piece (Elt F) S2048x1 .f32)), { LS1 : List (View.Piece (Elt F) S2048x64 .f32) //
      ∀ (xi5 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 8000000 in
/-- CASE B (a middle key tile): the tile's terms are added to what the tile before left; the output is not touched. -/
noncomputable def kernelRun1_B (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : ¬cond1_1 i)
    (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) :
    Σ' (L5 : List (View.Piece (Elt F) S2048x64 .f32)), Σ' (LS0 : List (View.Piece (Elt F) S2048x1 .f32)), { LS1 : List (View.Piece (Elt F) S2048x64 .f32) //
      ∀ (xi5 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 8000000 in
/-- CASE C (the last key tile): the tile's terms are added, then the output block is stored from the two sums. -/
noncomputable def kernelRun1_C (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : cond1_1 i)
    (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) :
    Σ' (L5 : List (View.Piece (Elt F) S2048x64 .f32)), Σ' (LS0 : List (View.Piece (Elt F) S2048x1 .f32)), { LS1 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.KernelIdeal.Hand

end
-- ==== Proof.Region1.lean ====
/-
  The attention kernel as one region of the launch: what its two carried sums and its output block hold after each
  grid point, and the body's obligation to the pipeline.

  The points are numbered row-major over the 6 × 12 grid, so point n handles key tile n mod 12 of query tile n / 12.
  After point n the two scratch buffers hold the sums over the key tiles 0 … n mod 12 of the current query tile:
  at n mod 12 = 0 they restart from zero, otherwise they continue from what point n − 1 left. The output block is
  stored at n mod 12 = 11 only; at the other points its window is idle and is handed back as it was found.
-/
import proofs.«100860_j31645319037629_2_alg».proof.Proof.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## Pieces read back -/

/-- A list of pieces written into the output block's buffer, read back. -/
def rd5 (L : List (View.Piece (Elt F) S2048x64 .f32)) : Vec F S2048x64 .f32 := VO1_5.read (Elt F) (VO1_5.writes (Elt F) VO1_5.junk L)
/-- The same for the row sums' scratch … -/
def rdS0 (L : List (View.Piece (Elt F) S2048x1 .f32)) : Vec F S2048x1 .f32 := VS1_0.read (Elt F) (VS1_0.writes (Elt F) VS1_0.junk L)
/-- … and for the weighted sums' scratch. -/
def rdS1 (L : List (View.Piece (Elt F) S2048x64 .f32)) : Vec F S2048x64 .f32 := VS1_1.read (Elt F) (VS1_1.writes (Elt F) VS1_1.junk L)

/-! ## Each case's pieces cover the buffers it stores into -/

theorem scover1_A_0 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : cond1_0 i) (hc1 : ¬cond1_1 i) (x0 : Vec F S2048x1024 .i32) (x1 : Vec F S2048x1 .f32) (x2 : Vec F S1x1024 .f32) (x3 : Vec F S2048x1 .f32) (x4 : Vec F S1024x64 .bf16) (y : S2048x1.Idx) :
    ∃ pc ∈ (kernelRun1_A (F := F) c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun1_A (F := F) c i arg2 harg2 arg3 harg3 arg4 harg4 arg5 harg5 arg6 harg6 arg7 harg7 arg8 harg8 arg9 harg9 hc0 hc1 x0 x1 x2 x3 x4).2.1 S2048x1.size (by sl_kernel_rfl) y
theorem scover1_A_1 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : cond1_0 i) (hc1 : ¬cond1_1 i) (x0 : Vec F S2048x1024 .i32) (x1 : Vec F S2048x1 .f32) (x2 : Vec F S1x1024 .f32) (x3 : Vec F S2048x1 .f32) (x4 : Vec F S1024x64 .bf16) (y : S2048x64.Idx) :
    ∃ pc ∈ (kernelRun1_A (F := F) c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun1_A (F := F) c i arg2 harg2 arg3 harg3 arg4 harg4 arg5 harg5 arg6 harg6 arg7 harg7 arg8 harg8 arg9 harg9 hc0 hc1 x0 x1 x2 x3 x4).2.2.1 S2048x64.size (by sl_kernel_rfl) y
theorem scover1_B_0 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : ¬cond1_1 i) (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) (y : S2048x1.Idx) :
    ∃ pc ∈ (kernelRun1_B (F := F) c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_B (F := F) c i arg2 harg2 arg3 harg3 arg4 harg4 arg5 harg5 arg6 harg6 arg7 harg7 arg8 harg8 arg9 harg9 hc0 hc1 x0 x1 x2 x3 x4 xs0 xs1).2.1 S2048x1.size (by sl_kernel_rfl) y
theorem scover1_B_1 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : ¬cond1_1 i) (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) (y : S2048x64.Idx) :
    ∃ pc ∈ (kernelRun1_B (F := F) c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun1_B (F := F) c i arg2 harg2 arg3 harg3 arg4 harg4 arg5 harg5 arg6 harg6 arg7 harg7 arg8 harg8 arg9 harg9 hc0 hc1 x0 x1 x2 x3 x4 xs0 xs1).2.2.1 S2048x64.size (by sl_kernel_rfl) y
theorem cover1_C_5 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : cond1_1 i) (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) (y : S2048x64.Idx) :
    ∃ pc ∈ (kernelRun1_C (F := F) c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun1_C (F := F) c i arg2 harg2 arg3 harg3 arg4 harg4 arg5 harg5 arg6 harg6 arg7 harg7 arg8 harg8 arg9 harg9 hc0 hc1 x0 x1 x2 x3 x4 xs0 xs1).1 S2048x64.size (by sl_kernel_rfl) y
theorem scover1_C_0 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : cond1_1 i) (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) (y : S2048x1.Idx) :
    ∃ pc ∈ (kernelRun1_C (F := F) c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_C (F := F) c i arg2 harg2 arg3 harg3 arg4 harg4 arg5 harg5 arg6 harg6 arg7 harg7 arg8 harg8 arg9 harg9 hc0 hc1 x0 x1 x2 x3 x4 xs0 xs1).2.1 S2048x1.size (by sl_kernel_rfl) y
theorem scover1_C_1 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : cond1_1 i) (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) (y : S2048x64.Idx) :
    ∃ pc ∈ (kernelRun1_C (F := F) c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun1_C (F := F) c i arg2 harg2 arg3 harg3 arg4 harg4 arg5 harg5 arg6 harg6 arg7 harg7 arg8 harg8 arg9 harg9 hc0 hc1 x0 x1 x2 x3 x4 xs0 xs1).2.2.1 S2048x64.size (by sl_kernel_rfl) y

/-! ## The runs at a grid point -/

/-- The run of case A at point `t`: the pipeline's memrefs, the two scratch operands, the point's input blocks. -/
def runA (c : Dev nD) (t : Fin cfg1.N) (h0 : t.val % 12 = 0) (h1 : ¬t.val % 12 = 11) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)
/-- The run of case B at point `t`, the scratch buffers found at `xs0`, `xs1`. -/
def runB (c : Dev nD) (t : Fin cfg1.N) (h0 : ¬t.val % 12 = 0) (h1 : ¬t.val % 12 = 11) (xs0 : Vec F S2048x1 .f32) (xs1 : Vec F S2048x64 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0 xs1
/-- The run of case C at point `t`, the scratch buffers found at `xs0`, `xs1`. -/
def runC (c : Dev nD) (t : Fin cfg1.N) (h0 : ¬t.val % 12 = 0) (h1 : t.val % 12 = 11) (xs0 : Vec F S2048x1 .f32) (xs1 : Vec F S2048x64 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) xs0 xs1

/-! ## What the output block and the two carried sums hold after each point -/

/-- THE ACCUMULATION: after position `n`, the output block's buffer, the row sums and the weighted sums (in that
    order). Case A restarts; cases B and C continue from what position `n − 1` left in the two scratch buffers. -/
def outsAt1 (c : Dev nD) : (n : ℕ) → n < cfg1.N → Vec F S2048x64 .f32 × Vec F S2048x1 .f32 × Vec F S2048x64 .f32
  | 0, hn => (rd5 (runA V c ⟨0, hn⟩ (Nat.zero_mod _) (by show ¬ (0 : ℕ) % 12 = 11; decide)).1, rdS0 (runA V c ⟨0, hn⟩ (Nat.zero_mod _) (by show ¬ (0 : ℕ) % 12 = 11; decide)).2.1, rdS1 (runA V c ⟨0, hn⟩ (Nat.zero_mod _) (by show ¬ (0 : ℕ) % 12 = 11; decide)).2.2.1)
  | n + 1, hn =>
    if h0 : (n + 1) % 12 = 0 then
      (rd5 (runA V c ⟨n + 1, hn⟩ h0 (by show ¬ (n + 1) % 12 = 11; omega)).1, rdS0 (runA V c ⟨n + 1, hn⟩ h0 (by show ¬ (n + 1) % 12 = 11; omega)).2.1, rdS1 (runA V c ⟨n + 1, hn⟩ h0 (by show ¬ (n + 1) % 12 = 11; omega)).2.2.1)
    else if h1 : (n + 1) % 12 = 11 then
      (rd5 (runC V c ⟨n + 1, hn⟩ h0 h1 (outsAt1 c n (Nat.lt_of_succ_lt hn)).2.1 (outsAt1 c n (Nat.lt_of_succ_lt hn)).2.2).1,
       rdS0 (runC V c ⟨n + 1, hn⟩ h0 h1 (outsAt1 c n (Nat.lt_of_succ_lt hn)).2.1 (outsAt1 c n (Nat.lt_of_succ_lt hn)).2.2).2.1,
       rdS1 (runC V c ⟨n + 1, hn⟩ h0 h1 (outsAt1 c n (Nat.lt_of_succ_lt hn)).2.1 (outsAt1 c n (Nat.lt_of_succ_lt hn)).2.2).2.2.1)
    else
      (rd5 (runB V c ⟨n + 1, hn⟩ h0 h1 (outsAt1 c n (Nat.lt_of_succ_lt hn)).2.1 (outsAt1 c n (Nat.lt_of_succ_lt hn)).2.2).1,
       rdS0 (runB V c ⟨n + 1, hn⟩ h0 h1 (outsAt1 c n (Nat.lt_of_succ_lt hn)).2.1 (outsAt1 c n (Nat.lt_of_succ_lt hn)).2.2).2.1,
       rdS1 (runB V c ⟨n + 1, hn⟩ h0 h1 (outsAt1 c n (Nat.lt_of_succ_lt hn)).2.1 (outsAt1 c n (Nat.lt_of_succ_lt hn)).2.2).2.2.1)

/-- The position before `t`, inside the grid. -/
theorem pred_lt (t : Fin cfg1.N) : t.val - 1 < cfg1.N := Nat.lt_of_le_of_lt (Nat.sub_le _ _) t.isLt

theorem outsAt1_A (c : Dev nD) (t : Fin cfg1.N) (h0 : t.val % 12 = 0) (h1 : ¬t.val % 12 = 11) :
    outsAt1 V c t.val t.isLt = (rd5 (runA V c t h0 h1).1, rdS0 (runA V c t h0 h1).2.1, rdS1 (runA V c t h0 h1).2.2.1) := by
  obtain ⟨n, hn⟩ := t
  cases n with
  | zero => rfl
  | succ n => exact (dif_pos h0).trans rfl

theorem outsAt1_B (c : Dev nD) (t : Fin cfg1.N) (h0 : ¬t.val % 12 = 0) (h1 : ¬t.val % 12 = 11) :
    outsAt1 V c t.val t.isLt = (rd5 (runB V c t h0 h1 (outsAt1 V c (t.val - 1) (pred_lt t)).2.1 (outsAt1 V c (t.val - 1) (pred_lt t)).2.2).1,
      rdS0 (runB V c t h0 h1 (outsAt1 V c (t.val - 1) (pred_lt t)).2.1 (outsAt1 V c (t.val - 1) (pred_lt t)).2.2).2.1,
      rdS1 (runB V c t h0 h1 (outsAt1 V c (t.val - 1) (pred_lt t)).2.1 (outsAt1 V c (t.val - 1) (pred_lt t)).2.2).2.2.1) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 12 = 0) (h1 : t.val % 12 = 11) :
    outsAt1 V c t.val t.isLt = (rd5 (runC V c t h0 h1 (outsAt1 V c (t.val - 1) (pred_lt t)).2.1 (outsAt1 V c (t.val - 1) (pred_lt t)).2.2).1,
      rdS0 (runC V c t h0 h1 (outsAt1 V c (t.val - 1) (pred_lt t)).2.1 (outsAt1 V c (t.val - 1) (pred_lt t)).2.2).2.1,
      rdS1 (runC V c t h0 h1 (outsAt1 V c (t.val - 1) (pred_lt t)).2.1 (outsAt1 V c (t.val - 1) (pred_lt t)).2.2).2.2.1) := by
  obtain ⟨n, hn⟩ := t
  cases n with
  | zero => exact absurd (Nat.zero_mod _) h0
  | succ n => exact (dif_neg h0).trans ((dif_pos h1).trans rfl)

/-! ## The region invariant -/

/-- Before position `n`: at the start the class's invariant (every scoped buffer at anything, the generator register
    at some state); afterwards the same with the two scratch buffers at what position `n − 1` left in them. -/
def PhiS (c : Dev nD) : (n : ℕ) → n ≤ cfg1.N → sProp 𝕄
  | 0, _ => Pipeline.ΦA spec1 c
  | n + 1, hn => iprop(iprop(spare c cc0_stg0_0 ∗ spare c cc0_stg0_1 ∗ spare c cc0_stg1_0 ∗ spare c cc0_stg2_0 ∗ spare c cc0_stg3_0 ∗ spare c cc0_stg3_1 ∗ spare c cc0_stg4_0 ∗ spare c cc0_stg4_1 ∗ spare c cc0_stg5_0 ∗ spare c cc0_stg5_1
      ∗ owns (c : Thread nD τ) scM1_0 fullShare ((outsAt1 V c n hn).2.1) ∗ owns (c : Thread nD τ) scM1_1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(spare c cc0_stg0_0 ∗ spare c cc0_stg0_1 ∗ spare c cc0_stg1_0 ∗ spare c cc0_stg2_0 ∗ spare c cc0_stg3_0 ∗ spare c cc0_stg3_1 ∗ spare c cc0_stg4_0 ∗ spare c cc0_stg4_1 ∗ spare c cc0_stg5_0 ∗ spare c cc0_stg5_1
      ∗ owns (c : Thread nD τ) scM1_0 fullShare ((outsAt1 V c n hn).2.1) ∗ owns (c : Thread nD τ) scM1_1 fullShare ((outsAt1 V c n hn).2.2)) ∗ (∃ r, prngReg c r)) := rfl

theorem PhiS_pos (c : Dev nD) (n : ℕ) (h : n ≤ cfg1.N) (hz : n ≠ 0) :
    PhiS V c n h = iprop(iprop(spare c cc0_stg0_0 ∗ spare c cc0_stg0_1 ∗ spare c cc0_stg1_0 ∗ spare c cc0_stg2_0 ∗ spare c cc0_stg3_0 ∗ spare c cc0_stg3_1 ∗ spare c cc0_stg4_0 ∗ spare c cc0_stg4_1 ∗ spare c cc0_stg5_0 ∗ spare c cc0_stg5_1
      ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 16000000 in
/-- The body at any point. The key coordinate says which case the point is in; the invariant hands the body the two
    scratch buffers at what the point before left (at anything, at the very first point) and takes them back at this
    point's sums; away from the last key tile the output's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 72 := lt_of_lt_of_eq t.isLt (show cfg1.N = 72 from N_1)
  by_cases h0 : t.val % 12 = 0
  · have h1 : ¬t.val % 12 = 11 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [Dat.leavesExact_idle (dat1 V c) 5 t (idleAt1_5 t (fun h => h1 ((hcond1_1 t).mp h))) (noFlush1_5 t (fun h => h1 ((hcond1_1 t).mp h)))]
    rw [outsAt1_A V c t h0 h1]
    (try dsimp only)
    by_cases hz : t.val = 0
    · skip
      rw [PhiS_castSucc V c t, PhiS_zero V c _ _ hz, PhiA1_eq]
      iintro ⟨⟨⟨R0, R1, R2, R3, R4, R5, R6, R7, R8, R9, HS0, HS1⟩, Hg⟩, Ho, ⟨%d0, H0⟩, ⟨%d1, H1⟩, ⟨%d2, H2⟩, ⟨%d3, H3⟩, ⟨%d4, H4⟩, ⟨%d5, H5⟩⟩
      iapply ((runA V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [R0 R1 R2 R3 R4 R5 R6 R7 R8 R9 HS0 HS1 Hg]
      · isplitl [R0 R1 R2 R3 R4 R5 R6 R7 R8 R9 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · skip
      rw [PhiS_castSucc V c t, PhiS_pos V c _ _ hz]
      iintro ⟨⟨⟨R0, R1, R2, R3, R4, R5, R6, R7, R8, R9, HS0, HS1⟩, Hg⟩, Ho, ⟨%d0, H0⟩, ⟨%d1, H1⟩, ⟨%d2, H2⟩, ⟨%d3, H3⟩, ⟨%d4, H4⟩, ⟨%d5, H5⟩⟩
      iapply ((runA V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [R0 R1 R2 R3 R4 R5 R6 R7 R8 R9 HS0 HS1 Hg]
      · isplitl [R0 R1 R2 R3 R4 R5 R6 R7 R8 R9 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 12 = 11
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      (try dsimp only)
      rw [PhiS_castSucc V c t, PhiS_pos V c _ _ hz]
      iintro ⟨⟨⟨R0, R1, R2, R3, R4, R5, R6, R7, R8, R9, HS0, HS1⟩, Hg⟩, Ho, ⟨%d0, H0⟩, ⟨%d1, H1⟩, ⟨%d2, H2⟩, ⟨%d3, H3⟩, ⟨%d4, H4⟩, ⟨%d5, H5⟩⟩
      iapply ((runC V c t h0 h1 _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [R0 R1 R2 R3 R4 R5 R6 R7 R8 R9 HS0 HS1 Hg]
      · isplitl [R0 R1 R2 R3 R4 R5 R6 R7 R8 R9 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _)
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      (try dsimp only)
      rw [PhiS_castSucc V c t, PhiS_pos V c _ _ hz]
      iintro ⟨⟨⟨R0, R1, R2, R3, R4, R5, R6, R7, R8, R9, HS0, HS1⟩, Hg⟩, Ho, ⟨%d0, H0⟩, ⟨%d1, H1⟩, ⟨%d2, H2⟩, ⟨%d3, H3⟩, ⟨%d4, H4⟩, ⟨%d5, H5⟩⟩
      iapply ((runB V c t h0 h1 _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [R0 R1 R2 R3 R4 R5 R6 R7 R8 R9 HS0 HS1 Hg]
      · isplitl [R0 R1 R2 R3 R4 R5 R6 R7 R8 R9 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the sums in the scratch buffers are forgotten. -/
theorem hout1 (c : Dev nD) : (dat1 V c).Φ (Fin.last cfg1.N) ⊢ Pipeline.ΦA spec1 c := by
  have ht : (Fin.last cfg1.N).val ≠ 0 := by rw [Fin.val_last]; have : cfg1.N = 72 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨R0, R1, R2, R3, R4, R5, R6, R7, R8, R9, HS0, HS1⟩, Hg⟩
  isplitl [R0 R1 R2 R3 R4 R5 R6 R7 R8 R9 HS0 HS1]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS0]; · iexists _; iexact HS0
    iexists _; iexact HS1
  iexact Hg

end Cert.KernelIdeal.Hand

end
-- ==== Proof.KernelRun.lean ====
/-
  The whole program as four segments — the projection kernel's region, two stretches of host operations (the
  transpose of w2, its maximum, the row shift m; then the leaky rectifier's called function), the attention kernel's
  region — and its run: every weakly fair execution terminates, faults nowhere, and ends with every unscoped buffer of
  a core at the last of five valuations, each computed from the one before: the launch memory; the first region's
  arrays at what its write-backs leave; the two host stretches applied; the second region's arrays at what its
  write-backs leave. The frame (the four arguments end as launched) and the result array are read off that.
-/
import proofs.«100860_j31645319037629_2_alg».proof.Proof.Region0
import proofs.«100860_j31645319037629_2_alg».proof.Proof.Region1
import proofs.«100860_j31645319037629_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the projection kernel's entry). -/
abbrev W0 : Dev nD → Valuation τ sig (Elt F) := fun c b => (s₀ m ρ).mem ((c : Dev nD), b)
abbrev Va : (c : Dev nD) → (b : Ref sig .tc) → Buf (Elt F) ((c : Thread nD τ).loc b) := fun c b => W0 m ρ c b
/-- After the projection kernel: its arrays at what the pipeline leaves, every other buffer as entered. -/
def W1 (c : Dev nD) : Valuation τ sig (Elt F) :=
  Pipeline.withArrays spec0 c (W0 m ρ c) fun w => (dat0 (Va m ρ) c).arrAt w cfg0.N
theorem W1_arr (c : Dev nD) (w : Fin cfg0.W) :
    W1 m ρ c (Proc.devRef .tc (Pipeline.arrRef spec0 w)) = (dat0 (Va m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vb : (c : Dev nD) → (b : Ref sig .tc) → Buf (Elt F) ((c : Thread nD τ).loc b) := fun c b => W1 m ρ c b
theorem hF0 (c : Dev nD) (w : Fin cfg0.W) : (dat0 (Va m ρ) c).arrAt w cfg0.N = Vb m ρ c (Pipeline.arrRef spec0 w) :=
  (W1_arr m ρ c w).symm
theorem hrest0 (c : Dev nD) : ∀ b, b ∉ Finset.univ.image (Pipeline.arrRef spec0) → Vb m ρ c b = Va m ρ c b :=
  fun b hb => W1_of_ne m ρ c b fun w e => hb (Finset.mem_image.mpr ⟨w, Finset.mem_univ _, e⟩)

/-- After the first host stretch, -/
abbrev W2 : Dev nD → Valuation τ sig (Elt F) := fun c => StableHlo.after hostOps1 (W1 m ρ c)
/-- and after the second (the attention kernel's entry). -/
abbrev W3 : Dev nD → Valuation τ sig (Elt F) := fun c => StableHlo.after hostOps1_1 (W2 m ρ c)
abbrev Vc : (c : Dev nD) → (b : Ref sig .tc) → Buf (Elt F) ((c : Thread nD τ).loc b) := fun c b => W3 m ρ c b
/-- After the attention kernel: its arrays at what the pipeline leaves, every other buffer as entered. -/
def W4 (c : Dev nD) : Valuation τ sig (Elt F) :=
  Pipeline.withArrays spec1 c (W3 m ρ c) fun w => (dat1 (Vc m ρ) c).arrAt w cfg1.N
theorem W4_arr (c : Dev nD) (w : Fin cfg1.W) :
    W4 m ρ c (Proc.devRef .tc (Pipeline.arrRef spec1 w)) = (dat1 (Vc m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vd : (c : Dev nD) → (b : Ref sig .tc) → Buf (Elt F) ((c : Thread nD τ).loc b) := fun c b => W4 m ρ c b
theorem hF1 (c : Dev nD) (w : Fin cfg1.W) : (dat1 (Vc m ρ) c).arrAt w cfg1.N = Vd m ρ c (Pipeline.arrRef spec1 w) :=
  (W4_arr m ρ c w).symm
theorem hrest1 (c : Dev nD) : ∀ b, b ∉ Finset.univ.image (Pipeline.arrRef spec1) → Vd m ρ c b = Vc m ρ c b :=
  fun b hb => W4_of_ne m ρ c b fun w e => hb (Finset.mem_image.mpr ⟨w, Finset.mem_univ _, e⟩)

/-- A buffer neither host stretch writes passes through both. -/
theorem W3_of (c : Dev nD) (r : Ref sig .tc) (h1 : r ∉ (hostOps1_W : List (Ref sig .tc))) (h2 : r ∉ (hostOps1_1_W : List (Ref sig .tc))) :
    W3 m ρ c (Proc.devRef .tc r) = W1 m ρ c (Proc.devRef .tc r) :=
  (StableHlo.after_of_writes_sub hostOps1_1 _ hostOps1_1_writes h2).trans (StableHlo.after_of_writes_sub hostOps1 _ hostOps1_writes h1)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W1 m ρ c (Proc.devRef .tc main_arg0) := W3_of m ρ c main_arg0 (by decide) (by decide)
    _ = W0 m ρ c (Proc.devRef .tc main_arg0) := (W1_arr m ρ c 0).trans (((dat0 (Va m ρ) c).arrAt_in 0 rfl _).trans (A_eq0 (Va m ρ) c 0))
    _ = m ((c : Thread nD τ).loc main_arg0) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W1 m ρ c (Proc.devRef .tc main_arg2) := W3_of m ρ c main_arg2 (by decide) (by decide)
    _ = W0 m ρ c (Proc.devRef .tc main_arg2) := (W1_arr m ρ c 1).trans (((dat0 (Va m ρ) c).arrAt_in 1 rfl _).trans (A_eq0 (Va m ρ) c 1))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W1 m ρ c (Proc.devRef .tc main_arg3) := W3_of m ρ c main_arg3 (by decide) (by decide)
    _ = W0 m ρ c (Proc.devRef .tc main_arg3) := (W1_arr m ρ c 2).trans (((dat0 (Va m ρ) c).arrAt_in 2 rfl _).trans (A_eq0 (Va m ρ) c 2))
    _ = m ((c : Thread nD τ).loc main_arg3) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (Vc m ρ) c).arrAt_in 0 rfl _).trans (A_eq1 (Vc m ρ) c 0))
    _ = W1 m ρ c (Proc.devRef .tc main_arg1) := W3_of m ρ c main_arg1 (by decide) (by decide)
    _ = W0 m ρ c (Proc.devRef .tc main_arg1) := W1_of_ne m ρ c main_arg1 (by decide)
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vc m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection kernel's region: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel's region: entered from every unscoped buffer at `W3`, left at `W4`. Its invariant starts as
    the class's and ends giving it back, the sums in the two scratch buffers forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vc m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from hout1 (Vc m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vc m ρ c) (Vd m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .region (reg1 m ρ) ]

/-- @main is the run of the four segments. -/
theorem main_run (c : Dev nD) : main (F := F) c = Pipeline.Seg.run (segs m ρ) := by
  rw [main_chain c, Pipeline.Seg.run_eq_chain]; rfl

set_option backward.isDefEq.respectTransparency.types false in
/-- THE RUN: from any memory with zero counters every weakly fair execution of @main terminates, nothing faulting, and
    every final state has every unscoped buffer of every core at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run m ρ)

/-- THE RESULT: the frame, and the result array at what the attention kernel's write-backs leave. -/
theorem run_result : θ_run defs (onTc (τ := τ) (main (F := F))) ⟨m, fun _ => 0, ρ⟩ (fun r => ∀ c : Dev nD,
      r.2.mem ((c.tc : Thread nD τ).loc main_v6) = (dat1 (Vc m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v6 (by decide))).trans (W4_arr m ρ c 5),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run m ρ)

end Cert.KernelIdeal.Hand

end
-- ==== Proof.WRegion0.lean ====
/-
  The projection kernel (the first of the program's two kernels) as one region of the launch.

  Its grid has six points, one per tile of 2048 rows. At a point it reads three blocks — 2048 rows of x, all of W,
  all of the attention vector — and stores three blocks whole: the rows' features h = x·W (kept in the narrow float
  format), and the two columns w1 = h·a[0:64], w2 = h·a[64:128]. Nothing is kept between points, so what each
  output buffer holds after the body is a function of the three input blocks alone: the one store into it, read back.
  Everything here is stated at a parameter V, the contents of the core's buffers when the region is entered.
-/
import proofs.«100860_j31645319037629_2_alg».proof.Proof.Gen.Kernel.Launch
import proofs.«100860_j31645319037629_2_alg».proof.Proof.Gen.Kernel.Skeleton
import proofs.«100860_j31645319037629_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched the block's index has not moved since it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store takes its buffer whole -/

abbrev rX : Rect S2048x256 := Rect.unit (s := S2048x256) ![0, 0] S2048x256.size inb_S2048x256_S2048x256_0_0
abbrev rW : Rect S256x64 := Rect.unit (s := S256x64) ![0, 0] S256x64.size inb_S256x64_S256x64_0_0
abbrev rA : Rect S128x1 := Rect.unit (s := S128x1) ![0, 0] S128x1.size inb_S128x1_S128x1_0_0
abbrev rH : Rect S2048x64 := Rect.unit (s := S2048x64) ![0, 0] S2048x64.size inb_S2048x64_S2048x64_0_0
abbrev rC : Rect S2048x1 := Rect.unit (s := S2048x1) ![0, 0] S2048x1.size inb_S2048x1_S2048x1_0_0

/-! ## What the body leaves in each output window's buffer -/

/-- The features' buffer after the body: its one store, read back. -/
def out0_3 (x0 : Vec F S2048x256 .f32) (x1 : Vec F S256x64 .f32) : Vec F S2048x64 .bf16 :=
  View.canon [⟨rH, k0_pay2 (View.ld x0 rX) (View.ld x1 rW)⟩]
/-- The source scores' buffer after the body. -/
def out0_4 (x0 : Vec F S2048x256 .f32) (x1 : Vec F S256x64 .f32) (x2 : Vec F S128x1 .f32) : Vec F S2048x1 .f32 :=
  View.canon [⟨rC, k0_pay3 (View.ld x0 rX) (View.ld x1 rW) (View.ld x2 rA)⟩]
/-- The destination scores' buffer after the body. -/
def out0_5 (x0 : Vec F S2048x256 .f32) (x1 : Vec F S256x64 .f32) (x2 : Vec F S128x1 .f32) : Vec F S2048x1 .f32 :=
  View.canon [⟨rC, k0_pay4 (View.ld x0 rX) (View.ld x1 rW) (View.ld x2 rA)⟩]

/-- A store of the whole buffer covers it. -/
theorem cover0_H (p0 : Vec F S2048x64 .bf16) (y : S2048x64.Idx) :
    ∃ pc ∈ ([⟨rH, p0⟩] : List (View.Piece (Elt F) S2048x64 .bf16)), y ∈ pc.1.set :=
  View.cover_of_tiled [⟨rH, p0⟩] S2048x64.size (by rfl) y
theorem cover0_C (p0 : Vec F S2048x1 .f32) (y : S2048x1.Idx) :
    ∃ pc ∈ ([⟨rC, p0⟩] : List (View.Piece (Elt F) S2048x1 .f32)), y ∈ pc.1.set :=
  View.cover_of_tiled [⟨rC, p0⟩] S2048x1.size (by rfl) y

/-! ## The body's triple -/

set_option maxHeartbeats 4000000 in
/-- The body on whole staging memrefs, the inputs' at their contents and the outputs' at anything, runs to the
    continuation holding the inputs' as they were and each output's at its store read back. -/
theorem sound_kernel0 (c : Dev nD) (E : Set ℕ) (i : grid0.Coords)
    (arg1 : Memref sig .tc .vmem S2048x256 .f32) (harg1 : arg1.IsWhole) (arg2 : Memref sig .tc .vmem S256x64 .f32) (harg2 : arg2.IsWhole)
    (arg3 : Memref sig .tc .vmem S128x1 .f32) (harg3 : arg3.IsWhole) (arg4 : Memref sig .tc .vmem S2048x64 .bf16) (harg4 : arg4.IsWhole)
    (arg5 : Memref sig .tc .vmem S2048x1 .f32) (harg5 : arg5.IsWhole) (arg6 : Memref sig .tc .vmem S2048x1 .f32) (harg6 : arg6.IsWhole)
    (x0 : Vec F S2048x256 .f32) (x1 : Vec F S256x64 .f32) (x2 : Vec F S128x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_H _)
  isplitl [H4]
  · iexists _; isplitr
    swap; · iexact H4
    ipureintro
    exact View.read_writes_eq_canon _ _ _ (cover0_C _)
  iexists _; isplitr
  swap; · iexact H5
  ipureintro
  exact View.read_writes_eq_canon _ _ _ (cover0_C _)

/-! ## The region's proof data -/

/-- The proof data of the projection kernel's pipeline on core `c`: the arrays as the region finds them; after the body
    at point `t` each input's buffer at its block and each output's at its store of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WRegion1Runs.lean ====
/-
  The attention kernel's body, run once per case of its two conditionals.

  The grid is 6 × 12: a point (q, k) handles the 2048 × 1024 tile of query rows q and key columns k. Two scratch buffers
  are carried along the key axis: the running sum l of the exponentials of a row, and the running sum acc of the
  exponentials times the keys' features. At k = 0 both are first reset to zero; at every k the tile's terms are added;
  at k = 11 the output block is stored, acc / l followed by the leaky rectifier. So there are three cases:
  A (k = 0), B (0 < k < 11) and C (k = 11). In each, what the run leaves in a buffer is the list of the pieces it stored
  there, found when the run hands the buffer on.
-/
import proofs.«100860_j31645319037629_2_alg».proof.Proof.Gen.Kernel.Launch
import proofs.«100860_j31645319037629_2_alg».proof.Proof.Gen.Kernel.Skeleton
import proofs.«100860_j31645319037629_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The first conditional's condition: the key coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 12 = 0 :=
  (by decide +kernel : ∀ t : Fin grid1.N, cond1_0 (grid1.coords t) ↔ t.val % 12 = 0)
/-- The second conditional's condition: the key coordinate is 11, the last. -/
abbrev cond1_1 (i : grid1.Coords) : Prop := k1_cond2 i = 1#1
theorem hcond1_1 : ∀ t : Fin cfg1.N, cond1_1 (grid1.coords t) ↔ t.val % 12 = 11 :=
  (by decide +kernel : ∀ t : Fin grid1.N, cond1_1 (grid1.coords t) ↔ t.val % 12 = 11)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last key tile the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last key tile it is live. -/
theorem liveAt1_5 : ∀ t : Fin cfg1.N, cond1_1 (grid1.coords t) → cfg1.idle 5 (grid1.coords t) = false := by decide +kernel

/-! ## The memrefs the pipeline passes the body -/

abbrev VO1_5 : View sig .tc .vmem S2048x64 .f32 := (Memref.whole cc1_stg5_0 : Memref sig .tc .vmem S2048x64 .f32).view
abbrev ms1_0 (t : Fin cfg1.N) : Memref sig .tc .vmem S2048x1024 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x64 .f32 := win1_5.stage (cfg1.slots t 5)
abbrev hs1_5 (t : Fin cfg1.N) : (ms1_5 t).IsWhole := hstage1_5 ((cfg1.slots t 5).cast nbuf1_5)
/-- The two scratch operands: the row sums l and the weighted sums acc. -/
abbrev scM1_0 : Memref sig .tc .vmem S2048x1 .f32 := Memref.whole cc1_scratch0
abbrev scM1_1 : Memref sig .tc .vmem S2048x64 .f32 := Memref.whole cc1_scratch1
abbrev VS1_0 : View sig .tc .vmem S2048x1 .f32 := scM1_0.view
abbrev VS1_1 : View sig .tc .vmem S2048x64 .f32 := scM1_1.view

/-- A scoped buffer of the core that this kernel does not use, whole at some contents. -/
abbrev spare (c : Dev nD) (b : Ref sig .tc) : sProp 𝕄 :=
  iprop(∃ f : Buf (Elt F) ((c : Thread nD τ).loc b), ((c : Thread nD τ).loc b) ↦{fullShare} f)

/-- The region's class invariant with the two scratch operands named: the other kernel's ten staging buffers at
    anything, the two scratch buffers owned at some contents, the generator register at some state. -/
theorem PhiA1_eq (c : Dev nD) :
    (Pipeline.ΦA spec1 c : sProp 𝕄)
      = iprop(iprop(spare c cc0_stg0_0 ∗ spare c cc0_stg0_1 ∗ spare c cc0_stg1_0 ∗ spare c cc0_stg2_0 ∗ spare c cc0_stg3_0 ∗ spare c cc0_stg3_1
          ∗ spare c cc0_stg4_0 ∗ spare c cc0_stg4_1 ∗ spare c cc0_stg5_0 ∗ spare c cc0_stg5_1
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The three runs -/

set_option maxHeartbeats 8000000 in
/-- CASE A (key tile 0): both scratch buffers are reset, then the tile's terms are added; the output is not touched. -/
noncomputable def kernelRun1_A (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : cond1_0 i) (hc1 : ¬cond1_1 i)
    (x0 : Vec F S2048x1024 .i32) (x1 : Vec F S2048x1 .f32) (x2 : Vec F S1x1024 .f32) (x3 : Vec F S2048x1 .f32) (x4 : Vec F S1024x64 .bf16) :
    Σ' (L5 : List (View.Piece (Elt F) S2048x64 .f32)), Σ' (LS0 : List (View.Piece (Elt F) S2048x1 .f32)), { LS1 : List (View.Piece (Elt F) S2048x64 .f32) //
      ∀ (xi5 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 8000000 in
/-- CASE B (a middle key tile): the tile's terms are added to what the tile before left; the output is not touched. -/
noncomputable def kernelRun1_B (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : ¬cond1_1 i)
    (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) :
    Σ' (L5 : List (View.Piece (Elt F) S2048x64 .f32)), Σ' (LS0 : List (View.Piece (Elt F) S2048x1 .f32)), { LS1 : List (View.Piece (Elt F) S2048x64 .f32) //
      ∀ (xi5 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 8000000 in
/-- CASE C (the last key tile): the tile's terms are added, then the output block is stored from the two sums. -/
noncomputable def kernelRun1_C (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : cond1_1 i)
    (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) :
    Σ' (L5 : List (View.Piece (Elt F) S2048x64 .f32)), Σ' (LS0 : List (View.Piece (Elt F) S2048x1 .f32)), { LS1 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.Kernel.Hand

end
-- ==== Proof.WRegion1.lean ====
/-
  The attention kernel as one region of the launch: what its two carried sums and its output block hold after each
  grid point, and the body's obligation to the pipeline.

  The points are numbered row-major over the 6 × 12 grid, so point n handles key tile n mod 12 of query tile n / 12.
  After point n the two scratch buffers hold the sums over the key tiles 0 … n mod 12 of the current query tile:
  at n mod 12 = 0 they restart from zero, otherwise they continue from what point n − 1 left. The output block is
  stored at n mod 12 = 11 only; at the other points its window is idle and is handed back as it was found.
-/
import proofs.«100860_j31645319037629_2_alg».proof.Proof.WRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## Pieces read back -/

/-- A list of pieces written into the output block's buffer, read back. -/
def rd5 (L : List (View.Piece (Elt F) S2048x64 .f32)) : Vec F S2048x64 .f32 := VO1_5.read (Elt F) (VO1_5.writes (Elt F) VO1_5.junk L)
/-- The same for the row sums' scratch … -/
def rdS0 (L : List (View.Piece (Elt F) S2048x1 .f32)) : Vec F S2048x1 .f32 := VS1_0.read (Elt F) (VS1_0.writes (Elt F) VS1_0.junk L)
/-- … and for the weighted sums' scratch. -/
def rdS1 (L : List (View.Piece (Elt F) S2048x64 .f32)) : Vec F S2048x64 .f32 := VS1_1.read (Elt F) (VS1_1.writes (Elt F) VS1_1.junk L)

/-! ## Each case's pieces cover the buffers it stores into -/

theorem scover1_A_0 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : cond1_0 i) (hc1 : ¬cond1_1 i) (x0 : Vec F S2048x1024 .i32) (x1 : Vec F S2048x1 .f32) (x2 : Vec F S1x1024 .f32) (x3 : Vec F S2048x1 .f32) (x4 : Vec F S1024x64 .bf16) (y : S2048x1.Idx) :
    ∃ pc ∈ (kernelRun1_A (F := F) c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun1_A (F := F) c i arg2 harg2 arg3 harg3 arg4 harg4 arg5 harg5 arg6 harg6 arg7 harg7 arg8 harg8 arg9 harg9 hc0 hc1 x0 x1 x2 x3 x4).2.1 S2048x1.size (by sl_kernel_rfl) y
theorem scover1_A_1 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : cond1_0 i) (hc1 : ¬cond1_1 i) (x0 : Vec F S2048x1024 .i32) (x1 : Vec F S2048x1 .f32) (x2 : Vec F S1x1024 .f32) (x3 : Vec F S2048x1 .f32) (x4 : Vec F S1024x64 .bf16) (y : S2048x64.Idx) :
    ∃ pc ∈ (kernelRun1_A (F := F) c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun1_A (F := F) c i arg2 harg2 arg3 harg3 arg4 harg4 arg5 harg5 arg6 harg6 arg7 harg7 arg8 harg8 arg9 harg9 hc0 hc1 x0 x1 x2 x3 x4).2.2.1 S2048x64.size (by sl_kernel_rfl) y
theorem scover1_B_0 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : ¬cond1_1 i) (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) (y : S2048x1.Idx) :
    ∃ pc ∈ (kernelRun1_B (F := F) c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_B (F := F) c i arg2 harg2 arg3 harg3 arg4 harg4 arg5 harg5 arg6 harg6 arg7 harg7 arg8 harg8 arg9 harg9 hc0 hc1 x0 x1 x2 x3 x4 xs0 xs1).2.1 S2048x1.size (by sl_kernel_rfl) y
theorem scover1_B_1 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : ¬cond1_1 i) (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) (y : S2048x64.Idx) :
    ∃ pc ∈ (kernelRun1_B (F := F) c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun1_B (F := F) c i arg2 harg2 arg3 harg3 arg4 harg4 arg5 harg5 arg6 harg6 arg7 harg7 arg8 harg8 arg9 harg9 hc0 hc1 x0 x1 x2 x3 x4 xs0 xs1).2.2.1 S2048x64.size (by sl_kernel_rfl) y
theorem cover1_C_5 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : cond1_1 i) (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) (y : S2048x64.Idx) :
    ∃ pc ∈ (kernelRun1_C (F := F) c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun1_C (F := F) c i arg2 harg2 arg3 harg3 arg4 harg4 arg5 harg5 arg6 harg6 arg7 harg7 arg8 harg8 arg9 harg9 hc0 hc1 x0 x1 x2 x3 x4 xs0 xs1).1 S2048x64.size (by sl_kernel_rfl) y
theorem scover1_C_0 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : cond1_1 i) (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) (y : S2048x1.Idx) :
    ∃ pc ∈ (kernelRun1_C (F := F) c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun1_C (F := F) c i arg2 harg2 arg3 harg3 arg4 harg4 arg5 harg5 arg6 harg6 arg7 harg7 arg8 harg8 arg9 harg9 hc0 hc1 x0 x1 x2 x3 x4 xs0 xs1).2.1 S2048x1.size (by sl_kernel_rfl) y
theorem scover1_C_1 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : cond1_1 i) (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) (y : S2048x64.Idx) :
    ∃ pc ∈ (kernelRun1_C (F := F) c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun1_C (F := F) c i arg2 harg2 arg3 harg3 arg4 harg4 arg5 harg5 arg6 harg6 arg7 harg7 arg8 harg8 arg9 harg9 hc0 hc1 x0 x1 x2 x3 x4 xs0 xs1).2.2.1 S2048x64.size (by sl_kernel_rfl) y

/-! ## The runs at a grid point -/

/-- The run of case A at point `t`: the pipeline's memrefs, the two scratch operands, the point's input blocks. -/
def runA (c : Dev nD) (t : Fin cfg1.N) (h0 : t.val % 12 = 0) (h1 : ¬t.val % 12 = 11) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t)
/-- The run of case B at point `t`, the scratch buffers found at `xs0`, `xs1`. -/
def runB (c : Dev nD) (t : Fin cfg1.N) (h0 : ¬t.val % 12 = 0) (h1 : ¬t.val % 12 = 11) (xs0 : Vec F S2048x1 .f32) (xs1 : Vec F S2048x64 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0 xs1
/-- The run of case C at point `t`, the scratch buffers found at `xs0`, `xs1`. -/
def runC (c : Dev nD) (t : Fin cfg1.N) (h0 : ¬t.val % 12 = 0) (h1 : t.val % 12 = 11) (xs0 : Vec F S2048x1 .f32) (xs1 : Vec F S2048x64 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) xs0 xs1

/-! ## What the output block and the two carried sums hold after each point -/

/-- THE ACCUMULATION: after position `n`, the output block's buffer, the row sums and the weighted sums (in that
    order). Case A restarts; cases B and C continue from what position `n − 1` left in the two scratch buffers. -/
def outsAt1 (c : Dev nD) : (n : ℕ) → n < cfg1.N → Vec F S2048x64 .f32 × Vec F S2048x1 .f32 × Vec F S2048x64 .f32
  | 0, hn => (rd5 (runA V c ⟨0, hn⟩ (Nat.zero_mod _) (by show ¬ (0 : ℕ) % 12 = 11; decide)).1, rdS0 (runA V c ⟨0, hn⟩ (Nat.zero_mod _) (by show ¬ (0 : ℕ) % 12 = 11; decide)).2.1, rdS1 (runA V c ⟨0, hn⟩ (Nat.zero_mod _) (by show ¬ (0 : ℕ) % 12 = 11; decide)).2.2.1)
  | n + 1, hn =>
    if h0 : (n + 1) % 12 = 0 then
      (rd5 (runA V c ⟨n + 1, hn⟩ h0 (by show ¬ (n + 1) % 12 = 11; omega)).1, rdS0 (runA V c ⟨n + 1, hn⟩ h0 (by show ¬ (n + 1) % 12 = 11; omega)).2.1, rdS1 (runA V c ⟨n + 1, hn⟩ h0 (by show ¬ (n + 1) % 12 = 11; omega)).2.2.1)
    else if h1 : (n + 1) % 12 = 11 then
      (rd5 (runC V c ⟨n + 1, hn⟩ h0 h1 (outsAt1 c n (Nat.lt_of_succ_lt hn)).2.1 (outsAt1 c n (Nat.lt_of_succ_lt hn)).2.2).1,
       rdS0 (runC V c ⟨n + 1, hn⟩ h0 h1 (outsAt1 c n (Nat.lt_of_succ_lt hn)).2.1 (outsAt1 c n (Nat.lt_of_succ_lt hn)).2.2).2.1,
       rdS1 (runC V c ⟨n + 1, hn⟩ h0 h1 (outsAt1 c n (Nat.lt_of_succ_lt hn)).2.1 (outsAt1 c n (Nat.lt_of_succ_lt hn)).2.2).2.2.1)
    else
      (rd5 (runB V c ⟨n + 1, hn⟩ h0 h1 (outsAt1 c n (Nat.lt_of_succ_lt hn)).2.1 (outsAt1 c n (Nat.lt_of_succ_lt hn)).2.2).1,
       rdS0 (runB V c ⟨n + 1, hn⟩ h0 h1 (outsAt1 c n (Nat.lt_of_succ_lt hn)).2.1 (outsAt1 c n (Nat.lt_of_succ_lt hn)).2.2).2.1,
       rdS1 (runB V c ⟨n + 1, hn⟩ h0 h1 (outsAt1 c n (Nat.lt_of_succ_lt hn)).2.1 (outsAt1 c n (Nat.lt_of_succ_lt hn)).2.2).2.2.1)

/-- The position before `t`, inside the grid. -/
theorem pred_lt (t : Fin cfg1.N) : t.val - 1 < cfg1.N := Nat.lt_of_le_of_lt (Nat.sub_le _ _) t.isLt

theorem outsAt1_A (c : Dev nD) (t : Fin cfg1.N) (h0 : t.val % 12 = 0) (h1 : ¬t.val % 12 = 11) :
    outsAt1 V c t.val t.isLt = (rd5 (runA V c t h0 h1).1, rdS0 (runA V c t h0 h1).2.1, rdS1 (runA V c t h0 h1).2.2.1) := by
  obtain ⟨n, hn⟩ := t
  cases n with
  | zero => rfl
  | succ n => exact (dif_pos h0).trans rfl

theorem outsAt1_B (c : Dev nD) (t : Fin cfg1.N) (h0 : ¬t.val % 12 = 0) (h1 : ¬t.val % 12 = 11) :
    outsAt1 V c t.val t.isLt = (rd5 (runB V c t h0 h1 (outsAt1 V c (t.val - 1) (pred_lt t)).2.1 (outsAt1 V c (t.val - 1) (pred_lt t)).2.2).1,
      rdS0 (runB V c t h0 h1 (outsAt1 V c (t.val - 1) (pred_lt t)).2.1 (outsAt1 V c (t.val - 1) (pred_lt t)).2.2).2.1,
      rdS1 (runB V c t h0 h1 (outsAt1 V c (t.val - 1) (pred_lt t)).2.1 (outsAt1 V c (t.val - 1) (pred_lt t)).2.2).2.2.1) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 12 = 0) (h1 : t.val % 12 = 11) :
    outsAt1 V c t.val t.isLt = (rd5 (runC V c t h0 h1 (outsAt1 V c (t.val - 1) (pred_lt t)).2.1 (outsAt1 V c (t.val - 1) (pred_lt t)).2.2).1,
      rdS0 (runC V c t h0 h1 (outsAt1 V c (t.val - 1) (pred_lt t)).2.1 (outsAt1 V c (t.val - 1) (pred_lt t)).2.2).2.1,
      rdS1 (runC V c t h0 h1 (outsAt1 V c (t.val - 1) (pred_lt t)).2.1 (outsAt1 V c (t.val - 1) (pred_lt t)).2.2).2.2.1) := by
  obtain ⟨n, hn⟩ := t
  cases n with
  | zero => exact absurd (Nat.zero_mod _) h0
  | succ n => exact (dif_neg h0).trans ((dif_pos h1).trans rfl)

/-! ## The region invariant -/

/-- Before position `n`: at the start the class's invariant (every scoped buffer at anything, the generator register
    at some state); afterwards the same with the two scratch buffers at what position `n − 1` left in them. -/
def PhiS (c : Dev nD) : (n : ℕ) → n ≤ cfg1.N → sProp 𝕄
  | 0, _ => Pipeline.ΦA spec1 c
  | n + 1, hn => iprop(iprop(spare c cc0_stg0_0 ∗ spare c cc0_stg0_1 ∗ spare c cc0_stg1_0 ∗ spare c cc0_stg2_0 ∗ spare c cc0_stg3_0 ∗ spare c cc0_stg3_1 ∗ spare c cc0_stg4_0 ∗ spare c cc0_stg4_1 ∗ spare c cc0_stg5_0 ∗ spare c cc0_stg5_1
      ∗ owns (c : Thread nD τ) scM1_0 fullShare ((outsAt1 V c n hn).2.1) ∗ owns (c : Thread nD τ) scM1_1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(spare c cc0_stg0_0 ∗ spare c cc0_stg0_1 ∗ spare c cc0_stg1_0 ∗ spare c cc0_stg2_0 ∗ spare c cc0_stg3_0 ∗ spare c cc0_stg3_1 ∗ spare c cc0_stg4_0 ∗ spare c cc0_stg4_1 ∗ spare c cc0_stg5_0 ∗ spare c cc0_stg5_1
      ∗ owns (c : Thread nD τ) scM1_0 fullShare ((outsAt1 V c n hn).2.1) ∗ owns (c : Thread nD τ) scM1_1 fullShare ((outsAt1 V c n hn).2.2)) ∗ (∃ r, prngReg c r)) := rfl

theorem PhiS_pos (c : Dev nD) (n : ℕ) (h : n ≤ cfg1.N) (hz : n ≠ 0) :
    PhiS V c n h = iprop(iprop(spare c cc0_stg0_0 ∗ spare c cc0_stg0_1 ∗ spare c cc0_stg1_0 ∗ spare c cc0_stg2_0 ∗ spare c cc0_stg3_0 ∗ spare c cc0_stg3_1 ∗ spare c cc0_stg4_0 ∗ spare c cc0_stg4_1 ∗ spare c cc0_stg5_0 ∗ spare c cc0_stg5_1
      ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 16000000 in
/-- The body at any point. The key coordinate says which case the point is in; the invariant hands the body the two
    scratch buffers at what the point before left (at anything, at the very first point) and takes them back at this
    point's sums; away from the last key tile the output's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 72 := lt_of_lt_of_eq t.isLt (show cfg1.N = 72 from N_1)
  by_cases h0 : t.val % 12 = 0
  · have h1 : ¬t.val % 12 = 11 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [Dat.leavesExact_idle (dat1 V c) 5 t (idleAt1_5 t (fun h => h1 ((hcond1_1 t).mp h))) (noFlush1_5 t (fun h => h1 ((hcond1_1 t).mp h)))]
    rw [outsAt1_A V c t h0 h1]
    (try dsimp only)
    by_cases hz : t.val = 0
    · skip
      rw [PhiS_castSucc V c t, PhiS_zero V c _ _ hz, PhiA1_eq]
      iintro ⟨⟨⟨R0, R1, R2, R3, R4, R5, R6, R7, R8, R9, HS0, HS1⟩, Hg⟩, Ho, ⟨%d0, H0⟩, ⟨%d1, H1⟩, ⟨%d2, H2⟩, ⟨%d3, H3⟩, ⟨%d4, H4⟩, ⟨%d5, H5⟩⟩
      iapply ((runA V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [R0 R1 R2 R3 R4 R5 R6 R7 R8 R9 HS0 HS1 Hg]
      · isplitl [R0 R1 R2 R3 R4 R5 R6 R7 R8 R9 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · skip
      rw [PhiS_castSucc V c t, PhiS_pos V c _ _ hz]
      iintro ⟨⟨⟨R0, R1, R2, R3, R4, R5, R6, R7, R8, R9, HS0, HS1⟩, Hg⟩, Ho, ⟨%d0, H0⟩, ⟨%d1, H1⟩, ⟨%d2, H2⟩, ⟨%d3, H3⟩, ⟨%d4, H4⟩, ⟨%d5, H5⟩⟩
      iapply ((runA V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [R0 R1 R2 R3 R4 R5 R6 R7 R8 R9 HS0 HS1 Hg]
      · isplitl [R0 R1 R2 R3 R4 R5 R6 R7 R8 R9 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 12 = 11
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      (try dsimp only)
      rw [PhiS_castSucc V c t, PhiS_pos V c _ _ hz]
      iintro ⟨⟨⟨R0, R1, R2, R3, R4, R5, R6, R7, R8, R9, HS0, HS1⟩, Hg⟩, Ho, ⟨%d0, H0⟩, ⟨%d1, H1⟩, ⟨%d2, H2⟩, ⟨%d3, H3⟩, ⟨%d4, H4⟩, ⟨%d5, H5⟩⟩
      iapply ((runC V c t h0 h1 _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [R0 R1 R2 R3 R4 R5 R6 R7 R8 R9 HS0 HS1 Hg]
      · isplitl [R0 R1 R2 R3 R4 R5 R6 R7 R8 R9 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _)
    · skip
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      (try dsimp only)
      rw [PhiS_castSucc V c t, PhiS_pos V c _ _ hz]
      iintro ⟨⟨⟨R0, R1, R2, R3, R4, R5, R6, R7, R8, R9, HS0, HS1⟩, Hg⟩, Ho, ⟨%d0, H0⟩, ⟨%d1, H1⟩, ⟨%d2, H2⟩, ⟨%d3, H3⟩, ⟨%d4, H4⟩, ⟨%d5, H5⟩⟩
      iapply ((runB V c t h0 h1 _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [R0 R1 R2 R3 R4 R5 R6 R7 R8 R9 HS0 HS1 Hg]
      · isplitl [R0 R1 R2 R3 R4 R5 R6 R7 R8 R9 HS0 HS1]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the sums in the scratch buffers are forgotten. -/
theorem hout1 (c : Dev nD) : (dat1 V c).Φ (Fin.last cfg1.N) ⊢ Pipeline.ΦA spec1 c := by
  have ht : (Fin.last cfg1.N).val ≠ 0 := by rw [Fin.val_last]; have : cfg1.N = 72 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨R0, R1, R2, R3, R4, R5, R6, R7, R8, R9, HS0, HS1⟩, Hg⟩
  isplitl [R0 R1 R2 R3 R4 R5 R6 R7 R8 R9 HS0 HS1]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS0]; · iexists _; iexact HS0
    iexists _; iexact HS1
  iexact Hg

end Cert.Kernel.Hand

end
-- ==== Proof.WKernelRun.lean ====
/-
  The whole program as four segments — the projection kernel's region, two stretches of host operations (the
  transpose of w2, its maximum, the row shift m; then the leaky rectifier's called function), the attention kernel's
  region — and its run: every weakly fair execution terminates, faults nowhere, and ends with every unscoped buffer of
  a core at the last of five valuations, each computed from the one before: the launch memory; the first region's
  arrays at what its write-backs leave; the two host stretches applied; the second region's arrays at what its
  write-backs leave. The frame (the four arguments end as launched) and the result array are read off that.
-/
import proofs.«100860_j31645319037629_2_alg».proof.Proof.WRegion0
import proofs.«100860_j31645319037629_2_alg».proof.Proof.WRegion1
import proofs.«100860_j31645319037629_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the projection kernel's entry). -/
abbrev W0 : Dev nD → Valuation τ sig (Elt F) := fun c b => (s₀ m ρ).mem ((c : Dev nD), b)
abbrev Va : (c : Dev nD) → (b : Ref sig .tc) → Buf (Elt F) ((c : Thread nD τ).loc b) := fun c b => W0 m ρ c b
/-- After the projection kernel: its arrays at what the pipeline leaves, every other buffer as entered. -/
def W1 (c : Dev nD) : Valuation τ sig (Elt F) :=
  Pipeline.withArrays spec0 c (W0 m ρ c) fun w => (dat0 (Va m ρ) c).arrAt w cfg0.N
theorem W1_arr (c : Dev nD) (w : Fin cfg0.W) :
    W1 m ρ c (Proc.devRef .tc (Pipeline.arrRef spec0 w)) = (dat0 (Va m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vb : (c : Dev nD) → (b : Ref sig .tc) → Buf (Elt F) ((c : Thread nD τ).loc b) := fun c b => W1 m ρ c b
theorem hF0 (c : Dev nD) (w : Fin cfg0.W) : (dat0 (Va m ρ) c).arrAt w cfg0.N = Vb m ρ c (Pipeline.arrRef spec0 w) :=
  (W1_arr m ρ c w).symm
theorem hrest0 (c : Dev nD) : ∀ b, b ∉ Finset.univ.image (Pipeline.arrRef spec0) → Vb m ρ c b = Va m ρ c b :=
  fun b hb => W1_of_ne m ρ c b fun w e => hb (Finset.mem_image.mpr ⟨w, Finset.mem_univ _, e⟩)

/-- After the first host stretch, -/
abbrev W2 : Dev nD → Valuation τ sig (Elt F) := fun c => StableHlo.after hostOps1 (W1 m ρ c)
/-- and after the second (the attention kernel's entry). -/
abbrev W3 : Dev nD → Valuation τ sig (Elt F) := fun c => StableHlo.after hostOps1_1 (W2 m ρ c)
abbrev Vc : (c : Dev nD) → (b : Ref sig .tc) → Buf (Elt F) ((c : Thread nD τ).loc b) := fun c b => W3 m ρ c b
/-- After the attention kernel: its arrays at what the pipeline leaves, every other buffer as entered. -/
def W4 (c : Dev nD) : Valuation τ sig (Elt F) :=
  Pipeline.withArrays spec1 c (W3 m ρ c) fun w => (dat1 (Vc m ρ) c).arrAt w cfg1.N
theorem W4_arr (c : Dev nD) (w : Fin cfg1.W) :
    W4 m ρ c (Proc.devRef .tc (Pipeline.arrRef spec1 w)) = (dat1 (Vc m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vd : (c : Dev nD) → (b : Ref sig .tc) → Buf (Elt F) ((c : Thread nD τ).loc b) := fun c b => W4 m ρ c b
theorem hF1 (c : Dev nD) (w : Fin cfg1.W) : (dat1 (Vc m ρ) c).arrAt w cfg1.N = Vd m ρ c (Pipeline.arrRef spec1 w) :=
  (W4_arr m ρ c w).symm
theorem hrest1 (c : Dev nD) : ∀ b, b ∉ Finset.univ.image (Pipeline.arrRef spec1) → Vd m ρ c b = Vc m ρ c b :=
  fun b hb => W4_of_ne m ρ c b fun w e => hb (Finset.mem_image.mpr ⟨w, Finset.mem_univ _, e⟩)

/-- A buffer neither host stretch writes passes through both. -/
theorem W3_of (c : Dev nD) (r : Ref sig .tc) (h1 : r ∉ (hostOps1_W : List (Ref sig .tc))) (h2 : r ∉ (hostOps1_1_W : List (Ref sig .tc))) :
    W3 m ρ c (Proc.devRef .tc r) = W1 m ρ c (Proc.devRef .tc r) :=
  (StableHlo.after_of_writes_sub hostOps1_1 _ hostOps1_1_writes h2).trans (StableHlo.after_of_writes_sub hostOps1 _ hostOps1_writes h1)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W1 m ρ c (Proc.devRef .tc main_arg0) := W3_of m ρ c main_arg0 (by decide) (by decide)
    _ = W0 m ρ c (Proc.devRef .tc main_arg0) := (W1_arr m ρ c 0).trans (((dat0 (Va m ρ) c).arrAt_in 0 rfl _).trans (A_eq0 (Va m ρ) c 0))
    _ = m ((c : Thread nD τ).loc main_arg0) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W1 m ρ c (Proc.devRef .tc main_arg2) := W3_of m ρ c main_arg2 (by decide) (by decide)
    _ = W0 m ρ c (Proc.devRef .tc main_arg2) := (W1_arr m ρ c 1).trans (((dat0 (Va m ρ) c).arrAt_in 1 rfl _).trans (A_eq0 (Va m ρ) c 1))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W1 m ρ c (Proc.devRef .tc main_arg3) := W3_of m ρ c main_arg3 (by decide) (by decide)
    _ = W0 m ρ c (Proc.devRef .tc main_arg3) := (W1_arr m ρ c 2).trans (((dat0 (Va m ρ) c).arrAt_in 2 rfl _).trans (A_eq0 (Va m ρ) c 2))
    _ = m ((c : Thread nD τ).loc main_arg3) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (Vc m ρ) c).arrAt_in 0 rfl _).trans (A_eq1 (Vc m ρ) c 0))
    _ = W1 m ρ c (Proc.devRef .tc main_arg1) := W3_of m ρ c main_arg1 (by decide) (by decide)
    _ = W0 m ρ c (Proc.devRef .tc main_arg1) := W1_of_ne m ρ c main_arg1 (by decide)
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vc m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection kernel's region: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel's region: entered from every unscoped buffer at `W3`, left at `W4`. Its invariant starts as
    the class's and ends giving it back, the sums in the two scratch buffers forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vc m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from hout1 (Vc m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vc m ρ c) (Vd m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .region (reg1 m ρ) ]

/-- @main is the run of the four segments. -/
theorem main_run (c : Dev nD) : main (F := F) c = Pipeline.Seg.run (segs m ρ) := by
  rw [main_chain c, Pipeline.Seg.run_eq_chain]; rfl

set_option backward.isDefEq.respectTransparency.types false in
/-- THE RUN: from any memory with zero counters every weakly fair execution of @main terminates, nothing faulting, and
    every final state has every unscoped buffer of every core at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run m ρ)

/-- THE RESULT: the frame, and the result array at what the attention kernel's write-backs leave. -/
theorem run_result : θ_run defs (onTc (τ := τ) (main (F := F))) ⟨m, fun _ => 0, ρ⟩ (fun r => ∀ c : Dev nD,
      r.2.mem ((c.tc : Thread nD τ).loc main_v6) = (dat1 (Vc m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v6 (by decide))).trans (W4_arr m ρ c 5),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run m ρ)

end Cert.Kernel.Hand

end
-- ==== Proof.Region1Pieces.lean ====
/-
  The attention kernel's carried sums, without piece lists.

  Each case's run found, for every buffer it stores into, the list of stored pieces. Every store takes its buffer whole,
  so a buffer's contents after a case is the last payload stored into it, a function of the blocks the case loaded:
  the row sums become  l + (the tile's row sums of exponentials),  the weighted sums  acc + (exponentials) · (features),
  both started from the zero block at key tile 0; at the last key tile the output block is the rectified quotient of
  the two. Read this way the contents after each point are a plain recursion over the points.
-/
import proofs.«100860_j31645319037629_2_alg».proof.Proof.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

theorem hz2 : (![0, 0] : Fin 2 → Nat) = fun _ => 0 := funext fun a => by fin_cases a <;> rfl

/-! ## What each case leaves, as payloads of the blocks it loaded -/

/-- A middle key tile: the row sums it found plus the tile's. -/
theorem sB0 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : ¬cond1_1 i) (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) :
    rdS0 (kernelRun1_B (F := F) c i arg2 harg2 arg3 harg3 arg4 harg4 arg5 harg5 arg6 harg6 arg7 harg7 arg8 harg8 arg9 harg9 hc0 hc1 x0 x1 x2 x3 x4 xs0 xs1).2.1 = k1_pay6 x1 x2 x0 x3 xs0 := by
  unfold rdS0
  rw [View.read_writes_eq_canon _ _ _ (scover1_B_0 c i arg2 harg2 arg3 harg3 arg4 harg4 arg5 harg5 arg6 harg6 arg7 harg7 arg8 harg8 arg9 harg9 hc0 hc1 x0 x1 x2 x3 x4 xs0 xs1)]
  unfold kernelRun1_B
  dsimp only
  sl_unfold_words
  rw [View.canon_unit_zero (S := S2048x1) hz2]
  simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S2048x1) hz2, View.ld_unit_zero (S := S1x1024) hz2, View.ld_unit_zero (S := S1024x64) hz2, View.ld_unit_zero (S := S2048x64) hz2]

/-- A middle key tile: the weighted sums it found plus the tile's. -/
theorem sB1 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : ¬cond1_1 i) (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) :
    rdS1 (kernelRun1_B (F := F) c i arg2 harg2 arg3 harg3 arg4 harg4 arg5 harg5 arg6 harg6 arg7 harg7 arg8 harg8 arg9 harg9 hc0 hc1 x0 x1 x2 x3 x4 xs0 xs1).2.2.1 = k1_pay1 xs1 (k1_pay7 x1 x2 x0 x3) x4 := by
  unfold rdS1
  rw [View.read_writes_eq_canon _ _ _ (scover1_B_1 c i arg2 harg2 arg3 harg3 arg4 harg4 arg5 harg5 arg6 harg6 arg7 harg7 arg8 harg8 arg9 harg9 hc0 hc1 x0 x1 x2 x3 x4 xs0 xs1)]
  unfold kernelRun1_B
  dsimp only
  sl_unfold_words
  rw [View.canon_unit_zero (S := S2048x64) hz2]
  simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S2048x1) hz2, View.ld_unit_zero (S := S1x1024) hz2, View.ld_unit_zero (S := S1024x64) hz2, View.ld_unit_zero (S := S2048x64) hz2]

/-- The last key tile leaves the same two sums … -/
theorem sC0 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : cond1_1 i) (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) :
    rdS0 (kernelRun1_C (F := F) c i arg2 harg2 arg3 harg3 arg4 harg4 arg5 harg5 arg6 harg6 arg7 harg7 arg8 harg8 arg9 harg9 hc0 hc1 x0 x1 x2 x3 x4 xs0 xs1).2.1 = k1_pay6 x1 x2 x0 x3 xs0 := by
  unfold rdS0
  rw [View.read_writes_eq_canon _ _ _ (scover1_C_0 c i arg2 harg2 arg3 harg3 arg4 harg4 arg5 harg5 arg6 harg6 arg7 harg7 arg8 harg8 arg9 harg9 hc0 hc1 x0 x1 x2 x3 x4 xs0 xs1)]
  unfold kernelRun1_C
  dsimp only
  sl_unfold_words
  rw [View.canon_unit_zero (S := S2048x1) hz2]
  simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S2048x1) hz2, View.ld_unit_zero (S := S1x1024) hz2, View.ld_unit_zero (S := S1024x64) hz2, View.ld_unit_zero (S := S2048x64) hz2]

theorem sC1 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : cond1_1 i) (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) :
    rdS1 (kernelRun1_C (F := F) c i arg2 harg2 arg3 harg3 arg4 harg4 arg5 harg5 arg6 harg6 arg7 harg7 arg8 harg8 arg9 harg9 hc0 hc1 x0 x1 x2 x3 x4 xs0 xs1).2.2.1 = k1_pay1 xs1 (k1_pay7 x1 x2 x0 x3) x4 := by
  unfold rdS1
  rw [View.read_writes_eq_canon _ _ _ (scover1_C_1 c i arg2 harg2 arg3 harg3 arg4 harg4 arg5 harg5 arg6 harg6 arg7 harg7 arg8 harg8 arg9 harg9 hc0 hc1 x0 x1 x2 x3 x4 xs0 xs1)]
  unfold kernelRun1_C
  dsimp only
  sl_unfold_words
  rw [View.canon_unit_zero (S := S2048x64) hz2]
  simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S2048x1) hz2, View.ld_unit_zero (S := S1x1024) hz2, View.ld_unit_zero (S := S1024x64) hz2, View.ld_unit_zero (S := S2048x64) hz2]

/-- … and stores the output block from them: the two loads read back what the body has just stored. -/
theorem oC5 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : ¬cond1_0 i) (hc1 : cond1_1 i) (x0 : Vec F S2048x1024 .i32) (x1 : Vec F S2048x1 .f32) (x2 : Vec F S1x1024 .f32) (x3 : Vec F S2048x1 .f32) (x4 : Vec F S1024x64 .bf16) (xs0 : Vec F S2048x1 .f32) (xs1 : Vec F S2048x64 .f32) :
    rd5 (kernelRun1_C (F := F) c i arg2 harg2 arg3 harg3 arg4 harg4 arg5 harg5 arg6 harg6 arg7 harg7 arg8 harg8 arg9 harg9 hc0 hc1 x0 x1 x2 x3 x4 xs0 xs1).1 = k1_pay2 (k1_pay1 xs1 (k1_pay7 x1 x2 x0 x3) x4) (k1_pay6 x1 x2 x0 x3 xs0) := by
  unfold rd5
  rw [View.read_writes_eq_canon _ _ _ (cover1_C_5 c i arg2 harg2 arg3 harg3 arg4 harg4 arg5 harg5 arg6 harg6 arg7 harg7 arg8 harg8 arg9 harg9 hc0 hc1 x0 x1 x2 x3 x4 xs0 xs1)]
  unfold kernelRun1_C
  dsimp only
  sl_unfold_words
  rw [View.canon_unit_zero (S := S2048x64) hz2]
  simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S2048x1) hz2, View.ld_unit_zero (S := S1x1024) hz2, View.ld_unit_zero (S := S1024x64) hz2, View.ld_unit_zero (S := S2048x64) hz2, View.readCov_unit_zero (S := S2048x1) _ hz2, View.readCov_unit_zero (S := S2048x64) _ hz2]

/-- Key tile 0: both sums restart from the zero block the body has just stored. -/
theorem sA0 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : cond1_0 i) (hc1 : ¬cond1_1 i) (x0 : Vec F S2048x1024 .i32) (x1 : Vec F S2048x1 .f32) (x2 : Vec F S1x1024 .f32) (x3 : Vec F S2048x1 .f32) (x4 : Vec F S1024x64 .bf16) :
    rdS0 (kernelRun1_A (F := F) c i arg2 harg2 arg3 harg3 arg4 harg4 arg5 harg5 arg6 harg6 arg7 harg7 arg8 harg8 arg9 harg9 hc0 hc1 x0 x1 x2 x3 x4).2.1 = k1_pay6 x1 x2 x0 x3 k1_pay3 := by
  unfold rdS0
  rw [View.read_writes_eq_canon _ _ _ (scover1_A_0 c i arg2 harg2 arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S2048x1) hz2]
  simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S2048x1) hz2, View.ld_unit_zero (S := S1x1024) hz2, View.ld_unit_zero (S := S1024x64) hz2, View.ld_unit_zero (S := S2048x64) hz2, View.readCov_unit_zero (S := S2048x1) _ hz2, View.readCov_unit_zero (S := S2048x64) _ hz2]

theorem sA1 (c : Dev nD) (i : grid1.Coords) (arg2 : Memref sig .tc .vmem S2048x1024 .i32) (harg2 : arg2.IsWhole) (arg3 : Memref sig .tc .vmem S2048x1 .f32) (harg3 : arg3.IsWhole) (arg4 : Memref sig .tc .vmem S1x1024 .f32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .f32) (harg7 : arg7.IsWhole) (arg8 : Memref sig .tc .vmem S2048x1 .f32) (harg8 : arg8.IsWhole) (arg9 : Memref sig .tc .vmem S2048x64 .f32) (harg9 : arg9.IsWhole) (hc0 : cond1_0 i) (hc1 : ¬cond1_1 i) (x0 : Vec F S2048x1024 .i32) (x1 : Vec F S2048x1 .f32) (x2 : Vec F S1x1024 .f32) (x3 : Vec F S2048x1 .f32) (x4 : Vec F S1024x64 .bf16) :
    rdS1 (kernelRun1_A (F := F) c i arg2 harg2 arg3 harg3 arg4 harg4 arg5 harg5 arg6 harg6 arg7 harg7 arg8 harg8 arg9 harg9 hc0 hc1 x0 x1 x2 x3 x4).2.2.1 = k1_pay1 k1_pay4 (k1_pay7 x1 x2 x0 x3) x4 := by
  unfold rdS1
  rw [View.read_writes_eq_canon _ _ _ (scover1_A_1 c i arg2 harg2 arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S2048x64) hz2]
  simp only [View.readAt_eq_ld, harg2.read_unread, harg3.read_unread, harg4.read_unread, harg5.read_unread, harg6.read_unread, harg7.read_unread, harg8.read_unread, harg9.read_unread, View.ld_unit_zero (S := S2048x1024) hz2, View.ld_unit_zero (S := S2048x1) hz2, View.ld_unit_zero (S := S1x1024) hz2, View.ld_unit_zero (S := S1024x64) hz2, View.ld_unit_zero (S := S2048x64) hz2, View.readCov_unit_zero (S := S2048x1) _ hz2, View.readCov_unit_zero (S := S2048x64) _ hz2]

/-! ## The two sums as a recursion over the points -/

variable (V : (c : Dev nD) → (b : Ref sig .tc) → Buf (Elt F) ((c : Thread nD τ).loc b))

/-- One step of the row sums at point `t`: what was there plus the tile's row sums of exponentials. -/
def lstep (c : Dev nD) (t : Fin cfg1.N) (l : Vec F S2048x1 .f32) : Vec F S2048x1 .f32 :=
  k1_pay6 (iblk1 V c 1 t) (iblk1 V c 2 t) (iblk1 V c 0 t) (iblk1 V c 3 t) l
/-- One step of the weighted sums at point `t`. -/
def astep (c : Dev nD) (t : Fin cfg1.N) (a : Vec F S2048x64 .f32) : Vec F S2048x64 .f32 :=
  k1_pay1 a (k1_pay7 (iblk1 V c 1 t) (iblk1 V c 2 t) (iblk1 V c 0 t) (iblk1 V c 3 t)) (iblk1 V c 4 t)

/-- The two sums after position `n`: restarted from zero at a first key tile, continued otherwise. -/
def sums (c : Dev nD) : (n : ℕ) → n < cfg1.N → Vec F S2048x1 .f32 × Vec F S2048x64 .f32
  | 0, h => (lstep V c ⟨0, h⟩ k1_pay3, astep V c ⟨0, h⟩ k1_pay4)
  | n + 1, h =>
    if (n + 1) % 12 = 0 then (lstep V c ⟨n + 1, h⟩ k1_pay3, astep V c ⟨n + 1, h⟩ k1_pay4)
    else (lstep V c ⟨n + 1, h⟩ (sums c n (Nat.lt_of_succ_lt h)).1, astep V c ⟨n + 1, h⟩ (sums c n (Nat.lt_of_succ_lt h)).2)

/-- What the two scratch buffers hold after each point is that recursion. -/
theorem outsAt_sums (c : Dev nD) : ∀ (n : ℕ) (h : n < cfg1.N), (outsAt1 V c n h).2 = sums V c n h
  | 0, h => by
    rw [outsAt1_A V c ⟨0, h⟩ (Nat.zero_mod _) (by show ¬ (0 : ℕ) % 12 = 11; decide)]
    show (rdS0 (runA V c ⟨0, h⟩ _ _).2.1, rdS1 (runA V c ⟨0, h⟩ _ _).2.2.1) = _
    unfold runA
    rw [sA0, sA1]
    rfl
  | n + 1, h => by
    by_cases h0 : (n + 1) % 12 = 0
    · have h1 : ¬(n + 1) % 12 = 11 := by omega
      rw [outsAt1_A V c ⟨n + 1, h⟩ h0 h1]
      show (rdS0 (runA V c ⟨n + 1, h⟩ _ _).2.1, rdS1 (runA V c ⟨n + 1, h⟩ _ _).2.2.1) = _
      unfold runA
      rw [sA0, sA1]
      show _ = (if (n + 1) % 12 = 0 then _ else _)
      rw [if_pos h0]
      rfl
    · have ih := outsAt_sums c n (Nat.lt_of_succ_lt h)
      by_cases h1 : (n + 1) % 12 = 11
      · rw [outsAt1_C V c ⟨n + 1, h⟩ h0 h1]
        show (rdS0 (runC V c ⟨n + 1, h⟩ _ _ _ _).2.1, rdS1 (runC V c ⟨n + 1, h⟩ _ _ _ _).2.2.1) = _
        unfold runC
        rw [sC0, sC1]
        show _ = (if (n + 1) % 12 = 0 then _ else _)
        rw [if_neg h0, ← ih]
        rfl
      · rw [outsAt1_B V c ⟨n + 1, h⟩ h0 h1]
        show (rdS0 (runB V c ⟨n + 1, h⟩ _ _ _ _).2.1, rdS1 (runB V c ⟨n + 1, h⟩ _ _ _ _).2.2.1) = _
        unfold runB
        rw [sB0, sB1]
        show _ = (if (n + 1) % 12 = 0 then _ else _)
        rw [if_neg h0, ← ih]
        rfl

/-- At a last key tile the output block is the rectified quotient of the two sums just updated. -/
theorem outsAt_out (c : Dev nD) (t : Fin cfg1.N) (h1 : t.val % 12 = 11) :
    (outsAt1 V c t.val t.isLt).1 = k1_pay2 (sums V c t.val t.isLt).2 (sums V c t.val t.isLt).1 := by
  have h0 : ¬t.val % 12 = 0 := by omega
  obtain ⟨n, hn⟩ := t
  cases n with
  | zero => exact absurd (Nat.zero_mod _) h0
  | succ n =>
    have ih := outsAt_sums V c n (Nat.lt_of_succ_lt hn)
    rw [outsAt1_C V c ⟨n + 1, hn⟩ h0 h1]
    dsimp only
    unfold runC
    rw [oC5]
    show _ = k1_pay2 (if (n + 1) % 12 = 0 then _ else _ : Vec F S2048x1 .f32 × Vec F S2048x64 .f32).2 (if (n + 1) % 12 = 0 then _ else _ : Vec F S2048x1 .f32 × Vec F S2048x64 .f32).1
    rw [if_neg h0, ← ih]
    rfl

end Cert.KernelIdeal.Hand

end
-- ==== Proof.Region1Blocks.lean ====
/-
  The attention kernel's windows read off their arrays, and its result array put together from its blocks.

  Point t of the 6 × 12 grid handles query tile t / 12 and key tile t % 12. A block's entry at a position inside the
  block is the array's entry at (block index × block extent + position) on each axis, so: the adjacency block is rows
  2048 (t / 12) … and columns 1024 (t % 12) … of the adjacency; the source scores' and the shifts' blocks are rows
  2048 (t / 12) … of their columns; the destination scores' block is entries 1024 (t % 12) … of the row; the features'
  block is rows 1024 (t % 12) … . The result's block of query tile q is written back once, at the point 12 q + 11, and
  these six blocks tile the result array: if each holds the matching rows of one function G, the array ends holding G.
-/
import proofs.«100860_j31645319037629_2_alg».proof.Proof.Region1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The input windows' blocks -/

/-- A point of the 6 × 12 grid is below 72. -/
theorem pt1_lt (t : Fin cfg1.N) : t.val < 72 := lt_of_lt_of_eq t.isLt (show cfg1.N = 72 from N_1)

/-- The block index of each window at point t: query tile t / 12 and key tile t % 12, or zero. -/
theorem idx1_0 : ∀ t : Fin cfg1.N, win1_0.index t 0 = t.val / 12 ∧ win1_0.index t 1 = t.val % 12 :=
  (by decide +kernel : ∀ t : Fin grid1.N, win1_0.index t 0 = t.val / 12 ∧ win1_0.index t 1 = t.val % 12)

/-- The adjacency block at point t: rows 2048 (t / 12) … and columns 1024 (t % 12) … of the adjacency. -/
theorem blk1_0 (c : Dev nD) (t : Fin cfg1.N) (p : Fin 2048) (j : Fin 1024) :
    iblk1 V c 0 t (ix2 p j)
      = V c main_arg1 (ix2 (⟨2048 * (t.val / 12) + p.val, by have := pt1_lt t; omega⟩ : Fin 12288)
          (⟨1024 * (t.val % 12) + j.val, by omega⟩ : Fin 12288)) := by
  obtain ⟨e0, e1⟩ := idx1_0 t
  unfold iblk1
  rw [View.read_apply]
  show V c main_arg1 _ = V c main_arg1 _
  congr 1
  funext a
  apply Fin.ext
  match a with
  | ⟨0, _⟩ => show win1_0.index t 0 * 2048 + 1 * p.val = 2048 * (t.val / 12) + p.val; rw [e0]; omega
  | ⟨1, _⟩ => show win1_0.index t 1 * 1024 + 1 * j.val = 1024 * (t.val % 12) + j.val; rw [e1]; omega

theorem idx1_1 : ∀ t : Fin cfg1.N, win1_1.index t 0 = t.val / 12 ∧ win1_1.index t 1 = 0 :=
  (by decide +kernel : ∀ t : Fin grid1.N, win1_1.index t 0 = t.val / 12 ∧ win1_1.index t 1 = 0)
theorem idx1_2 : ∀ t : Fin cfg1.N, win1_2.index t 0 = 0 ∧ win1_2.index t 1 = t.val % 12 :=
  (by decide +kernel : ∀ t : Fin grid1.N, win1_2.index t 0 = 0 ∧ win1_2.index t 1 = t.val % 12)
theorem idx1_3 : ∀ t : Fin cfg1.N, win1_3.index t 0 = t.val / 12 ∧ win1_3.index t 1 = 0 :=
  (by decide +kernel : ∀ t : Fin grid1.N, win1_3.index t 0 = t.val / 12 ∧ win1_3.index t 1 = 0)
theorem idx1_4 : ∀ t : Fin cfg1.N, win1_4.index t 0 = t.val % 12 ∧ win1_4.index t 1 = 0 :=
  (by decide +kernel : ∀ t : Fin grid1.N, win1_4.index t 0 = t.val % 12 ∧ win1_4.index t 1 = 0)
theorem idx1_5 : ∀ t : Fin cfg1.N, win1_5.index t 0 = t.val / 12 ∧ win1_5.index t 1 = 0 :=
  (by decide +kernel : ∀ t : Fin grid1.N, win1_5.index t 0 = t.val / 12 ∧ win1_5.index t 1 = 0)

/-- The source scores' block at point t: rows 2048 (t / 12) … of the column. -/
theorem blk1_1 (c : Dev nD) (t : Fin cfg1.N) (p : Fin 2048) :
    iblk1 V c 1 t (ix2 p (0 : Fin 1))
      = V c main_v0_1 (ix2 (⟨2048 * (t.val / 12) + p.val, by have := pt1_lt t; omega⟩ : Fin 12288) (0 : Fin 1)) := by
  obtain ⟨e0, e1⟩ := idx1_1 t
  unfold iblk1
  rw [View.read_apply]
  show V c main_v0_1 _ = V c main_v0_1 _
  congr 1
  funext a
  apply Fin.ext
  match a with
  | ⟨0, _⟩ => show win1_1.index t 0 * 2048 + 1 * p.val = 2048 * (t.val / 12) + p.val; rw [e0]; omega
  | ⟨1, _⟩ => show win1_1.index t 1 * 1 + 1 * 0 = 0; rw [e1]

/-- The destination scores' block at point t: entries 1024 (t % 12) … of the row. -/
theorem blk1_2 (c : Dev nD) (t : Fin cfg1.N) (j : Fin 1024) :
    iblk1 V c 2 t (ix2 (0 : Fin 1) j)
      = V c main_v1 (ix2 (0 : Fin 1) (⟨1024 * (t.val % 12) + j.val, by omega⟩ : Fin 12288)) := by
  obtain ⟨e0, e1⟩ := idx1_2 t
  unfold iblk1
  rw [View.read_apply]
  show V c main_v1 _ = V c main_v1 _
  congr 1
  funext a
  apply Fin.ext
  match a with
  | ⟨0, _⟩ => show win1_2.index t 0 * 1 + 1 * 0 = 0; rw [e0]
  | ⟨1, _⟩ => show win1_2.index t 1 * 1024 + 1 * j.val = 1024 * (t.val % 12) + j.val; rw [e1]; omega

/-- The shifts' block at point t: rows 2048 (t / 12) … of the column. -/
theorem blk1_3 (c : Dev nD) (t : Fin cfg1.N) (p : Fin 2048) :
    iblk1 V c 3 t (ix2 p (0 : Fin 1))
      = V c main_v5 (ix2 (⟨2048 * (t.val / 12) + p.val, by have := pt1_lt t; omega⟩ : Fin 12288) (0 : Fin 1)) := by
  obtain ⟨e0, e1⟩ := idx1_3 t
  unfold iblk1
  rw [View.read_apply]
  show V c main_v5 _ = V c main_v5 _
  congr 1
  funext a
  apply Fin.ext
  match a with
  | ⟨0, _⟩ => show win1_3.index t 0 * 2048 + 1 * p.val = 2048 * (t.val / 12) + p.val; rw [e0]; omega
  | ⟨1, _⟩ => show win1_3.index t 1 * 1 + 1 * 0 = 0; rw [e1]

/-- The projected features' block at point t: rows 1024 (t % 12) … of the array. -/
theorem blk1_4 (c : Dev nD) (t : Fin cfg1.N) (j : Fin 1024) (d : Fin 64) :
    iblk1 V c 4 t (ix2 j d)
      = V c main_v0_0 (ix2 (⟨1024 * (t.val % 12) + j.val, by omega⟩ : Fin 12288) d) := by
  obtain ⟨e0, e1⟩ := idx1_4 t
  unfold iblk1
  rw [View.read_apply]
  show V c main_v0_0 _ = V c main_v0_0 _
  congr 1
  funext a
  apply Fin.ext
  match a with
  | ⟨0, _⟩ => show win1_4.index t 0 * 1024 + 1 * j.val = 1024 * (t.val % 12) + j.val; rw [e0]; omega
  | ⟨1, _⟩ => show win1_4.index t 1 * 64 + 1 * d.val = d.val; rw [e1]; omega

/-! ## The result array from its blocks -/

/-- An index of the result array is in point t's block iff each coordinate is in the block's range on its axis. -/
theorem mem_blk1_5 (t : Fin cfg1.N) (i : S12288x64.Idx) :
    i ∈ ((cfg1.win 5).blk t).view.set ↔ ∀ a : Fin 2, win1_5.index t a * S2048x64.size a ≤ (i a).val
      ∧ (i a).val < win1_5.index t a * S2048x64.size a + S2048x64.size a := by
  show i ∈ ((View.whole main_v6).slice (win1_5.rect t)).set ↔ _
  rw [View.set_slice_whole, Rect.mem_set_unit]
  exact Iff.rfl

/-- Row r of the result lies in the block written back at the last key tile of its query tile. -/
theorem cover1_5 (i : S12288x64.Idx) :
    ∃ t : Fin cfg1.N, (cfg1.win 5).flush t = true ∧ i ∈ ((cfg1.win 5).blk t).view.set := by
  have hi0 : (i 0).val < 12288 := (i 0).isLt
  have hi1 : (i 1).val < 64 := (i 1).isLt
  have hlt : 12 * ((i 0).val / 2048) + 11 < cfg1.N :=
    lt_of_lt_of_eq (by omega : 12 * ((i 0).val / 2048) + 11 < 72) (show cfg1.N = 72 from N_1).symm
  refine ⟨⟨12 * ((i 0).val / 2048) + 11, hlt⟩, (flush1_5 _).mpr (by show (12 * ((i 0).val / 2048) + 11) % 12 = 11; omega), ?_⟩
  rw [mem_blk1_5]
  obtain ⟨e0, e1⟩ := idx1_5 ⟨12 * ((i 0).val / 2048) + 11, hlt⟩
  have e0' : win1_5.index ⟨12 * ((i 0).val / 2048) + 11, hlt⟩ 0 = (i 0).val / 2048 := by
    rw [e0]; show (12 * ((i 0).val / 2048) + 11) / 12 = _; omega
  intro a
  match a with
  | ⟨0, _⟩ =>
    show win1_5.index _ 0 * 2048 ≤ (i 0).val ∧ (i 0).val < win1_5.index _ 0 * 2048 + 2048
    rw [e0']; omega
  | ⟨1, _⟩ =>
    show win1_5.index _ 1 * 64 ≤ (i 1).val ∧ (i 1).val < win1_5.index _ 1 * 64 + 64
    rw [e1]; omega

/-- For any proof data of the region: if at every point of the last key tile the output block holds, entry by entry,
    the rows 2048 (t / 12) … of G, the result array ends holding G. -/
theorem arr1_5_of_dat {c : Dev nD} (dat : Dat τ (Elt F) Unit ℕ (UR sig nD τ) ℕ cfg1 c) (G : S12288x64.Idx → Elt F .f32)
    (hG : ∀ t : Fin cfg1.N, t.val % 12 = 11 → ∀ (p : Fin 2048) (d : Fin 64),
      dat.after 5 t (ix2 p d) = G (ix2 (⟨2048 * (t.val / 12) + p.val, by have := pt1_lt t; omega⟩ : Fin 12288) d)) :
    dat.arrAt 5 cfg1.N = G := by
  refine dat.arrAt_eq_of_cover 5 G (fun t hf => ?_) cover1_5
  have h11 : t.val % 12 = 11 := (flush1_5 t).mp hf
  obtain ⟨e0, e1⟩ := idx1_5 t
  show (cfg1.win 5).cut (grid1.coords t) (dat.after 5 t) = _
  funext j
  rw [View.read_apply]
  have hp : (j 0).val < 2048 := (j 0).isLt
  have hd : (j 1).val < 64 := (j 1).isLt
  have hx : (cfg1.win 5).xinj (grid1.coords t) j = ix2 (⟨(j 0).val, hp⟩ : Fin 2048) (⟨(j 1).val, hd⟩ : Fin 64) := by
    funext a
    match a with
    | ⟨0, _⟩ => rfl
    | ⟨1, _⟩ => rfl
  have he : ((cfg1.win 5).blk t).view.emb j
      = ix2 (⟨2048 * (t.val / 12) + (j 0).val, by have := pt1_lt t; omega⟩ : Fin 12288) (⟨(j 1).val, hd⟩ : Fin 64) := by
    funext a
    apply Fin.ext
    match a with
    | ⟨0, _⟩ => show win1_5.index t 0 * 2048 + 1 * (j 0).val = 2048 * (t.val / 12) + (j 0).val; rw [e0]; omega
    | ⟨1, _⟩ => show win1_5.index t 1 * 64 + 1 * (j 1).val = (j 1).val; rw [e1]; omega
  show dat.after 5 t ((cfg1.win 5).xinj (grid1.coords t) j) = G (((cfg1.win 5).blk t).view.emb j)
  rw [hx, he]
  exact hG t h11 ⟨(j 0).val, hp⟩ ⟨(j 1).val, hd⟩

/-- The same at the region's own proof data. -/
theorem arr1_5_of (c : Dev nD) (G : S12288x64.Idx → Elt F .f32)
    (hG : ∀ t : Fin cfg1.N, t.val % 12 = 11 → ∀ (p : Fin 2048) (d : Fin 64),
      (dat1 V c).after 5 t (ix2 p d) = G (ix2 (⟨2048 * (t.val / 12) + p.val, by have := pt1_lt t; omega⟩ : Fin 12288) d)) :
    (dat1 V c).arrAt 5 cfg1.N = G :=
  arr1_5_of_dat (dat1 V c) G hG

end Cert.KernelIdeal.Hand

end
-- ==== Proof.Spec.lean ====
/-
  The graph-attention layer as one function of its four argument arrays, on the extended reals.

  h = x · W (12288 × 64);  w1 = h · a[0:64],  w2 = h · a[64:128]  (one number per node);
  the score of the pair (i, j) is the leaky rectifier (slope 0.01, the word 0x3C23D70A) of  w1 i + w2 j,
  kept where the adjacency word is positive and replaced by the finite number -9e15 (the word 0xD9FFCB9E) elsewhere;
  row i of the scores is turned into weights  exp (score − shift) / Σ exp (score − shift)  and the result is the
  leaky rectifier (slope 0.2, the word 0x3E4CCCCD) of the weighted sum of the rows of h.

  Two spellings of the same number are stated: the quotient of the weighted sum of exponentials by their plain sum,
  with ANY shift per row (`outQ`), and the sum of normalized weights times values with the row's maximum as the
  shift (`outW`). They agree whenever every number involved is real, because the common factor exp (shift' − shift)
  cancels between numerator and denominator.
-/
import Idealize.ShloMosaic.PureOps.Ideal
import Idealize.ShloMosaic.Lib.ValueIdx

noncomputable section

open scoped BigOperators

namespace Cert.Spec

open Idealize.ShloMosaic Idealize.ShloMosaic.ValueIdx

/-- The shapes of the four arguments and of the result. -/
abbrev SX : Shape := ⟨2, ![12288, 256]⟩
abbrev SA : Shape := ⟨2, ![12288, 12288]⟩
abbrev SW : Shape := ⟨2, ![256, 64]⟩
abbrev SV : Shape := ⟨2, ![128, 1]⟩
abbrev SO : Shape := ⟨2, ![12288, 64]⟩

/-- The leaky rectifier with slope `s`: `z` where `z ≥ 0`, `z · s` elsewhere (the comparison is with the zero word). -/
def leaky (s z : EReal) : EReal :=
  Scalar.select (Ideal.cmp .oge z (Ideal.ofBits .f32 0x00000000#32)) z (z * s)

/-- The three float literals of the layer, as the extended reals their words denote. -/
def slope1 : EReal := Ideal.ofBits .f32 0x3C23D70A#32
def slope2 : EReal := Ideal.ofBits .f32 0x3E4CCCCD#32
def negBig : EReal := Ideal.ofBits .f32 0xD9FFCB9E#32
/-- The word of minus infinity, the start of every maximum. -/
def negInf : EReal := Ideal.ofBits .f32 0xFF800000#32

variable (x : SX.Idx → EReal) (adj : SA.Idx → BitVec 32) (W : SW.Idx → EReal) (a : SV.Idx → EReal)

/-- The projected features: row `j` of `x` times column `d` of `W`. -/
def h (j : Fin 12288) (d : Fin 64) : EReal := ∑ k : Fin 256, x (ix2 j k) * W (ix2 k d)

/-- The source score of node `i`: its features against the first 64 entries of the attention vector. -/
def w1 (i : Fin 12288) : EReal := ∑ d : Fin 64, h x W i d * a (ix2 (⟨d.val, by omega⟩ : Fin 128) (0 : Fin 1))

/-- The destination score of node `j`: its features against the last 64 entries of the attention vector. -/
def w2 (j : Fin 12288) : EReal := ∑ d : Fin 64, h x W j d * a (ix2 (⟨64 + d.val, by omega⟩ : Fin 128) (0 : Fin 1))

/-- The masked score of the pair `(i, j)`. -/
def masked (i j : Fin 12288) : EReal :=
  Scalar.select (IntOp.cmpi .sgt (adj (ix2 i j)) 0#32) (leaky slope1 (w1 x W a i + w2 x W a j)) negBig

/-- The row maximum of the masked scores, as the plain softmax takes it: started from minus infinity and joined
    with minus infinity once more. -/
def rowMax (i : Fin 12288) : EReal :=
  max negInf ((Finset.univ : Finset (Fin 12288)).fold max negInf (fun j => masked x adj W a i j))

/-- QUOTIENT FORM, at any shift per row: weighted sum of exponentials over their plain sum, then the rectifier. -/
def outQ (shift : Fin 12288 → EReal) (i : Fin 12288) (d : Fin 64) : EReal :=
  leaky slope2 (Ideal.div (∑ j : Fin 12288, Ideal.exp (masked x adj W a i j - shift i) * h x W j d)
    (∑ j : Fin 12288, Ideal.exp (masked x adj W a i j - shift i)))

/-- WEIGHTS FORM, at the row maximum: the sum of normalized weights times values, then the rectifier. -/
def outW (i : Fin 12288) (d : Fin 64) : EReal :=
  leaky slope2 (∑ j : Fin 12288,
    Ideal.div (Ideal.exp (masked x adj W a i j - rowMax x adj W a i))
      (∑ j' : Fin 12288, Ideal.exp (masked x adj W a i j' - rowMax x adj W a i)) * h x W j d)

end Cert.Spec

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.PayValue.lean ====
/-
  The arithmetic of the two kernels' blocks read at one entry, on the extended reals.

  The projection block: a row tile of the features times the weight matrix is, at entry (p, q), the sum over the 256
  input features of x (p, k) * W (k, q); the two score columns are that product against the first and the last
  64 entries of the attention vector.
  The attention block: on a 2048 x 1024 tile the exponential of the masked, rectified pair score minus the row's
  shift; its sum along the row added to the running denominator; its product with a tile of the projected features
  added to the running numerator; and, at the last tile, the quotient of numerator by denominator through the
  rectifier with slope 0.2. Both accumulators start from the zero word.
-/
import proofs.«100860_j31645319037629_2_alg».proof.Proof.Gen.KernelIdeal.Skeleton
import proofs.«100860_j31645319037629_2_alg».proof.Proof.Spec
import proofs.«100860_j31645319037629_2_alg».proof.Proof.LibMatmulRead
import proofs.«100860_j31645319037629_2_alg».proof.Proof.LibKeepdims
import Idealize.ShloMosaic.Lib.ValueIdx
import Idealize.ShloMosaic.Lib.ValueLayout
import Idealize.ShloMosaic.Lib.Pipeline.Value

noncomputable section

open scoped BigOperators

namespace Cert.KernelIdeal.PayValue

open Idealize.ShloMosaic Idealize.ShloMosaic.ValueIdx Idealize.ShloMosaic.MatmulRead
open Cert.KernelIdeal Cert.KernelIdeal.Gen

/-- The three contraction records are of the rows-by-columns form. -/
theorem rbc_proj : RowsByCols dot_S2048x256_S256x64_S2048x64_1_0_0_1_n_n := ⟨rfl, rfl, rfl, rfl, rfl, rfl⟩
theorem rbc_score : RowsByCols dot_S2048x64_S64x1_S2048x1_1_0_0_1_n_n := ⟨rfl, rfl, rfl, rfl, rfl, rfl⟩
theorem rbc_attn : RowsByCols dot_S2048x1024_S1024x64_S2048x64_1_0_0_1_n_n := ⟨rfl, rfl, rfl, rfl, rfl, rfl⟩

/-! ## The projection block -/

/-- Entry (p, q) of the projected row tile: the sum over the input features. -/
theorem k0_pay1_apply (v0 : Vec Ideal S2048x256 .f32) (v1 : Vec Ideal S256x64 .f32) (p : Fin 2048) (q : Fin 64) :
    k0_pay1 v0 v1 (ix2 p q) = ∑ k : Fin 256, v0 (ix2 p k) * v1 (ix2 k q) := by
  unfold k0_pay1
  exact matmul_zero_ix2 rbc_proj rfl rfl none v0 v1 p q

/-- The narrowed copy of the projected tile has the same entries: a change of format is the identity on the
    extended reals. -/
theorem k0_pay2_apply (v0 : Vec Ideal S2048x256 .f32) (v1 : Vec Ideal S256x64 .f32) (p : Fin 2048) (q : Fin 64) :
    k0_pay2 v0 v1 (ix2 p q) = ∑ k : Fin 256, v0 (ix2 p k) * v1 (ix2 k q) := by
  unfold k0_pay2
  show k0_pay1 v0 v1 (ix2 p q) = _
  exact k0_pay1_apply v0 v1 p q

/-- Row p of the projected tile against 64 consecutive entries of the attention vector, from entry `off` on. -/
theorem score_apply (v0 : Vec Ideal S2048x256 .f32) (v1 : Vec Ideal S256x64 .f32) (w : FVec Ideal S64x1 .f32)
    (p : Fin 2048) :
    matmul dot_S2048x64_S64x1_S2048x1_1_0_0_1_n_n none (k0_pay1 v0 v1) w (constant S2048x1 .f32 0x00000000#32)
        (ix2 p (0 : Fin 1))
      = ∑ d : Fin 64, (∑ k : Fin 256, v0 (ix2 p k) * v1 (ix2 k d)) * w (ix2 d (0 : Fin 1)) := by
  refine (matmul_zero_ix2 rbc_score rfl rfl none (k0_pay1 v0 v1) w p (0 : Fin 1)).trans ?_
  refine Finset.sum_congr rfl fun d _ => ?_
  rw [k0_pay1_apply]

/-- The source score of row p: the projected row against the first 64 entries of the attention vector. -/
theorem k0_pay3_apply (v0 : Vec Ideal S2048x256 .f32) (v1 : Vec Ideal S256x64 .f32) (v3 : Vec Ideal S128x1 .f32)
    (p : Fin 2048) :
    k0_pay3 v0 v1 v3 (ix2 p (0 : Fin 1))
      = ∑ d : Fin 64, (∑ k : Fin 256, v0 (ix2 p k) * v1 (ix2 k d))
          * v3 (ix2 (⟨d.val, by omega⟩ : Fin 128) (0 : Fin 1)) := by
  unfold k0_pay3
  refine (score_apply v0 v1 _ p).trans ?_
  refine Finset.sum_congr rfl fun d _ => congrArg (_ * ·) ?_
  refine extractStridedSlice_apply _ v3 _ (ix2 d (0 : Fin 1)) (ix2 (⟨d.val, by omega⟩ : Fin 128) (0 : Fin 1)) fun a => ?_
  match a with
  | ⟨0, _⟩ => exact (Nat.zero_add _).symm
  | ⟨1, _⟩ => rfl

/-- The destination score of row p: the projected row against the last 64 entries of the attention vector. -/
theorem k0_pay4_apply (v0 : Vec Ideal S2048x256 .f32) (v1 : Vec Ideal S256x64 .f32) (v3 : Vec Ideal S128x1 .f32)
    (p : Fin 2048) :
    k0_pay4 v0 v1 v3 (ix2 p (0 : Fin 1))
      = ∑ d : Fin 64, (∑ k : Fin 256, v0 (ix2 p k) * v1 (ix2 k d))
          * v3 (ix2 (⟨64 + d.val, by omega⟩ : Fin 128) (0 : Fin 1)) := by
  unfold k0_pay4
  refine (score_apply v0 v1 _ p).trans ?_
  refine Finset.sum_congr rfl fun d _ => congrArg (_ * ·) ?_
  refine extractStridedSlice_apply _ v3 _ (ix2 d (0 : Fin 1)) (ix2 (⟨64 + d.val, by omega⟩ : Fin 128) (0 : Fin 1)) fun a => ?_
  match a with
  | ⟨0, _⟩ => rfl
  | ⟨1, _⟩ => rfl

/-! ## The attention block -/

/-- The running denominator starts from zero. -/
theorem k1_pay3_apply (p : Fin 2048) : k1_pay3 (F := Ideal) (ix2 p (0 : Fin 1)) = 0 := by
  unfold k1_pay3
  refine (congrFun (shapeCast_self _ _) _).trans ?_
  exact Ideal.ofBits_zero_f32

/-- The running numerator starts from zero. -/
theorem k1_pay4_apply (p : Fin 2048) (d : Fin 64) : k1_pay4 (F := Ideal) (ix2 p d) = 0 := by
  unfold k1_pay4
  refine (congrFun (shapeCast_self _ _) _).trans ?_
  exact Ideal.ofBits_zero_f32

/-- A row [1, 1024] repeated over 2048 rows reads, at (p, j), the row's entry j. -/
theorem broadcastTo_row_apply {α : Type} (v : S1x1024.Idx → α) (h : S1x1024.Broadcasts S2048x1024)
    (p : Fin 2048) (j : Fin 1024) : broadcastTo S2048x1024 v h (ix2 p j) = v (ix2 (0 : Fin 1) j) := by
  refine broadcastTo_apply v h (ix2 p j) (ix2 (0 : Fin 1) j) fun ax => ?_
  match ax with
  | ⟨0, _⟩ => rfl
  | ⟨1, _⟩ => rfl

/-- The exponential of the masked, rectified pair score minus the row's shift, at the pair (p, j) of the tile. -/
theorem k1_pay5_apply (v3 : Vec Ideal S2048x1 .f32) (v5 : Vec Ideal S1x1024 .f32) (v15 : Vec Ideal S2048x1024 .i32)
    (v20 : Vec Ideal S2048x1 .f32) (p : Fin 2048) (j : Fin 1024) :
    k1_pay5 v3 v5 v15 v20 (ix2 p j)
      = Ideal.exp (Scalar.select (IntOp.cmpi .sgt (v15 (ix2 p j)) 0#32)
          (Spec.leaky Spec.slope1 (v3 (ix2 p (0 : Fin 1)) + v5 (ix2 (0 : Fin 1) j))) Spec.negBig
          - v20 (ix2 p (0 : Fin 1))) := by
  have h7 : broadcastTo S2048x1024 (shapeCast S2048x1 v3 shapeCasts_S2048x1_S2048x1) broadcasts_S2048x1_S2048x1024 (ix2 p j)
      = v3 (ix2 p (0 : Fin 1)) := by
    rw [shapeCast_self]; exact LibKeepdims.broadcastTo_a1_ab_apply v3 _ p j
  have h8 : broadcastTo S2048x1024 (shapeCast S1x1024 v5 shapeCasts_S1x1024_S1x1024) broadcasts_S1x1024_S2048x1024 (ix2 p j)
      = v5 (ix2 (0 : Fin 1) j) := by
    rw [shapeCast_self]; exact broadcastTo_row_apply v5 _ p j
  have h22 : broadcastTo S2048x1024 (shapeCast S2048x1 v20 shapeCasts_S2048x1_S2048x1) broadcasts_S2048x1_S2048x1024 (ix2 p j)
      = v20 (ix2 p (0 : Fin 1)) := by
    rw [shapeCast_self]; exact LibKeepdims.broadcastTo_a1_ab_apply v20 _ p j
  unfold k1_pay5
  show Ideal.exp (Scalar.select (IntOp.cmpi .sgt (v15 (ix2 p j)) 0#32)
      (Spec.leaky Spec.slope1
        (broadcastTo S2048x1024 (shapeCast S2048x1 v3 shapeCasts_S2048x1_S2048x1) broadcasts_S2048x1_S2048x1024 (ix2 p j)
          + broadcastTo S2048x1024 (shapeCast S1x1024 v5 shapeCasts_S1x1024_S1x1024) broadcasts_S1x1024_S2048x1024 (ix2 p j)))
      Spec.negBig
      - broadcastTo S2048x1024 (shapeCast S2048x1 v20 shapeCasts_S2048x1_S2048x1) broadcasts_S2048x1_S2048x1024 (ix2 p j)) = _
  rw [h7, h8, h22]

/-- The narrowed copy of the exponentials has the same entries. -/
theorem k1_pay7_apply (v3 : Vec Ideal S2048x1 .f32) (v5 : Vec Ideal S1x1024 .f32) (v15 : Vec Ideal S2048x1024 .i32)
    (v20 : Vec Ideal S2048x1 .f32) (p : Fin 2048) (j : Fin 1024) :
    k1_pay7 v3 v5 v15 v20 (ix2 p j) = k1_pay5 v3 v5 v15 v20 (ix2 p j) := by
  unfold k1_pay7
  rfl

/-- The running denominator of row p after the tile: what it was plus the tile's exponentials along the row. -/
theorem k1_pay6_apply (v3 : Vec Ideal S2048x1 .f32) (v5 : Vec Ideal S1x1024 .f32) (v15 : Vec Ideal S2048x1024 .i32)
    (v20 : Vec Ideal S2048x1 .f32) (v25 : Vec Ideal S2048x1 .f32) (p : Fin 2048) :
    k1_pay6 v3 v5 v15 v20 v25 (ix2 p (0 : Fin 1))
      = v25 (ix2 p (0 : Fin 1)) + ∑ j : Fin 1024, k1_pay5 v3 v5 v15 v20 (ix2 p j) := by
  unfold k1_pay6
  refine (congrFun (shapeCast_self _ _) _).trans ?_
  refine congrArg (v25 (ix2 p (0 : Fin 1)) + ·) ?_
  exact (LibKeepdims.shapeCast_a_a1_apply _ _ p (0 : Fin 1)).trans
    (LibKeepdims.laneSum_apply (k1_pay5 v3 v5 v15 v20) _ _ _ p)

/-- The running numerator at (p, d) after the tile: what it was plus the tile's exponentials of row p against
    column d of the tile of projected features. -/
theorem k1_pay1_apply (v32 : Vec Ideal S2048x64 .f32) (v33 : FVec Ideal S2048x1024 .bf16) (v34 : Vec Ideal S1024x64 .bf16)
    (p : Fin 2048) (d : Fin 64) :
    k1_pay1 v32 v33 v34 (ix2 p d) = v32 (ix2 p d) + ∑ j : Fin 1024, v33 (ix2 p j) * v34 (ix2 j d) := by
  unfold k1_pay1
  refine (congrFun (shapeCast_self _ _) _).trans ?_
  refine congrArg (v32 (ix2 p d) + ·) ?_
  rw [shapeCast_self]
  exact matmul_zero_ix2 rbc_attn rfl rfl none v33 v34 p d

/-- The result at (p, d): numerator over the row's denominator, through the rectifier with slope 0.2. -/
theorem k1_pay2_apply (v44 : Vec Ideal S2048x64 .f32) (v45 : Vec Ideal S2048x1 .f32) (p : Fin 2048) (d : Fin 64) :
    k1_pay2 v44 v45 (ix2 p d) = Spec.leaky Spec.slope2 (Ideal.div (v44 (ix2 p d)) (v45 (ix2 p (0 : Fin 1)))) := by
  have h : broadcastTo S2048x64 v45 broadcasts_S2048x1_S2048x64 (ix2 p d) = v45 (ix2 p (0 : Fin 1)) :=
    LibKeepdims.broadcastTo_a1_ab_apply v45 _ p d
  unfold k1_pay2
  show Spec.leaky Spec.slope2 (Ideal.div (v44 (ix2 p d)) (broadcastTo S2048x64 v45 broadcasts_S2048x1_S2048x64 (ix2 p d))) = _
  rw [h]

end Cert.KernelIdeal.PayValue

end
-- ==== Proof.LibBlockSum.lean ====
/-
  Sums over a range cut into equal blocks, and the running sum of the block sums.

  A sum over the a · b indices below a · b is the sum over the a blocks of the sum inside each block: the index
  b · j + r, with j the block and r the place inside it, runs once over every index (division with remainder by b).
  A running sum that starts by adding the first term to zero and then adds each next term is, after n steps, the sum
  of the first n + 1 terms. Together: accumulating the block sums block by block gives the whole sum.
-/
import Mathlib.Algebra.BigOperators.Fin
import Mathlib.Logic.Equiv.Fin.Basic

open scoped BigOperators

namespace Cert.LibBlockSum

variable {M : Type*} [AddCommMonoid M]

/-- The place r of block j lies below a · b. -/
theorem blk_lt {a b : ℕ} (j : Fin a) (r : Fin b) : b * j.val + r.val < a * b :=
  calc b * j.val + r.val < b * j.val + b := Nat.add_lt_add_left r.isLt _
    _ = b * (j.val + 1) := (Nat.mul_succ _ _).symm
    _ ≤ b * a := Nat.mul_le_mul_left _ j.isLt
    _ = a * b := Nat.mul_comm _ _

/-- A sum over a · b indices is the sum over the a blocks of the sum over the b places of a block; place r of
    block j is the index b · j + r. -/
theorem sum_blocks (a b : ℕ) (f : Fin (a * b) → M) :
    ∑ q : Fin (a * b), f q = ∑ j : Fin a, ∑ r : Fin b, f ⟨b * j.val + r.val, blk_lt j r⟩ := by
  rw [← (finProdFinEquiv (m := a) (n := b)).sum_comp f, Fintype.sum_prod_type]
  exact Finset.sum_congr rfl fun j _ => Finset.sum_congr rfl fun r _ =>
    congrArg f (Fin.ext (Nat.add_comm _ _))

/-- The 8192 indices as 16 blocks of 512: place r of block j is the index 512 · j + r. -/
theorem sum_8192 (f : Fin 8192 → M) :
    ∑ q : Fin 8192, f q = ∑ j : Fin 16, ∑ r : Fin 512, f ⟨512 * j.val + r.val, by omega⟩ :=
  sum_blocks 16 512 f

/-- The running sum of a sequence: the first term is added to zero, every later term to the sum so far. -/
def run (g : ℕ → M) : ℕ → M
  | 0 => 0 + g 0
  | n + 1 => run g n + g (n + 1)

/-- After n steps the running sum is the sum of the terms 0, …, n. -/
theorem run_eq_sum_range (g : ℕ → M) (n : ℕ) : run g n = ∑ j ∈ Finset.range (n + 1), g j := by
  induction n with
  | zero => rw [run, zero_add, Finset.sum_range_one]
  | succ n ih => rw [run, ih, Finset.sum_range_succ g (n + 1)]

/-- After 15 steps the running sum is the sum of all 16 terms. -/
theorem run_15 (g : ℕ → M) : run g 15 = ∑ j : Fin 16, g j.val := by
  rw [run_eq_sum_range, Finset.sum_range]

end Cert.LibBlockSum
-- ==== Proof.TileSum.lean ====
/-
  Accumulating twelve tile sums, tile by tile, gives the whole sum.

  For a family f over the 12288 indices let s k be the sum of f over the 1024 indices 1024 k, …, 1024 k + 1023 of
  tile k. The left-nested accumulation (((0 + s 0) + s 1) + … + s 11) is the sum of the twelve tile sums, and
  the twelve tiles run once over every index (division with remainder by 1024), so it is the sum of f over all
  12288 indices. This holds in any additive commutative monoid.
-/
import proofs.«100860_j31645319037629_2_alg».proof.Proof.LibBlockSum

open scoped BigOperators

namespace Cert.TileSum

variable {M : Type*} [AddCommMonoid M]

/-- The accumulation of a sequence: the first term is added to zero, every later term to what was accumulated. -/
def acc (s : ℕ → M) : ℕ → M
  | 0 => 0 + s 0
  | k + 1 => acc s k + s (k + 1)

/-- The accumulation is the running sum. -/
theorem acc_eq_run (s : ℕ → M) (n : ℕ) : acc s n = Cert.LibBlockSum.run s n := by
  induction n with
  | zero => rfl
  | succ n ih => rw [acc, Cert.LibBlockSum.run, ih]

/-- After n steps the accumulation is the sum of the terms 0, …, n. -/
theorem acc_eq_sum_range (s : ℕ → M) (n : ℕ) : acc s n = ∑ j ∈ Finset.range (n + 1), s j := by
  rw [acc_eq_run, Cert.LibBlockSum.run_eq_sum_range]

/-- After n steps the accumulation is the sum over the first n + 1 indices. -/
theorem acc_eq_sum_fin (s : ℕ → M) (n : ℕ) : acc s n = ∑ j : Fin (n + 1), s j.val := by
  rw [acc_eq_sum_range, Finset.sum_range]

/-- Twelve tiles of 1024, accumulated in order, give the sum over all 12288 indices. -/
theorem acc_eleven (f : Fin 12288 → M) :
    acc (fun k => if h : k < 12 then ∑ j : Fin 1024, f ⟨1024 * k + j.val, by omega⟩ else 0) 11
      = ∑ j : Fin 12288, f j := by
  rw [acc_eq_sum_fin]
  refine Eq.trans ?_ (Cert.LibBlockSum.sum_blocks 12 1024 f).symm
  refine Finset.sum_congr rfl fun k _ => ?_
  rw [dif_pos k.isLt]

end Cert.TileSum
-- ==== Proof.Region1Value.lean ====
/-
  The attention kernel's result array as one function of the arrays the region finds.

  Write  e i j  for the exponential of the masked score of the pair (i, j) less row i's shift. One key tile adds to the
  row sums of a query tile the 1024 terms  e i j  of its columns, and to the weighted sums the terms  e i j · h j d.
  The grid walks the twelve key tiles of a query tile in order, starting both sums from zero at the first, so after key
  tile k they are the left-nested sums over tiles 0 … k; after the twelfth they are the sums over all 12288 columns,
  whatever the grouping. There the output block stores the rectified quotient of the two, and those blocks are the
  rows of the result array.
-/
import proofs.«100860_j31645319037629_2_alg».proof.Proof.Region1Pieces
import proofs.«100860_j31645319037629_2_alg».proof.Proof.Region1Blocks
import proofs.«100860_j31645319037629_2_alg».proof.Proof.PayValue
import proofs.«100860_j31645319037629_2_alg».proof.Proof.TileSum
import proofs.«100860_j31645319037629_2_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## One pair's term, one tile's contribution -/

section Pure

variable (A : S12288x12288.Idx → BitVec 32) (W1 : S12288x1.Idx → EReal) (W2 : S1x12288.Idx → EReal)
  (M : S12288x1.Idx → EReal) (H : S12288x64.Idx → EReal)

/-- The exponential of the masked score of the pair `(i, j)` less row `i`'s shift. -/
def exG (i j : Fin 12288) : EReal :=
  Ideal.exp (Scalar.select (IntOp.cmpi .sgt (A (ix2 i j)) 0#32)
    (Spec.leaky Spec.slope1 (W1 (ix2 i (0 : Fin 1)) + W2 (ix2 (0 : Fin 1) j))) Spec.negBig - M (ix2 i (0 : Fin 1)))

/-- Key tile `k`'s contribution to row `i`'s sum of exponentials … -/
def tileL (i : Fin 12288) : ℕ → EReal :=
  fun k => if h : k < 12 then ∑ j : Fin 1024, (exG A W1 W2 M i) ⟨1024 * k + j.val, by omega⟩ else 0

/-- … and to its sum of exponentials times column `d` of the features. -/
def tileA (i : Fin 12288) (d : Fin 64) : ℕ → EReal :=
  fun k => if h : k < 12 then ∑ j : Fin 1024, (fun jj => exG A W1 W2 M i jj * H (ix2 jj d)) ⟨1024 * k + j.val, by omega⟩ else 0

/-- The tile's exponential at `(p, j)`, once the tile's blocks are known to be the arrays' entries. -/
theorem pay5_at (x1 : Vec Ideal S2048x1 .f32) (x2 : Vec Ideal S1x1024 .f32) (x0 : Vec Ideal S2048x1024 .i32) (x3 : Vec Ideal S2048x1 .f32)
    (p : Fin 2048) (j : Fin 1024) (i jj : Fin 12288)
    (h0 : x0 (ix2 p j) = A (ix2 i jj)) (h1 : x1 (ix2 p (0 : Fin 1)) = W1 (ix2 i (0 : Fin 1)))
    (h2 : x2 (ix2 (0 : Fin 1) j) = W2 (ix2 (0 : Fin 1) jj)) (h3 : x3 (ix2 p (0 : Fin 1)) = M (ix2 i (0 : Fin 1))) :
    k1_pay5 x1 x2 x0 x3 (ix2 p j) = exG A W1 W2 M i jj := by
  rw [PayValue.k1_pay5_apply, h0, h1, h2, h3]; rfl

end Pure

variable (V : (c : Dev nD) → (b : Ref sig .tc) → Buf (Elt Ideal) ((c : Thread nD τ).loc b))

/-! ## The arrays the region finds, at their plain types -/

def adjA (c : Dev nD) : S12288x12288.Idx → BitVec 32 := V c main_arg1
def w1A (c : Dev nD) : S12288x1.Idx → EReal := V c main_v0_1
def w2A (c : Dev nD) : S1x12288.Idx → EReal := V c main_v1
def mA (c : Dev nD) : S12288x1.Idx → EReal := V c main_v5
def hA (c : Dev nD) : S12288x64.Idx → EReal := V c main_v0_0

/-- The row of the arrays that row `p` of point `t`'s query tile is. -/
def rowOf (n : ℕ) (h : n < cfg1.N) (p : Fin 2048) : Fin 12288 :=
  ⟨2048 * (n / 12) + p.val, by have := pt1_lt ⟨n, h⟩; simp only at this; omega⟩

abbrev TL (c : Dev nD) (i : Fin 12288) : ℕ → EReal := tileL (adjA V c) (w1A V c) (w2A V c) (mA V c) i
abbrev TA (c : Dev nD) (i : Fin 12288) (d : Fin 64) : ℕ → EReal := tileA (adjA V c) (w1A V c) (w2A V c) (mA V c) (hA V c) i d

/-! ## One step of each sum, at an index -/

theorem lstep_at (c : Dev nD) (n : ℕ) (h : n < cfg1.N) (l : Vec Ideal S2048x1 .f32) (p : Fin 2048) :
    lstep V c ⟨n, h⟩ l (ix2 p (0 : Fin 1)) = l (ix2 p (0 : Fin 1)) + TL V c (rowOf n h p) (n % 12) := by
  unfold lstep
  refine (PayValue.k1_pay6_apply _ _ _ _ _ p).trans ?_
  refine congrArg (l (ix2 p (0 : Fin 1)) + ·) ?_
  show _ = tileL _ _ _ _ _ (n % 12)
  unfold tileL
  rw [dif_pos (Nat.mod_lt _ (by decide))]
  refine Finset.sum_congr rfl fun j _ => ?_
  exact pay5_at (adjA V c) (w1A V c) (w2A V c) (mA V c) _ _ _ _ p j _ _
    (blk1_0 V c ⟨n, h⟩ p j) (blk1_1 V c ⟨n, h⟩ p) (blk1_2 V c ⟨n, h⟩ j) (blk1_3 V c ⟨n, h⟩ p)

theorem astep_at (c : Dev nD) (n : ℕ) (h : n < cfg1.N) (a : Vec Ideal S2048x64 .f32) (p : Fin 2048) (d : Fin 64) :
    astep V c ⟨n, h⟩ a (ix2 p d) = a (ix2 p d) + TA V c (rowOf n h p) d (n % 12) := by
  unfold astep
  refine (PayValue.k1_pay1_apply _ _ _ p d).trans ?_
  refine congrArg (a (ix2 p d) + ·) ?_
  show _ = tileA _ _ _ _ _ _ _ (n % 12)
  unfold tileA
  rw [dif_pos (Nat.mod_lt _ (by decide))]
  refine Finset.sum_congr rfl fun j _ => ?_
  show _ = exG _ _ _ _ _ _ * hA V c (ix2 _ d)
  rw [PayValue.k1_pay7_apply]
  refine congrArg₂ (· * ·) ?_ (blk1_4 V c ⟨n, h⟩ j d)
  exact pay5_at (adjA V c) (w1A V c) (w2A V c) (mA V c) _ _ _ _ p j _ _
    (blk1_0 V c ⟨n, h⟩ p j) (blk1_1 V c ⟨n, h⟩ p) (blk1_2 V c ⟨n, h⟩ j) (blk1_3 V c ⟨n, h⟩ p)

/-! ## The two sums after each point: left-nested sums over the key tiles so far -/

theorem sums_closed (c : Dev nD) (p : Fin 2048) (d : Fin 64) : ∀ (n : ℕ) (h : n < cfg1.N),
    (sums V c n h).1 (ix2 p (0 : Fin 1)) = TileSum.acc (TL V c (rowOf n h p)) (n % 12)
    ∧ (sums V c n h).2 (ix2 p d) = TileSum.acc (TA V c (rowOf n h p) d) (n % 12)
  | 0, h => by
    refine ⟨?_, ?_⟩
    · show lstep V c ⟨0, h⟩ (k1_pay3 (F := Ideal)) (ix2 p (0 : Fin 1)) = _
      rw [lstep_at, PayValue.k1_pay3_apply]; rfl
    · show astep V c ⟨0, h⟩ (k1_pay4 (F := Ideal)) (ix2 p d) = _
      rw [astep_at, PayValue.k1_pay4_apply]; rfl
  | n + 1, h => by
    by_cases h0 : (n + 1) % 12 = 0
    · refine ⟨?_, ?_⟩
      · show (if (n + 1) % 12 = 0 then _ else _ : Vec Ideal S2048x1 .f32 × Vec Ideal S2048x64 .f32).1 (ix2 p (0 : Fin 1)) = _
        rw [if_pos h0]
        show lstep V c ⟨n + 1, h⟩ (k1_pay3 (F := Ideal)) (ix2 p (0 : Fin 1)) = _
        rw [lstep_at, PayValue.k1_pay3_apply, h0]; rfl
      · show (if (n + 1) % 12 = 0 then _ else _ : Vec Ideal S2048x1 .f32 × Vec Ideal S2048x64 .f32).2 (ix2 p d) = _
        rw [if_pos h0]
        show astep V c ⟨n + 1, h⟩ (k1_pay4 (F := Ideal)) (ix2 p d) = _
        rw [astep_at, PayValue.k1_pay4_apply, h0]; rfl
    · have hlt : n < cfg1.N := Nat.lt_of_succ_lt h
      obtain ⟨ihl, iha⟩ := sums_closed c p d n hlt
      have hq : (n + 1) / 12 = n / 12 := by omega
      have hrow : rowOf (n + 1) h p = rowOf n hlt p := Fin.ext (by show 2048 * ((n + 1) / 12) + p.val = 2048 * (n / 12) + p.val; rw [hq])
      have hk : (n + 1) % 12 = n % 12 + 1 := by omega
      refine ⟨?_, ?_⟩
      · show (if (n + 1) % 12 = 0 then _ else _ : Vec Ideal S2048x1 .f32 × Vec Ideal S2048x64 .f32).1 (ix2 p (0 : Fin 1)) = _
        rw [if_neg h0]
        show lstep V c ⟨n + 1, h⟩ (sums V c n hlt).1 (ix2 p (0 : Fin 1)) = _
        rw [lstep_at, ihl, hrow, hk]; rfl
      · show (if (n + 1) % 12 = 0 then _ else _ : Vec Ideal S2048x1 .f32 × Vec Ideal S2048x64 .f32).2 (ix2 p d) = _
        rw [if_neg h0]
        show astep V c ⟨n + 1, h⟩ (sums V c n hlt).2 (ix2 p d) = _
        rw [astep_at, iha, hrow, hk]; rfl

/-! ## The result array -/

/-- Entry `(i, d)` of the result: the rectified quotient of row `i`'s two sums over all 12288 columns. -/
def resG (c : Dev nD) (i : Fin 12288) (d : Fin 64) : EReal :=
  Spec.leaky Spec.slope2 (Ideal.div
    (∑ j : Fin 12288, exG (adjA V c) (w1A V c) (w2A V c) (mA V c) i j * hA V c (ix2 j d))
    (∑ j : Fin 12288, exG (adjA V c) (w1A V c) (w2A V c) (mA V c) i j))

def resArr (c : Dev nD) : S12288x64.Idx → Elt Ideal .f32 := fun idx => resG V c (idx 0) (idx 1)

/-- At a last key tile the output block's row `p` is row `rowOf t p` of the result. -/
theorem out_closed (c : Dev nD) (t : Fin cfg1.N) (h1 : t.val % 12 = 11) (p : Fin 2048) (d : Fin 64) :
    (dat1 V c).after 5 t (ix2 p d) = resArr V c (ix2 (rowOf t.val t.isLt p) d) := by
  rw [after1_5, outsAt_out V c t h1, PayValue.k1_pay2_apply]
  obtain ⟨hl, ha⟩ := sums_closed V c p d t.val t.isLt
  rw [hl, ha, h1]
  show _ = resG V c (rowOf t.val t.isLt p) d
  unfold resG
  rw [← TileSum.acc_eleven (exG (adjA V c) (w1A V c) (w2A V c) (mA V c) (rowOf t.val t.isLt p)),
    ← TileSum.acc_eleven (fun jj => exG (adjA V c) (w1A V c) (w2A V c) (mA V c) (rowOf t.val t.isLt p) jj * hA V c (ix2 jj d))]
  rfl

/-- THE RESULT ARRAY of the attention kernel's region, from the arrays it finds. -/
theorem arr1_5 (c : Dev nD) : (dat1 V c).arrAt 5 cfg1.N = resArr V c :=
  arr1_5_of V c (resArr V c) (fun t h1 p d => out_closed V c t h1 p d)

end Cert.KernelIdeal.Hand

end
-- ==== Proof.Region0Value.lean ====
/-
  The projection kernel's three output arrays, read off its blocks, on the extended reals.

  At point t of its six-point grid the kernel writes back rows 2048 t .. 2048 t + 2047 of each output: the block of
  features, whose entry (p, q) is the sum over the 256 input features of x (2048 t + p, k) * W (k, q), and the two
  score columns, whose entry p is that row of features against the first or the last 64 entries of the attention
  vector. Each of these is the block at t of ONE function of the argument arrays (the specification's h, w1, w2), and
  the six blocks tile the 12288 rows (row r is in the block of point r / 2048), so after the run each output array is
  that function.
-/
import proofs.«100860_j31645319037629_2_alg».proof.Proof.Region0
import proofs.«100860_j31645319037629_2_alg».proof.Proof.PayValue
import proofs.«100860_j31645319037629_2_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The offsets of a whole-buffer rectangle are zero on both axes. -/
theorem hz0 : (![0, 0] : Fin 2 → Nat) = fun _ => 0 := funext fun a => by fin_cases a <;> rfl

/-- The index maps, decided over the grid: the row tile of x and of the three outputs is the point itself, every
    other block index is zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks as rows of the arguments -/

/-- The block of x at point t, at (p, k), is x at row 2048 t + p. -/
theorem iblk0_0_apply (c : Dev nD) (t : Fin cfg0.N) (p : Fin 2048) (k : Fin 256) (i : Fin 12288)
    (hi : i.val = 2048 * t.val + p.val) :
    (iblk0 V c 0 t : Vec Ideal S2048x256 .f32) (ix2 p k) = (V c main_arg0 : S12288x256.Idx → EReal) (ix2 i k) := by
  obtain ⟨e0, e1, -⟩ := idx_facts0 t
  show (V c main_arg0 : S12288x256.Idx → EReal) (((cfg0.win 0).blk t).view.emb (ix2 p k)) = _
  refine congrArg (V c main_arg0 : S12288x256.Idx → EReal) (funext fun a => Fin.ext ?_)
  match a with
  | ⟨0, _⟩ => show win0_0.index t (0 : Fin 2) * 2048 + 1 * p.val = i.val; omega
  | ⟨1, _⟩ => show win0_0.index t (1 : Fin 2) * 256 + 1 * k.val = k.val; omega

/-- The block of W at any point is W. -/
theorem iblk0_1_apply (c : Dev nD) (t : Fin cfg0.N) (k : Fin 256) (q : Fin 64) :
    (iblk0 V c 1 t : Vec Ideal S256x64 .f32) (ix2 k q) = (V c main_arg2 : S256x64.Idx → EReal) (ix2 k q) := by
  obtain ⟨-, -, e0, e1, -⟩ := idx_facts0 t
  show (V c main_arg2 : S256x64.Idx → EReal) (((cfg0.win 1).blk t).view.emb (ix2 k q)) = _
  refine congrArg (V c main_arg2 : S256x64.Idx → EReal) (funext fun a => Fin.ext ?_)
  match a with
  | ⟨0, _⟩ => show win0_1.index t (0 : Fin 2) * 256 + 1 * k.val = k.val; omega
  | ⟨1, _⟩ => show win0_1.index t (1 : Fin 2) * 64 + 1 * q.val = q.val; omega

/-- The block of the attention vector at any point is the attention vector. -/
theorem iblk0_2_apply (c : Dev nD) (t : Fin cfg0.N) (k : Fin 128) :
    (iblk0 V c 2 t : Vec Ideal S128x1 .f32) (ix2 k (0 : Fin 1)) = (V c main_arg3 : S128x1.Idx → EReal) (ix2 k (0 : Fin 1)) := by
  obtain ⟨-, -, -, -, e0, e1, -⟩ := idx_facts0 t
  show (V c main_arg3 : S128x1.Idx → EReal) (((cfg0.win 2).blk t).view.emb (ix2 k (0 : Fin 1))) = _
  refine congrArg (V c main_arg3 : S128x1.Idx → EReal) (funext fun a => Fin.ext ?_)
  match a with
  | ⟨0, _⟩ => show win0_2.index t (0 : Fin 2) * 128 + 1 * k.val = k.val; omega
  | ⟨1, _⟩ => show win0_2.index t (1 : Fin 2) * 1 + 1 * 0 = 0; omega

/-! ## A tile of rows against the specification -/

/-- When v0 holds row r of x in its row p, and v1 holds W, row p of v0 against column q of v1 is the
    specification's feature (r, q). -/
theorem tile_h (X : S12288x256.Idx → EReal) (W : S256x64.Idx → EReal)
    (v0 : S2048x256.Idx → EReal) (v1 : S256x64.Idx → EReal) (p : Fin 2048) (r : Fin 12288)
    (h0 : ∀ k : Fin 256, v0 (ix2 p k) = X (ix2 r k))
    (h1 : ∀ (k : Fin 256) (q : Fin 64), v1 (ix2 k q) = W (ix2 k q)) (q : Fin 64) :
    ∑ k : Fin 256, v0 (ix2 p k) * v1 (ix2 k q) = Spec.h X W r q := by
  unfold Spec.h
  exact Finset.sum_congr rfl fun k _ => by rw [h0 k, h1 k q]

/-- The same row against the first 64 entries of the attention vector is the specification's source score. -/
theorem tile_w1 (X : S12288x256.Idx → EReal) (W : S256x64.Idx → EReal) (A : S128x1.Idx → EReal)
    (v0 : S2048x256.Idx → EReal) (v1 : S256x64.Idx → EReal) (v2 : S128x1.Idx → EReal) (p : Fin 2048) (r : Fin 12288)
    (h0 : ∀ k : Fin 256, v0 (ix2 p k) = X (ix2 r k))
    (h1 : ∀ (k : Fin 256) (q : Fin 64), v1 (ix2 k q) = W (ix2 k q))
    (h2 : ∀ k : Fin 128, v2 (ix2 k (0 : Fin 1)) = A (ix2 k (0 : Fin 1))) :
    ∑ d : Fin 64, (∑ k : Fin 256, v0 (ix2 p k) * v1 (ix2 k d)) * v2 (ix2 (⟨d.val, by omega⟩ : Fin 128) (0 : Fin 1))
      = Spec.w1 X W A r := by
  unfold Spec.w1
  exact Finset.sum_congr rfl fun d _ => by rw [tile_h X W v0 v1 p r h0 h1 d, h2]

/-- And against the last 64 entries, the destination score. -/
theorem tile_w2 (X : S12288x256.Idx → EReal) (W : S256x64.Idx → EReal) (A : S128x1.Idx → EReal)
    (v0 : S2048x256.Idx → EReal) (v1 : S256x64.Idx → EReal) (v2 : S128x1.Idx → EReal) (p : Fin 2048) (r : Fin 12288)
    (h0 : ∀ k : Fin 256, v0 (ix2 p k) = X (ix2 r k))
    (h1 : ∀ (k : Fin 256) (q : Fin 64), v1 (ix2 k q) = W (ix2 k q))
    (h2 : ∀ k : Fin 128, v2 (ix2 k (0 : Fin 1)) = A (ix2 k (0 : Fin 1))) :
    ∑ d : Fin 64, (∑ k : Fin 256, v0 (ix2 p k) * v1 (ix2 k d)) * v2 (ix2 (⟨64 + d.val, by omega⟩ : Fin 128) (0 : Fin 1))
      = Spec.w2 X W A r := by
  unfold Spec.w2
  exact Finset.sum_congr rfl fun d _ => by rw [tile_h X W v0 v1 p r h0 h1 d, h2]

/-! ## The three output arrays as functions of the arguments -/

/-- The features array: the specification's features of x and W. -/
def G0_3 (c : Dev nD) : S12288x64.Idx → Elt Ideal .bf16 := fun i =>
  Spec.h (V c main_arg0) (V c main_arg2) (i 0) (i 1)
/-- The source scores' array. -/
def G0_4 (c : Dev nD) : S12288x1.Idx → Elt Ideal .f32 := fun i =>
  Spec.w1 (V c main_arg0) (V c main_arg2) (V c main_arg3) (i 0)
/-- The destination scores' array. -/
def G0_5 (c : Dev nD) : S12288x1.Idx → Elt Ideal .f32 := fun i =>
  Spec.w2 (V c main_arg0) (V c main_arg2) (V c main_arg3) (i 0)

/-! ## What each point writes back -/

/-- What point t writes back of the features is the block at t of the features array. -/
theorem flushed0_3_eq (c : Dev nD) (t : Fin cfg0.N) :
    (dat0 V c).flushed 3 t = ((cfg0.win 3).blk t).view.read (Elt Ideal) (G0_3 V c) := by
  obtain ⟨-, -, -, -, -, -, e0, e1, -⟩ := idx_facts0 t
  show (cfg0.win 3).cut (grid0.coords t) ((dat0 V c).after 3 t) = _
  rw [after0_3]
  unfold out0_3
  rw [View.canon_unit_zero hz0]
  simp only [View.ld_unit_zero (S := S2048x256) hz0, View.ld_unit_zero (S := S256x64) hz0]
  funext j
  obtain ⟨p, q, rfl⟩ : ∃ (p : Fin 2048) (q : Fin 64), j = ix2 p q := ⟨j 0, j 1, eq_ix2 (n0 := 2048) (n1 := 64) j⟩
  show k0_pay2 (iblk0 V c 0 t) (iblk0 V c 1 t) (ix2 p q) = G0_3 V c (((cfg0.win 3).blk t).view.emb (ix2 p q))
  refine (PayValue.k0_pay2_apply _ _ p q).trans ?_
  have hrow : ((((cfg0.win 3).blk t).view.emb (ix2 p q)) 0).val = 2048 * t.val + p.val := by
    show win0_3.index t (0 : Fin 2) * 2048 + 1 * p.val = _; omega
  have hcol : q = (((cfg0.win 3).blk t).view.emb (ix2 p q)) 1 :=
    Fin.ext (by show q.val = win0_3.index t (1 : Fin 2) * 64 + 1 * q.val; omega)
  exact (tile_h (V c main_arg0) (V c main_arg2) (iblk0 V c 0 t) (iblk0 V c 1 t) p _
    (fun k => iblk0_0_apply V c t p k _ hrow) (fun k q => iblk0_1_apply V c t k q) q).trans
    (congrArg (Spec.h (V c main_arg0) (V c main_arg2) _) hcol)

/-- What point t writes back of the source scores is the block at t of their array. -/
theorem flushed0_4_eq (c : Dev nD) (t : Fin cfg0.N) :
    (dat0 V c).flushed 4 t = ((cfg0.win 4).blk t).view.read (Elt Ideal) (G0_4 V c) := by
  obtain ⟨-, -, -, -, -, -, -, -, e0, e1, -⟩ := idx_facts0 t
  show (cfg0.win 4).cut (grid0.coords t) ((dat0 V c).after 4 t) = _
  rw [after0_4]
  unfold out0_4
  rw [View.canon_unit_zero hz0]
  simp only [View.ld_unit_zero (S := S2048x256) hz0, View.ld_unit_zero (S := S256x64) hz0,
    View.ld_unit_zero (S := S128x1) hz0]
  funext j
  obtain ⟨p, z, rfl⟩ : ∃ (p : Fin 2048) (z : Fin 1), j = ix2 p z := ⟨j 0, j 1, eq_ix2 (n0 := 2048) (n1 := 1) j⟩
  obtain rfl : z = 0 := Subsingleton.elim _ _
  show k0_pay3 (iblk0 V c 0 t) (iblk0 V c 1 t) (iblk0 V c 2 t) (ix2 p (0 : Fin 1))
    = G0_4 V c (((cfg0.win 4).blk t).view.emb (ix2 p (0 : Fin 1)))
  refine (PayValue.k0_pay3_apply _ _ _ p).trans ?_
  have hrow : ((((cfg0.win 4).blk t).view.emb (ix2 p (0 : Fin 1))) 0).val = 2048 * t.val + p.val := by
    show win0_4.index t (0 : Fin 2) * 2048 + 1 * p.val = _; omega
  exact tile_w1 (V c main_arg0) (V c main_arg2) (V c main_arg3) (iblk0 V c 0 t) (iblk0 V c 1 t) (iblk0 V c 2 t) p _
    (fun k => iblk0_0_apply V c t p k _ hrow) (fun k q => iblk0_1_apply V c t k q) (fun k => iblk0_2_apply V c t k)

/-- What point t writes back of the destination scores is the block at t of their array. -/
theorem flushed0_5_eq (c : Dev nD) (t : Fin cfg0.N) :
    (dat0 V c).flushed 5 t = ((cfg0.win 5).blk t).view.read (Elt Ideal) (G0_5 V c) := by
  obtain ⟨-, -, -, -, -, -, -, -, -, -, e0, e1⟩ := idx_facts0 t
  show (cfg0.win 5).cut (grid0.coords t) ((dat0 V c).after 5 t) = _
  rw [after0_5]
  unfold out0_5
  rw [View.canon_unit_zero hz0]
  simp only [View.ld_unit_zero (S := S2048x256) hz0, View.ld_unit_zero (S := S256x64) hz0,
    View.ld_unit_zero (S := S128x1) hz0]
  funext j
  obtain ⟨p, z, rfl⟩ : ∃ (p : Fin 2048) (z : Fin 1), j = ix2 p z := ⟨j 0, j 1, eq_ix2 (n0 := 2048) (n1 := 1) j⟩
  obtain rfl : z = 0 := Subsingleton.elim _ _
  show k0_pay4 (iblk0 V c 0 t) (iblk0 V c 1 t) (iblk0 V c 2 t) (ix2 p (0 : Fin 1))
    = G0_5 V c (((cfg0.win 5).blk t).view.emb (ix2 p (0 : Fin 1)))
  refine (PayValue.k0_pay4_apply _ _ _ p).trans ?_
  have hrow : ((((cfg0.win 5).blk t).view.emb (ix2 p (0 : Fin 1))) 0).val = 2048 * t.val + p.val := by
    show win0_5.index t (0 : Fin 2) * 2048 + 1 * p.val = _; omega
  exact tile_w2 (V c main_arg0) (V c main_arg2) (V c main_arg3) (iblk0 V c 0 t) (iblk0 V c 1 t) (iblk0 V c 2 t) p _
    (fun k => iblk0_0_apply V c t p k _ hrow) (fun k q => iblk0_1_apply V c t k q) (fun k => iblk0_2_apply V c t k)

/-! ## The six blocks tile the rows -/

/-- The point whose block holds row r: r / 2048. -/
theorem point_of_row (r : ℕ) (hr : r < 12288) : ∃ t : Fin cfg0.N, t.val = r / 2048 :=
  ⟨⟨r / 2048, by show r / 2048 < grid0.N; rw [N_0]; omega⟩, rfl⟩

/-- Every index of the features array is in the block of the point of its row. -/
theorem cover0_3 (i : S12288x64.Idx) :
    ∃ t : Fin cfg0.N, (cfg0.win 3).flush t = true ∧ i ∈ ((cfg0.win 3).blk t).view.set := by
  have hi0 : (i 0).val < 12288 := (i 0).isLt
  have hi1 : (i 1).val < 64 := (i 1).isLt
  obtain ⟨t, ht⟩ := point_of_row (i 0).val hi0
  obtain ⟨-, -, -, -, -, -, e0, e1, -⟩ := idx_facts0 t
  refine ⟨t, flush0_3 t, ?_⟩
  show i ∈ ((View.whole main_v0_0).slice (win0_3.rect t)).set
  rw [View.set_slice_whole, Rect.mem_set_unit]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 64 ≤ (i 1).val ∧ (i 1).val < win0_3.index t (1 : Fin 2) * 64 + 64
    omega

/-- Every index of the source scores' array is in the block of the point of its row. -/
theorem cover0_4 (i : S12288x1.Idx) :
    ∃ t : Fin cfg0.N, (cfg0.win 4).flush t = true ∧ i ∈ ((cfg0.win 4).blk t).view.set := by
  have hi0 : (i 0).val < 12288 := (i 0).isLt
  have hi1 : (i 1).val < 1 := (i 1).isLt
  obtain ⟨t, ht⟩ := point_of_row (i 0).val hi0
  obtain ⟨-, -, -, -, -, -, -, -, e0, e1, -⟩ := idx_facts0 t
  refine ⟨t, flush0_4 t, ?_⟩
  show i ∈ ((View.whole main_v0_1).slice (win0_4.rect t)).set
  rw [View.set_slice_whole, Rect.mem_set_unit]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 1 ≤ (i 1).val ∧ (i 1).val < win0_4.index t (1 : Fin 2) * 1 + 1
    omega

/-- Every index of the destination scores' array is in the block of the point of its row. -/
theorem cover0_5 (i : S12288x1.Idx) :
    ∃ t : Fin cfg0.N, (cfg0.win 5).flush t = true ∧ i ∈ ((cfg0.win 5).blk t).view.set := by
  have hi0 : (i 0).val < 12288 := (i 0).isLt
  have hi1 : (i 1).val < 1 := (i 1).isLt
  obtain ⟨t, ht⟩ := point_of_row (i 0).val hi0
  obtain ⟨-, -, -, -, -, -, -, -, -, -, e0, e1⟩ := idx_facts0 t
  refine ⟨t, flush0_5 t, ?_⟩
  show i ∈ ((View.whole main_v0_2).slice (win0_5.rect t)).set
  rw [View.set_slice_whole, Rect.mem_set_unit]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 1 ≤ (i 1).val ∧ (i 1).val < win0_5.index t (1 : Fin 2) * 1 + 1
    omega

/-! ## The arrays after the run -/

/-- The features array after the run is the specification's features. -/
theorem final0_3 (c : Dev nD) : (dat0 V c).arrAt 3 cfg0.N = G0_3 V c :=
  (dat0 V c).arrAt_eq_of_cover 3 (G0_3 V c) (fun t _ => flushed0_3_eq V c t) cover0_3
theorem final0_4 (c : Dev nD) : (dat0 V c).arrAt 4 cfg0.N = G0_4 V c :=
  (dat0 V c).arrAt_eq_of_cover 4 (G0_4 V c) (fun t _ => flushed0_4_eq V c t) cover0_4
theorem final0_5 (c : Dev nD) : (dat0 V c).arrAt 5 cfg0.N = G0_5 V c :=
  (dat0 V c).arrAt_eq_of_cover 5 (G0_5 V c) (fun t _ => flushed0_5_eq V c t) cover0_5

/-- Entry (i, d) of the features array after the run. -/
theorem arr0_3 (c : Dev nD) (i : Fin 12288) (d : Fin 64) :
    (dat0 V c).arrAt 3 cfg0.N (ix2 i d) = Spec.h (V c main_arg0) (V c main_arg2) i d := by
  rw [final0_3]; rfl

/-- Entry i of the source scores' array after the run. -/
theorem arr0_4 (c : Dev nD) (i : Fin 12288) :
    (dat0 V c).arrAt 4 cfg0.N (ix2 i (0 : Fin 1)) = Spec.w1 (V c main_arg0) (V c main_arg2) (V c main_arg3) i := by
  rw [final0_4]; rfl

/-- Entry i of the destination scores' array after the run. -/
theorem arr0_5 (c : Dev nD) (i : Fin 12288) :
    (dat0 V c).arrAt 5 cfg0.N (ix2 i (0 : Fin 1)) = Spec.w2 (V c main_arg0) (V c main_arg2) (V c main_arg3) i := by
  rw [final0_5]; rfl

end Cert.KernelIdeal.Hand

end
-- ==== Proof.LibHostLine.lean ====
/-
  A fact about the operations of a called function in a straight line of host operations.

  Such an operation carries its operands from their buffers' types to the values' types and its result back, along the
  equation between the two types. Carrying a value to a buffer's own type and back is the identity, whatever the buffer:
  with it the chain of intermediate values of a called function reads as the plain composition of its operations.
-/
import Idealize.ShloMosaic.Lib.StableHlo.Run

noncomputable section

namespace Cert.LibHostLine

open Idealize.ShloMosaic Idealize.ShloMosaic.StableHlo

variable {sig : RefSig} {Val : EltTy → Type}

/-- Contents carried to a buffer's own type and back are themselves. -/
theorem ofBuf_toBuf {T : BufTy} (x : TRef sig T) (v : T.Contents Val) : x.ofBuf (x.toBuf v) = v := by
  obtain ⟨r, rfl, _, _⟩ := x; rfl

end Cert.LibHostLine

end
-- ==== Proof.HostValue.lean ====
/-
  The host's lines between the two kernels, read at one entry, on the extended reals.

  The column of destination scores [12288, 1] is turned into the row [1, 12288]; its maximum over all entries, taken
  from minus infinity, is added to every source score; the sums go through the rectifier with slope 0.01 (a comparison
  with zero, a product with the slope, a choice between the two). The maximum of 12288 real numbers from minus infinity
  is a real number: minus infinity is absorbed by the first entry and a maximum of two reals is one of them.
-/
import proofs.«100860_j31645319037629_2_alg».proof.Proof.Gen.KernelIdeal.Launch
import proofs.«100860_j31645319037629_2_alg».proof.Proof.Spec
import proofs.«100860_j31645319037629_2_alg».proof.Proof.LibHostLine
import Idealize.ShloMosaic.Lib.ValueIdx
import Idealize.ShloMosaic.Lib.IdealHost
import Idealize.ShloMosaic.Lib.Pipeline.Value
import Idealize.ShloMosaic.PureOps.Reduce

noncomputable section

open scoped BigOperators

namespace Cert.KernelIdeal.PayValue

open Idealize.ShloMosaic Idealize.ShloMosaic.ValueIdx Idealize.ShloMosaic.TcCoe
open Cert.KernelIdeal Cert.KernelIdeal.Gen

/-! ## The maximum over all entries -/

/-- The maximum of all 12288 entries of a column, as the host takes it: a fold from the word of minus infinity. -/
def maxAll (w : S12288x1.Idx → EReal) : EReal :=
  Host.reduce (FloatOps.maximumf (F := Ideal) (φ := .f32)) w (constant (F := Ideal) S_ .f32 0xFF800000#32)
    reducesTo_S12288x1_S_d0_1 h_S_ ix0

/-- A maximum of two real numbers is a real number. -/
theorem real_max {a b : EReal} (ha : ∃ r : ℝ, a = r) (hb : ∃ r : ℝ, b = r) : ∃ r : ℝ, max a b = r := by
  rcases le_total a b with h | h
  · rw [max_eq_right h]; exact hb
  · rw [max_eq_left h]; exact ha

/-- A running maximum that starts at a real number and meets only real numbers ends at a real number. -/
theorem foldl_max_real {ι : Type} (x : ι → EReal) :
    ∀ (l : List ι) (init : EReal), (∃ r : ℝ, init = r) → (∀ i ∈ l, ∃ r : ℝ, x i = r) →
      ∃ r : ℝ, l.foldl (fun a i => max a (x i)) init = r
  | [], _, h, _ => h
  | a :: l, init, h, hl =>
    foldl_max_real x l (max init (x a)) (real_max h (hl a List.mem_cons_self))
      fun i hi => hl i (List.mem_cons_of_mem _ hi)

/-- The word of minus infinity is absorbed by a maximum. -/
theorem max_negInf (y : EReal) : max (Ideal.ofBits .f32 0xFF800000#32) y = y := by
  simp [Ideal.ofBits, Ideal.ieee]

/-- The maximum of all entries of a column of real numbers is a real number. -/
theorem maxAll_real (w : S12288x1.Idx → EReal) (hw : ∀ k, ∃ r : ℝ, w k = r) : ∃ r : ℝ, maxAll w = r := by
  unfold maxAll
  rw [Host.reduce_eq_foldl]
  generalize hl : (((List.finRange S12288x1.numel).map S12288x1.rowMajor.symm).filter
    fun i => reducesTo_S12288x1_S_d0_1.drop i = ix0) = l
  cases l with
  | nil =>
    exfalso
    have hm : S12288x1.rowMajor.symm ⟨0, by decide⟩ ∈ (((List.finRange S12288x1.numel).map S12288x1.rowMajor.symm).filter
        fun i => reducesTo_S12288x1_S_d0_1.drop i = ix0) :=
      List.mem_filter.2 ⟨List.mem_map.2 ⟨_, List.mem_finRange _, rfl⟩, decide_eq_true (eq_ix0 _)⟩
    rw [hl] at hm
    exact List.not_mem_nil hm
  | cons a l =>
    show ∃ r : ℝ, l.foldl (fun r i => FloatOps.maximumf r (w i))
      (max (Ideal.ofBits .f32 0xFF800000#32) (w a)) = r
    rw [max_negInf]
    exact foldl_max_real w l (w a) (hw a) fun i _ => hw i

/-! ## The two lines at an entry -/

variable (Vin : Valuation τ sig (Elt Ideal))

/-- The row of destination scores: entry (0, j) is entry (j, 0) of the column. -/
theorem v1_apply (j : Fin 12288) :
    StableHlo.after hostOps1_1 (StableHlo.after hostOps1 Vin) main_v1 (ix2 (0 : Fin 1) j)
      = Vin main_v0_2 (ix2 j (0 : Fin 1)) := by
  have e : StableHlo.after hostOps1_1 (StableHlo.after hostOps1 Vin) main_v1
      = transpose S1x12288 [1, 0] (Vin main_v0_2) transposes_S12288x1_S1x12288_1_0 := by
    simp only [hostOps1, hostOps1_1]
    after_results
  rw [e]
  refine transpose_apply _ _ _ (ix2 (0 : Fin 1) j) (ix2 j (0 : Fin 1)) fun b => ?_
  match b with
  | ⟨0, _⟩ => rfl
  | ⟨1, _⟩ => rfl

/-- The rectified sum: entry (i, 0) is the rectifier with slope 0.01 of source score i plus the maximum of all
    destination scores. -/
theorem v5_apply (i : Fin 12288) :
    StableHlo.after hostOps1_1 (StableHlo.after hostOps1 Vin) main_v5 (ix2 i (0 : Fin 1))
      = Spec.leaky Spec.slope1 (HAdd.hAdd (α := EReal) (β := EReal) (γ := EReal) (Vin main_v0_1 (ix2 i (0 : Fin 1)))
          (maxAll (Vin main_v0_2))) := by
  have e : StableHlo.after hostOps1_1 (StableHlo.after hostOps1 Vin) main_v5
      = (let A : FVec Ideal S12288x1 .f32 := addf (Vin main_v0_1) (broadcastInDim S12288x1 ![] bcast_S_S12288x1
            (Host.reduce FloatOps.maximumf (Vin main_v0_2) (constant S_ .f32 0xFF800000#32) reducesTo_S12288x1_S_d0_1 h_S_))
         select (cmpf .oge A (broadcastInDim S12288x1 ![] bcast_S_S12288x1 (constant S_ .f32 0x00000000#32))) A
           (mulf (broadcastInDim S12288x1 ![] bcast_S_S12288x1 (constant S_ .f32 0x3C23D70A#32)) A)) := by
    simp only [hostOps1, hostOps1_1]
    after_results
    rfl
  rw [e]
  simp only [select_apply, cmpf_apply, mulf_apply, addf_apply, broadcastInDim_scalar_apply, constant_apply]
  unfold Spec.leaky Spec.slope1 maxAll
  rw [mul_comm]
  rfl

end Cert.KernelIdeal.PayValue

end
-- ==== Proof.LibOnlineSoftmax.lean ====
/-
  Online softmax against the plain softmax, over the reals.

  A softmax-weighted sum  Σ_x (exp (s x − M) / Σ_y exp (s y − M)) · c x  does not depend on the number M that is
  subtracted in the exponent: exp (s x − m) = exp (M − m) · exp (s x − M), and the common factor exp (M − m) cancels
  between numerator and denominator. A streaming ("online", flash-attention) evaluation keeps, over the keys seen so
  far, a number m, the denominator  l = Σ exp (s − m)  and the numerator  acc = Σ exp (s − m) · c ; when a new block of
  keys arrives it moves to another number m' by multiplying l and acc by exp (m − m') and adding the new block's terms
  taken at m'. By exp (m − m') · exp (s − m) = exp (s − m') the two invariants are kept, for ANY choice of m' (the
  running maximum is one; nothing below uses that it is the maximum). At the end  acc / l  is the plain softmax-weighted
  sum taken at any M, in particular at the global maximum the plain softmax subtracts.

  Also here: the sum of a finite family of reals, read in the extended reals, is the sum of their coercions.
-/
import Idealize.ShloMosaic.PureOps.Ideal

namespace OnlineSoftmax

open Finset

/-- Moving the subtracted number from `M` to `M'` in every term of a weighted exponential sum is multiplication by
    `exp (M − M')`. -/
theorem rescale_sum {α : Type} (S : Finset α) (s c : α → ℝ) (M M' : ℝ) :
    Real.exp (M - M') * ∑ a ∈ S, Real.exp (s a - M) * c a = ∑ a ∈ S, Real.exp (s a - M') * c a := by
  rw [Finset.mul_sum]
  refine Finset.sum_congr rfl fun a _ => ?_
  rw [← mul_assoc, ← Real.exp_add]
  congr 2
  ring

/-- The same for the unweighted sum (the denominator). -/
theorem rescale_sum_one {α : Type} (S : Finset α) (s : α → ℝ) (M M' : ℝ) :
    Real.exp (M - M') * ∑ a ∈ S, Real.exp (s a - M) = ∑ a ∈ S, Real.exp (s a - M') := by
  have h := rescale_sum S s (fun _ => 1) M M'
  simpa only [mul_one] using h

/-- One streaming step on the numerator: the old keys' sum taken at `M`, rescaled, plus the new keys' sum taken at
    `M'`, is the sum over old and new keys taken at `M'`. -/
theorem step_num {α β : Type} (A : Finset α) (B : Finset β) (s c : α → ℝ) (s' c' : β → ℝ) (M M' : ℝ) :
    Real.exp (M - M') * (∑ a ∈ A, Real.exp (s a - M) * c a) + ∑ b ∈ B, Real.exp (s' b - M') * c' b
      = (∑ a ∈ A, Real.exp (s a - M') * c a) + ∑ b ∈ B, Real.exp (s' b - M') * c' b := by
  rw [rescale_sum]

/-- One streaming step on the denominator. -/
theorem step_den {α β : Type} (A : Finset α) (B : Finset β) (s : α → ℝ) (s' : β → ℝ) (M M' : ℝ) :
    Real.exp (M - M') * (∑ a ∈ A, Real.exp (s a - M)) + ∑ b ∈ B, Real.exp (s' b - M')
      = (∑ a ∈ A, Real.exp (s a - M')) + ∑ b ∈ B, Real.exp (s' b - M') := by
  rw [rescale_sum_one]

/-- A sum of exponentials over a nonempty finite set is positive. -/
theorem den_pos {α : Type} (S : Finset α) (hS : S.Nonempty) (s : α → ℝ) (M : ℝ) : 0 < ∑ a ∈ S, Real.exp (s a - M) :=
  Finset.sum_pos (fun a _ => Real.exp_pos _) hS

/-- The streaming quotient, taken at any `m`, is the plain softmax-weighted sum, taken at any `M`: numerator over
    denominator on the left, the sum of (weight / total weight) · value on the right. -/
theorem quotient_eq_softmax_sum {α : Type} (S : Finset α) (hS : S.Nonempty) (s c : α → ℝ) (m M : ℝ) :
    (∑ a ∈ S, Real.exp (s a - m) * c a) / (∑ a ∈ S, Real.exp (s a - m))
      = ∑ a ∈ S, Real.exp (s a - M) / (∑ b ∈ S, Real.exp (s b - M)) * c a := by
  have hZ : (∑ b ∈ S, Real.exp (s b - M)) ≠ 0 := (den_pos S hS s M).ne'
  have hk : Real.exp (M - m) ≠ 0 := (Real.exp_pos _).ne'
  rw [← rescale_sum S s c M m, ← rescale_sum_one S s M m, mul_div_mul_left _ _ hk, Finset.sum_div]
  refine Finset.sum_congr rfl fun a _ => ?_
  rw [div_mul_eq_mul_div]

/-- A finite sum of reals, read in the extended reals. -/
theorem coe_sum {α : Type} (S : Finset α) (f : α → ℝ) : ((∑ a ∈ S, f a : ℝ) : EReal) = ∑ a ∈ S, (f a : EReal) := by
  classical
  induction S using Finset.induction_on with
  | empty => simp
  | insert a S ha ih => rw [Finset.sum_insert ha, Finset.sum_insert ha, EReal.coe_add, ih]

end OnlineSoftmax
-- ==== Proof.Bridge.lean ====
/-
  The algebra that joins the two spellings of the graph-attention layer.

  A number of the extended reals "is real" when it is the coercion of a real number. Sums and products of reals are
  real, the leaky rectifier of a real with a real slope is real, the three finite float words of the layer denote
  reals, so every masked score is real; a maximum over a nonempty finite family of reals, started from minus
  infinity, is real. On reals the exponential, the difference, the product, the finite sum and the quotient by a sum
  of exponentials (which is positive) are all the coercions of the real operations, and there the quotient of the
  weighted sum of exponentials by their plain sum does not depend on the number subtracted in the exponent: the
  quotient form at any real shift is the weights form at the row maximum.
-/
import proofs.«100860_j31645319037629_2_alg».proof.Proof.Spec
import proofs.«100860_j31645319037629_2_alg».proof.Proof.LibOnlineSoftmax

noncomputable section

open scoped BigOperators

namespace Cert.Bridge

open Idealize.ShloMosaic Idealize.ShloMosaic.ValueIdx

/-! ## Closure of the reals inside the extended reals -/

theorem real_mul {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

theorem real_add {a b : EReal} (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add ra rb).symm⟩

theorem real_sub {a b : EReal} (ha : ∃ r : ℝ, a = (r : EReal)) (hb : ∃ r : ℝ, b = (r : EReal)) :
    ∃ r : ℝ, a - b = (r : EReal) := by
  obtain ⟨ra, rfl⟩ := ha
  obtain ⟨rb, rfl⟩ := hb
  exact ⟨ra - rb, (EReal.coe_sub ra rb).symm⟩

theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- A finite sum of reals is real. -/
theorem real_sum {ι : Type} (S : Finset ι) (f : ι → EReal) (hf : ∀ k, ∃ r : ℝ, f k = (r : EReal)) :
    ∃ r : ℝ, ∑ k ∈ S, f k = (r : EReal) := by
  choose g hg using hf
  refine ⟨∑ k ∈ S, g k, ?_⟩
  rw [OnlineSoftmax.coe_sum]
  exact Finset.sum_congr rfl fun k _ => hg k

/-- A finite sum of products of reals is real. -/
theorem real_sum_mul {ι : Type} (S : Finset ι) (f g : ι → EReal) (hf : ∀ k, ∃ r : ℝ, f k = (r : EReal))
    (hg : ∀ k, ∃ r : ℝ, g k = (r : EReal)) : ∃ r : ℝ, ∑ k ∈ S, f k * g k = (r : EReal) :=
  real_sum S _ fun k => real_mul (hf k) (hg k)

/-! ## The float words -/

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  simp only []
  rw [if_neg h]
  split_ifs <;> exact ⟨_, rfl⟩

theorem slope1_real : ∃ r : ℝ, Spec.slope1 = (r : EReal) :=
  show ∃ r : ℝ, Ideal.ieee 8 23 (0x3C23D70A#32 : BitVec 32) = (r : EReal) from ieee_real 8 23 _ (by decide)
theorem slope2_real : ∃ r : ℝ, Spec.slope2 = (r : EReal) :=
  show ∃ r : ℝ, Ideal.ieee 8 23 (0x3E4CCCCD#32 : BitVec 32) = (r : EReal) from ieee_real 8 23 _ (by decide)
theorem negBig_real : ∃ r : ℝ, Spec.negBig = (r : EReal) :=
  show ∃ r : ℝ, Ideal.ieee 8 23 (0xD9FFCB9E#32 : BitVec 32) = (r : EReal) from ieee_real 8 23 _ (by decide)

/-- The word of minus infinity is the bottom element. -/
theorem negInf_eq_bot : Spec.negInf = ⊥ := by
  simp [Spec.negInf, Ideal.ofBits, Ideal.ieee]

/-! ## The rectifier, the scores, the maximum -/

/-- The leaky rectifier of a real, with a real slope, is real. -/
theorem leaky_real {s z : EReal} (hs : ∃ r : ℝ, s = (r : EReal)) (hz : ∃ r : ℝ, z = (r : EReal)) :
    ∃ r : ℝ, Spec.leaky s z = (r : EReal) := by
  unfold Spec.leaky Scalar.select
  split_ifs
  · exact hz
  · exact real_mul hz hs

section
variable (x : Spec.SX.Idx → EReal) (adj : Spec.SA.Idx → BitVec 32) (W : Spec.SW.Idx → EReal) (a : Spec.SV.Idx → EReal)
variable (hx : ∀ k, ∃ r : ℝ, x k = (r : EReal)) (hW : ∀ k, ∃ r : ℝ, W k = (r : EReal))
  (ha : ∀ k, ∃ r : ℝ, a k = (r : EReal))
include hx hW

theorem h_real (j : Fin 12288) (d : Fin 64) : ∃ r : ℝ, Spec.h x W j d = (r : EReal) :=
  real_sum_mul _ _ _ (fun _ => hx _) (fun _ => hW _)

include ha

theorem w1_real (i : Fin 12288) : ∃ r : ℝ, Spec.w1 x W a i = (r : EReal) :=
  real_sum_mul _ _ _ (fun d => h_real x W hx hW i d) (fun _ => ha _)

theorem w2_real (j : Fin 12288) : ∃ r : ℝ, Spec.w2 x W a j = (r : EReal) :=
  real_sum_mul _ _ _ (fun d => h_real x W hx hW j d) (fun _ => ha _)

/-- Every masked score is real: the rectified sum of two reals, or the finite fill value. -/
theorem masked_real (i j : Fin 12288) : ∃ r : ℝ, Spec.masked x adj W a i j = (r : EReal) := by
  unfold Spec.masked Scalar.select
  split_ifs
  · exact leaky_real slope1_real (real_add (w1_real x W a hx hW ha i) (w2_real x W a hx hW ha j))
  · exact negBig_real

end

/-- The maximum, started from minus infinity, of a nonempty finite family of reals is real. -/
theorem fold_max_real {ι : Type} (S : Finset ι) (hS : S.Nonempty) (f : ι → EReal)
    (hf : ∀ k, ∃ r : ℝ, f k = (r : EReal)) : ∃ r : ℝ, S.fold max Spec.negInf f = (r : EReal) := by
  classical
  induction hS using Finset.Nonempty.cons_induction with
  | singleton a =>
    rw [Finset.fold_singleton, negInf_eq_bot, max_eq_left bot_le]
    exact hf a
  | cons a s has _ ih =>
    rw [Finset.fold_cons]
    exact real_max (hf a) ih

section
variable (x : Spec.SX.Idx → EReal) (adj : Spec.SA.Idx → BitVec 32) (W : Spec.SW.Idx → EReal) (a : Spec.SV.Idx → EReal)
variable (hx : ∀ k, ∃ r : ℝ, x k = (r : EReal)) (hW : ∀ k, ∃ r : ℝ, W k = (r : EReal))
  (ha : ∀ k, ∃ r : ℝ, a k = (r : EReal))
include hx hW ha

/-- The row maximum of the masked scores is real. -/
theorem rowMax_real (i : Fin 12288) : ∃ r : ℝ, Spec.rowMax x adj W a i = (r : EReal) := by
  unfold Spec.rowMax
  rw [max_eq_right (by rw [negInf_eq_bot]; exact bot_le)]
  exact fold_max_real _ ⟨i, Finset.mem_univ i⟩ _ (fun j => masked_real x adj W a hx hW ha i j)

end

/-! ## The law on reals -/

theorem exp_sub_coe (s m : ℝ) : Ideal.exp ((s : EReal) - (m : EReal)) = ((Real.exp (s - m) : ℝ) : EReal) := by
  rw [← EReal.coe_sub, Ideal.exp_coe]

theorem exp_sub_mul_coe (s m c : ℝ) :
    Ideal.exp ((s : EReal) - (m : EReal)) * (c : EReal) = ((Real.exp (s - m) * c : ℝ) : EReal) := by
  rw [exp_sub_coe, ← EReal.coe_mul]

/-- On reals: the quotient of the weighted sum of exponentials by their plain sum, taken at one number, is the sum
    of normalized weights times values, taken at another. -/
theorem quotient_eq_weights {n : Nat} [NeZero n] (s c : Fin n → ℝ) (m M : ℝ) :
    Ideal.div (∑ j : Fin n, Ideal.exp ((s j : EReal) - (m : EReal)) * (c j : EReal))
        (∑ j : Fin n, Ideal.exp ((s j : EReal) - (m : EReal)))
      = ∑ j : Fin n, Ideal.div (Ideal.exp ((s j : EReal) - (M : EReal)))
          (∑ j' : Fin n, Ideal.exp ((s j' : EReal) - (M : EReal))) * (c j : EReal) := by
  have hne : (Finset.univ : Finset (Fin n)).Nonempty := Finset.univ_nonempty
  have hB : (∑ j : Fin n, Real.exp (s j - m)) ≠ 0 := (OnlineSoftmax.den_pos _ hne s m).ne'
  have hZ : (∑ j : Fin n, Real.exp (s j - M)) ≠ 0 := (OnlineSoftmax.den_pos _ hne s M).ne'
  simp only [exp_sub_mul_coe, exp_sub_coe, ← OnlineSoftmax.coe_sum]
  rw [Ideal.div_coe hB]
  simp only [Ideal.div_coe hZ, ← EReal.coe_mul, ← OnlineSoftmax.coe_sum]
  congr 1
  rw [mul_one_div, OnlineSoftmax.quotient_eq_softmax_sum _ hne s c m M]
  refine Finset.sum_congr rfl fun j _ => ?_
  rw [mul_one_div]

/-! ## The law -/

/-- The quotient form at any real shift is the weights form at the row maximum, when every input is real. -/
theorem outQ_eq_outW (x : Spec.SX.Idx → EReal) (adj : Spec.SA.Idx → BitVec 32) (W : Spec.SW.Idx → EReal)
    (a : Spec.SV.Idx → EReal) (hx : ∀ k, ∃ r : ℝ, x k = (r : EReal)) (hW : ∀ k, ∃ r : ℝ, W k = (r : EReal))
    (ha : ∀ k, ∃ r : ℝ, a k = (r : EReal)) (shift : Fin 12288 → EReal)
    (hs : ∀ i, ∃ r : ℝ, shift i = (r : EReal)) (i : Fin 12288) (d : Fin 64) :
    Spec.outQ x adj W a shift i d = Spec.outW x adj W a i d := by
  unfold Spec.outQ Spec.outW
  refine congrArg (Spec.leaky Spec.slope2) ?_
  choose s hs' using fun j => masked_real x adj W a hx hW ha i j
  choose c hc using fun j => h_real x W hx hW j d
  obtain ⟨m, hm⟩ := hs i
  obtain ⟨M, hM⟩ := rowMax_real x adj W a hx hW ha i
  simp only [hs', hc, hm, hM]
  exact quotient_eq_weights s c m M

end Cert.Bridge

end
-- ==== Proof.KernelValue.lean ====
/-
  The attention kernel's result array as the quotient form of the specification, at the four arguments.

  The attention kernel finds, besides the adjacency words, four arrays the program computed before it: the features
  and the two score columns that the projection kernel wrote (the specification's h, w1, w2 of the arguments), the
  destination scores turned into a row, and the row shift: the rectifier with slope 0.01 of the source score plus the
  maximum of all destination scores. Every one of them is a real number when the arguments are, so the shift is real.
  With these five readings the kernel's result, the rectified quotient of the two sums over all 12288 columns, is the
  specification's quotient form at that shift, term by term under the sums.
-/
import proofs.«100860_j31645319037629_2_alg».proof.Proof.KernelRun
import proofs.«100860_j31645319037629_2_alg».proof.Proof.Region1Value
import proofs.«100860_j31645319037629_2_alg».proof.Proof.Region0Value
import proofs.«100860_j31645319037629_2_alg».proof.Proof.HostValue
import proofs.«100860_j31645319037629_2_alg».proof.Proof.Bridge

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The five arrays the attention kernel finds, in terms of the arguments -/

/-- The adjacency words are the argument's: no kernel and no host line writes them. -/
theorem adj_eq (c : Dev nD) :
    adjA (Vc m ρ) c = (m ((c.tc : Thread nD τ).loc main_arg1) : S12288x12288.Idx → BitVec 32) := by
  show (W3 m ρ c (Proc.devRef .tc main_arg1) : S12288x12288.Idx → BitVec 32) = _
  rw [W3_of m ρ c main_arg1 (by decide) (by decide), W1_of_ne m ρ c main_arg1 (by decide)]

/-- The column of source scores is the projection kernel's, the specification's w1 of the arguments. -/
theorem w1_eq (c : Dev nD) (i : Fin 12288) :
    w1A (Vc m ρ) c (ix2 i (0 : Fin 1))
      = Spec.w1 (m ((c.tc : Thread nD τ).loc main_arg0)) (m ((c.tc : Thread nD τ).loc main_arg2))
          (m ((c.tc : Thread nD τ).loc main_arg3)) i := by
  have h : (W3 m ρ c (Proc.devRef .tc main_v0_1) : S12288x1.Idx → EReal) = (dat0 (Va m ρ) c).arrAt 4 cfg0.N :=
    (W3_of m ρ c main_v0_1 (by decide) (by decide)).trans (W1_arr m ρ c 4)
  show (W3 m ρ c (Proc.devRef .tc main_v0_1) : S12288x1.Idx → EReal) (ix2 i (0 : Fin 1)) = _
  rw [h]
  exact arr0_4 (Va m ρ) c i

/-- The column of destination scores after the projection kernel is the specification's w2 of the arguments. -/
theorem w2col_eq (c : Dev nD) (j : Fin 12288) :
    (W1 m ρ c (Proc.devRef .tc main_v0_2) : S12288x1.Idx → EReal) (ix2 j (0 : Fin 1))
      = Spec.w2 (m ((c.tc : Thread nD τ).loc main_arg0)) (m ((c.tc : Thread nD τ).loc main_arg2))
          (m ((c.tc : Thread nD τ).loc main_arg3)) j := by
  have h : (W1 m ρ c (Proc.devRef .tc main_v0_2) : S12288x1.Idx → EReal) = (dat0 (Va m ρ) c).arrAt 5 cfg0.N :=
    W1_arr m ρ c 5
  rw [h]
  exact arr0_5 (Va m ρ) c j

/-- The row of destination scores the host makes of it has the same entries. -/
theorem w2_eq (c : Dev nD) (j : Fin 12288) :
    w2A (Vc m ρ) c (ix2 (0 : Fin 1) j)
      = Spec.w2 (m ((c.tc : Thread nD τ).loc main_arg0)) (m ((c.tc : Thread nD τ).loc main_arg2))
          (m ((c.tc : Thread nD τ).loc main_arg3)) j :=
  (PayValue.v1_apply (W1 m ρ c) j).trans (w2col_eq m ρ c j)

/-- The features are the projection kernel's, the specification's h of the arguments. -/
theorem h_eq (c : Dev nD) (j : Fin 12288) (d : Fin 64) :
    hA (Vc m ρ) c (ix2 j d)
      = Spec.h (m ((c.tc : Thread nD τ).loc main_arg0)) (m ((c.tc : Thread nD τ).loc main_arg2)) j d := by
  have h : (W3 m ρ c (Proc.devRef .tc main_v0_0) : S12288x64.Idx → EReal) = (dat0 (Va m ρ) c).arrAt 3 cfg0.N :=
    (W3_of m ρ c main_v0_0 (by decide) (by decide)).trans (W1_arr m ρ c 3)
  show (W3 m ρ c (Proc.devRef .tc main_v0_0) : S12288x64.Idx → EReal) (ix2 j d) = _
  rw [h]
  exact arr0_3 (Va m ρ) c j d

/-! ## The kernel's row shift -/

/-- The shift the kernel subtracts in row i: the host's rectified sum of the source score and the maximum of all
    destination scores. -/
def shiftK (c : Dev nD) (i : Fin 12288) : EReal :=
  (Vc m ρ c main_v5 : S12288x1.Idx → EReal) (ix2 i (0 : Fin 1))

/-- The shift is the kernel's fifth array. -/
theorem m_eq (c : Dev nD) (i : Fin 12288) : mA (Vc m ρ) c (ix2 i (0 : Fin 1)) = shiftK m ρ c i := rfl

/-- The shift is a real number when the arguments are. -/
theorem shiftK_real (c : Dev nD)
    (hx : ∀ k, ∃ r : ℝ, m ((c.tc : Thread nD τ).loc main_arg0) k = (r : EReal))
    (hW : ∀ k, ∃ r : ℝ, m ((c.tc : Thread nD τ).loc main_arg2) k = (r : EReal))
    (ha : ∀ k, ∃ r : ℝ, m ((c.tc : Thread nD τ).loc main_arg3) k = (r : EReal)) (i : Fin 12288) :
    ∃ r : ℝ, shiftK m ρ c i = (r : EReal) := by
  have hv : shiftK m ρ c i = Spec.leaky Spec.slope1 (HAdd.hAdd (α := EReal) (β := EReal) (γ := EReal)
      ((W1 m ρ c (Proc.devRef .tc main_v0_1) : S12288x1.Idx → EReal) (ix2 i (0 : Fin 1)))
      (PayValue.maxAll (W1 m ρ c (Proc.devRef .tc main_v0_2)))) :=
    PayValue.v5_apply (W1 m ρ c) i
  rw [hv]
  refine Bridge.leaky_real Bridge.slope1_real (Bridge.real_add ?_ (PayValue.maxAll_real _ fun k => ?_))
  · have h : (W1 m ρ c (Proc.devRef .tc main_v0_1) : S12288x1.Idx → EReal) = (dat0 (Va m ρ) c).arrAt 4 cfg0.N :=
      W1_arr m ρ c 4
    rw [h, arr0_4 (Va m ρ) c i]
    exact Bridge.w1_real _ _ _ hx hW ha i
  · obtain ⟨p, z, rfl⟩ : ∃ (p : Fin 12288) (z : Fin 1), k = ix2 p z := ⟨k 0, k 1, eq_ix2 (n0 := 12288) (n1 := 1) k⟩
    obtain rfl : z = 0 := Subsingleton.elim _ _
    rw [w2col_eq m ρ c p]
    exact Bridge.w2_real _ _ _ hx hW ha p

/-! ## The result -/

/-- One pair's exponential, as the kernel forms it, is the specification's at the kernel's shift. -/
theorem exG_eq (c : Dev nD) (i j : Fin 12288) :
    exG (adjA (Vc m ρ) c) (w1A (Vc m ρ) c) (w2A (Vc m ρ) c) (mA (Vc m ρ) c) i j
      = Ideal.exp (Spec.masked (m ((c.tc : Thread nD τ).loc main_arg0)) (m ((c.tc : Thread nD τ).loc main_arg1))
          (m ((c.tc : Thread nD τ).loc main_arg2)) (m ((c.tc : Thread nD τ).loc main_arg3)) i j - shiftK m ρ c i) := by
  unfold exG Spec.masked
  rw [adj_eq m ρ c, w1_eq m ρ c i, w2_eq m ρ c j, m_eq m ρ c i]

/-- The kernel's rectified quotient at (i, d) is the specification's quotient form at the kernel's shift. -/
theorem resArr_eq (c : Dev nD) (i : Fin 12288) (d : Fin 64) :
    resArr (Vc m ρ) c (ix2 i d)
      = Spec.outQ (m ((c.tc : Thread nD τ).loc main_arg0)) (m ((c.tc : Thread nD τ).loc main_arg1))
          (m ((c.tc : Thread nD τ).loc main_arg2)) (m ((c.tc : Thread nD τ).loc main_arg3)) (shiftK m ρ c) i d := by
  show resG (Vc m ρ) c i d = _
  unfold resG Spec.outQ
  simp only [exG_eq m ρ c i, h_eq m ρ c]

/-- THE KERNEL'S VALUE: entry (i, d) of the attention kernel's result array is the specification's quotient form of
    the four arguments at the kernel's shift. -/
theorem kernel_value (c : Dev nD) (i : Fin 12288) (d : Fin 64) :
    (dat1 (Vc m ρ) c).arrAt 5 cfg1.N (ix2 i d)
      = Spec.outQ (m ((c.tc : Thread nD τ).loc main_arg0)) (m ((c.tc : Thread nD τ).loc main_arg1))
          (m ((c.tc : Thread nD τ).loc main_arg2)) (m ((c.tc : Thread nD τ).loc main_arg3)) (shiftK m ρ c) i d := by
  rw [arr1_5 (Vc m ρ) c]
  exact resArr_eq m ρ c i d

end Cert.KernelIdeal.Hand

end
-- ==== Proof.RefRun.lean ====
/-
  The reference program's run and its result as one term of the four argument arrays.

  The reference is a straight line of host operations; three of them are calls of small functions (the leaky
  rectifier, which itself calls the element-wise choice, and the choice against a scalar), whose operations are listed
  here in place, over the buffers each call names. Its result is then one pure term of the four argument arrays,
  built below in the stages of the layer: the projected features, the two score vectors, the pair scores, the mask,
  the row maximum, the exponentials, their row sums, the weights, the weighted sum and the final rectifier.
-/
import proofs.«100860_j31645319037629_2_alg».proof.Defs
import proofs.«100860_j31645319037629_2_alg».proof.Proof.Gen.ReferenceIdeal
import proofs.«100860_j31645319037629_2_alg».proof.Proof.Gen.Pre_finite_inputs
import proofs.«100860_j31645319037629_2_alg».proof.Proof.Spec
import proofs.«100860_j31645319037629_2_alg».proof.Proof.LibHostLine
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

/-! ## The result as a pure term -/

section Term

variable {F : FTy → Type} [FloatOps F]

/-- The contents of a tensor value of shape `S` and 32-bit float elements. -/
abbrev Arr (F : FTy → Type) (S : Shape) : Type := (⟨S, .f32⟩ : BufTy).Contents (Elt F)

/-- The projected features `x · W`. -/
def feat (x : Arr F S12288x256) (W : Arr F S256x64) : Arr F S12288x64 :=
  Host.dotGeneral dot_S12288x256_S256x64_S12288x64_1_0_0_1_n_n none x W

/-- The source scores: the features against the first 64 entries of the attention vector. -/
def src (x : Arr F S12288x256) (W : Arr F S256x64) (a : Arr F S128x1) : Arr F S12288x1 :=
  Host.dotGeneral dot_S12288x64_S64x1_S12288x1_1_0_0_1_n_n none (feat x W)
    (extractStridedSlice S64x1 ![0, 0] a slices_S128x1_S64x1_0_0)

/-- The destination scores: the features against the last 64 entries of the attention vector. -/
def dst (x : Arr F S12288x256) (W : Arr F S256x64) (a : Arr F S128x1) : Arr F S12288x1 :=
  Host.dotGeneral dot_S12288x64_S64x1_S12288x1_1_0_0_1_n_n none (feat x W)
    (extractStridedSlice S64x1 ![64, 0] a slices_S128x1_S64x1_64_0)

/-- The pair sums: the source score down the rows plus the destination score along the columns. -/
def pairSum (x : Arr F S12288x256) (W : Arr F S256x64) (a : Arr F S128x1) : Arr F S12288x12288 :=
  addf (broadcastInDim S12288x12288 ![0, 1] bcast_S12288x1_S12288x12288_0_1 (src x W a))
    (broadcastInDim S12288x12288 ![0, 1] bcast_S1x12288_S12288x12288_0_1
      (transpose S1x12288 [1, 0] (dst x W a) transposes_S12288x1_S1x12288_1_0))

/-- The leaky rectifier on a square array, as the called function computes it: `z` where `z ≥ 0`, the slope
    times `z` elsewhere. -/
def leakySq (z : Arr F S12288x12288) (s : Arr F S_) : Arr F S12288x12288 :=
  select (cmpf .oge z (broadcastInDim S12288x12288 ![] bcast_S_S12288x12288 (constant S_ .f32 0x00000000#32)))
    z (mulf (broadcastInDim S12288x12288 ![] bcast_S_S12288x12288 (id s)) z)

/-- The pair scores: the rectifier with the first slope on the pair sums. -/
def score (x : Arr F S12288x256) (W : Arr F S256x64) (a : Arr F S128x1) : Arr F S12288x12288 :=
  leakySq (pairSum x W a) (constant S_ .f32 0x3C23D70A#32)

/-- The masked scores: the score where the adjacency word is positive, the large negative number elsewhere. -/
def maskedArr (x : Arr F S12288x256) (adj : (⟨S12288x12288, .i32⟩ : BufTy).Contents (Elt F)) (W : Arr F S256x64)
    (a : Arr F S128x1) : Arr F S12288x12288 :=
  select (cmpi .sgt adj (broadcastInDim S12288x12288 ![] bcast_S_S12288x12288 (constantI S_ 32 0#32)))
    (score x W a)
    (broadcastInDim S12288x12288 ![] bcast_S_S12288x12288 (id (constant S_ .f32 0xD9FFCB9E#32)))

/-- The row maxima of the masked scores, joined once more with minus infinity. -/
def rowMaxArr (x : Arr F S12288x256) (adj : (⟨S12288x12288, .i32⟩ : BufTy).Contents (Elt F)) (W : Arr F S256x64)
    (a : Arr F S128x1) : Arr F S12288 :=
  maximumf (broadcastInDim S12288 ![] bcast_S_S12288 (constant S_ .f32 0xFF800000#32))
    (Host.reduce FloatOps.maximumf (maskedArr x adj W a) (constant S_ .f32 0xFF800000#32)
      reducesTo_S12288x12288_S12288_d1 h_S_)

/-- The exponentials of the masked scores shifted by their row's maximum. -/
def expArr (x : Arr F S12288x256) (adj : (⟨S12288x12288, .i32⟩ : BufTy).Contents (Elt F)) (W : Arr F S256x64)
    (a : Arr F S128x1) : Arr F S12288x12288 :=
  Host.exp (subf (maskedArr x adj W a)
    (broadcastInDim S12288x12288 ![0, 1] bcast_S12288x1_S12288x12288_0_1
      (broadcastInDim S12288x1 ![0] bcast_S12288_S12288x1_0 (rowMaxArr x adj W a))))

/-- The row sums of the exponentials. -/
def sumArr (x : Arr F S12288x256) (adj : (⟨S12288x12288, .i32⟩ : BufTy).Contents (Elt F)) (W : Arr F S256x64)
    (a : Arr F S128x1) : Arr F S12288 :=
  Host.reduceAdd (expArr x adj W a) (constant S_ .f32 0x00000000#32) reducesTo_S12288x12288_S12288_d1 h_S_

/-- The attention weights: each exponential over its row's sum. -/
def weightArr (x : Arr F S12288x256) (adj : (⟨S12288x12288, .i32⟩ : BufTy).Contents (Elt F)) (W : Arr F S256x64)
    (a : Arr F S128x1) : Arr F S12288x12288 :=
  Host.divf (expArr x adj W a)
    (broadcastInDim S12288x12288 ![0, 1] bcast_S12288x1_S12288x12288_0_1
      (broadcastInDim S12288x1 ![0] bcast_S12288_S12288x1_0 (sumArr x adj W a)))

/-- The weighted sums of the feature rows. -/
def aggArr (x : Arr F S12288x256) (adj : (⟨S12288x12288, .i32⟩ : BufTy).Contents (Elt F)) (W : Arr F S256x64)
    (a : Arr F S128x1) : Arr F S12288x64 :=
  Host.dotGeneral dot_S12288x12288_S12288x64_S12288x64_1_0_0_1_n_n none (weightArr x adj W a) (feat x W)

/-- The leaky rectifier on the result's shape, as the called function computes it. -/
def leakyOut (z : Arr F S12288x64) (s : Arr F S_) : Arr F S12288x64 :=
  select (cmpf .oge z (broadcastInDim S12288x64 ![] bcast_S_S12288x64 (constant S_ .f32 0x00000000#32)))
    z (mulf (broadcastInDim S12288x64 ![] bcast_S_S12288x64 (id s)) z)

/-- The whole layer at any float values. -/
def outArr (x : Arr F S12288x256) (adj : (⟨S12288x12288, .i32⟩ : BufTy).Contents (Elt F)) (W : Arr F S256x64)
    (a : Arr F S128x1) : Arr F S12288x64 :=
  leakyOut (aggArr x adj W a) (constant S_ .f32 0x3E4CCCCD#32)

end Term

/-- The reference's result on the extended reals, as a function of its four argument arrays. -/
def refOut (x : Spec.SX.Idx → EReal) (adj : Spec.SA.Idx → BitVec 32) (W : Spec.SW.Idx → EReal)
    (a : Spec.SV.Idx → EReal) : Spec.SO.Idx → EReal :=
  outArr (F := Ideal) x adj W a

/-! ## The program as a list of operations -/

section Line

variable {F : FTy → Type} [FloatOps F]

/-- The reference's operations in order, the three calls written out: each rectifier is seven (the zero word, its
    broadcast, the comparison, the slope converted to its own type, its broadcast, the product, the choice), the
    choice against a scalar three (the scalar converted, broadcast, the choice). -/
abbrev ops : List (HloOp τ sig (Elt F)) :=
  [ binary main_arg0 main_arg2 main_v0 ((fun l r => Host.dotGeneral dot_S12288x256_S256x64_S12288x64_1_0_0_1_n_n none l r) : (⟨S12288x256, .f32⟩ : BufTy).Contents (Elt F) → (⟨S256x64, .f32⟩ : BufTy).Contents (Elt F) → (⟨S12288x64, .f32⟩ : BufTy).Contents (Elt F)),
    unary main_arg3 main_v1 ((extractStridedSlice S64x1 ![0, 0] · slices_S128x1_S64x1_0_0) : (⟨S128x1, .f32⟩ : BufTy).Contents (Elt F) → (⟨S64x1, .f32⟩ : BufTy).Contents (Elt F)),
    unary main_arg3 main_v2 ((extractStridedSlice S64x1 ![64, 0] · slices_S128x1_S64x1_64_0) : (⟨S128x1, .f32⟩ : BufTy).Contents (Elt F) → (⟨S64x1, .f32⟩ : BufTy).Contents (Elt F)),
    binary main_v0 main_v1 main_v3 ((fun l r => Host.dotGeneral dot_S12288x64_S64x1_S12288x1_1_0_0_1_n_n none l r) : (⟨S12288x64, .f32⟩ : BufTy).Contents (Elt F) → (⟨S64x1, .f32⟩ : BufTy).Contents (Elt F) → (⟨S12288x1, .f32⟩ : BufTy).Contents (Elt F)),
    binary main_v0 main_v2 main_v4 ((fun l r => Host.dotGeneral dot_S12288x64_S64x1_S12288x1_1_0_0_1_n_n none l r) : (⟨S12288x64, .f32⟩ : BufTy).Contents (Elt F) → (⟨S64x1, .f32⟩ : BufTy).Contents (Elt F) → (⟨S12288x1, .f32⟩ : BufTy).Contents (Elt F)),
    unary main_v4 main_v5 ((transpose S1x12288 [1, 0] · transposes_S12288x1_S1x12288_1_0) : (⟨S12288x1, .f32⟩ : BufTy).Contents (Elt F) → (⟨S1x12288, .f32⟩ : BufTy).Contents (Elt F)),
    unary main_v3 main_v6 (broadcastInDim S12288x12288 ![0, 1] bcast_S12288x1_S12288x12288_0_1 : (⟨S12288x1, .f32⟩ : BufTy).Contents (Elt F) → (⟨S12288x12288, .f32⟩ : BufTy).Contents (Elt F)),
    unary main_v5 main_v7 (broadcastInDim S12288x12288 ![0, 1] bcast_S1x12288_S12288x12288_0_1 : (⟨S1x12288, .f32⟩ : BufTy).Contents (Elt F) → (⟨S12288x12288, .f32⟩ : BufTy).Contents (Elt F)),
    binary main_v6 main_v7 main_v8 (addf : (⟨S12288x12288, .f32⟩ : BufTy).Contents (Elt F) → (⟨S12288x12288, .f32⟩ : BufTy).Contents (Elt F) → (⟨S12288x12288, .f32⟩ : BufTy).Contents (Elt F)),
    nullary main_cst (constant S_ .f32 0x3C23D70A#32),
    TRef.nullary main_call0.cst (constant S_ .f32 0x00000000#32),
    TRef.unary main_call0.cst main_call0.v0 (broadcastInDim S12288x12288 ![] bcast_S_S12288x12288),
    TRef.binary (.of main_v8 : TRef sig ⟨S12288x12288, .f32⟩) main_call0.v0 main_call0.v1 (cmpf .oge),
    TRef.unary (.of main_cst : TRef sig ⟨S_, .f32⟩) main_call0.v2 id,
    TRef.unary main_call0.v2 main_call0.v3 (broadcastInDim S12288x12288 ![] bcast_S_S12288x12288),
    TRef.binary main_call0.v3 (.of main_v8 : TRef sig ⟨S12288x12288, .f32⟩) main_call0.v4 mulf,
    TRef.ternary main_call0.v1 (.of main_v8 : TRef sig ⟨S12288x12288, .f32⟩) main_call0.v4 main_call0.call0.v0 select,
    nullary main_c (constantI S_ 32 0#32),
    unary main_c main_v10 (broadcastInDim S12288x12288 ![] bcast_S_S12288x12288 : (⟨S_, .i32⟩ : BufTy).Contents (Elt F) → (⟨S12288x12288, .i32⟩ : BufTy).Contents (Elt F)),
    binary main_arg1 main_v10 main_v11 (cmpi .sgt : (⟨S12288x12288, .i32⟩ : BufTy).Contents (Elt F) → (⟨S12288x12288, .i32⟩ : BufTy).Contents (Elt F) → (⟨S12288x12288, .i1⟩ : BufTy).Contents (Elt F)),
    nullary main_cst_0 (constant S_ .f32 0xD9FFCB9E#32),
    TRef.unary (.of main_cst_0 : TRef sig ⟨S_, .f32⟩) main_call1.v0 id,
    TRef.unary main_call1.v0 main_call1.v1 (broadcastInDim S12288x12288 ![] bcast_S_S12288x12288),
    TRef.ternary (.of main_v11 : TRef sig ⟨S12288x12288, .i1⟩) (.of main_v9 : TRef sig ⟨S12288x12288, .f32⟩) main_call1.v1 main_call1.v2 select,
    nullary main_cst_1 (constant S_ .f32 0xFF800000#32),
    binary main_v12 main_cst_1 main_v13 ((fun x v => Host.reduce FloatOps.maximumf x v reducesTo_S12288x12288_S12288_d1 h_S_) : (⟨S12288x12288, .f32⟩ : BufTy).Contents (Elt F) → (⟨S_, .f32⟩ : BufTy).Contents (Elt F) → (⟨S12288, .f32⟩ : BufTy).Contents (Elt F)),
    nullary main_cst_2 (constant S_ .f32 0xFF800000#32),
    unary main_cst_2 main_v14 (broadcastInDim S12288 ![] bcast_S_S12288 : (⟨S_, .f32⟩ : BufTy).Contents (Elt F) → (⟨S12288, .f32⟩ : BufTy).Contents (Elt F)),
    binary main_v14 main_v13 main_v15 (maximumf : (⟨S12288, .f32⟩ : BufTy).Contents (Elt F) → (⟨S12288, .f32⟩ : BufTy).Contents (Elt F) → (⟨S12288, .f32⟩ : BufTy).Contents (Elt F)),
    unary main_v15 main_v16 (broadcastInDim S12288x1 ![0] bcast_S12288_S12288x1_0 : (⟨S12288, .f32⟩ : BufTy).Contents (Elt F) → (⟨S12288x1, .f32⟩ : BufTy).Contents (Elt F)),
    unary main_v16 main_v17 (broadcastInDim S12288x12288 ![0, 1] bcast_S12288x1_S12288x12288_0_1 : (⟨S12288x1, .f32⟩ : BufTy).Contents (Elt F) → (⟨S12288x12288, .f32⟩ : BufTy).Contents (Elt F)),
    binary main_v12 main_v17 main_v18 (subf : (⟨S12288x12288, .f32⟩ : BufTy).Contents (Elt F) → (⟨S12288x12288, .f32⟩ : BufTy).Contents (Elt F) → (⟨S12288x12288, .f32⟩ : BufTy).Contents (Elt F)),
    unary main_v18 main_v19 (Host.exp : (⟨S12288x12288, .f32⟩ : BufTy).Contents (Elt F) → (⟨S12288x12288, .f32⟩ : BufTy).Contents (Elt F)),
    nullary main_cst_3 (constant S_ .f32 0x00000000#32),
    binary main_v19 main_cst_3 main_v20 ((fun x v => Host.reduceAdd x v reducesTo_S12288x12288_S12288_d1 h_S_) : (⟨S12288x12288, .f32⟩ : BufTy).Contents (Elt F) → (⟨S_, .f32⟩ : BufTy).Contents (Elt F) → (⟨S12288, .f32⟩ : BufTy).Contents (Elt F)),
    unary main_v20 main_v21 (broadcastInDim S12288x1 ![0] bcast_S12288_S12288x1_0 : (⟨S12288, .f32⟩ : BufTy).Contents (Elt F) → (⟨S12288x1, .f32⟩ : BufTy).Contents (Elt F)),
    unary main_v21 main_v22 (broadcastInDim S12288x12288 ![0, 1] bcast_S12288x1_S12288x12288_0_1 : (⟨S12288x1, .f32⟩ : BufTy).Contents (Elt F) → (⟨S12288x12288, .f32⟩ : BufTy).Contents (Elt F)),
    binary main_v19 main_v22 main_v23 (Host.divf : (⟨S12288x12288, .f32⟩ : BufTy).Contents (Elt F) → (⟨S12288x12288, .f32⟩ : BufTy).Contents (Elt F) → (⟨S12288x12288, .f32⟩ : BufTy).Contents (Elt F)),
    binary main_v23 main_v0 main_v24 ((fun l r => Host.dotGeneral dot_S12288x12288_S12288x64_S12288x64_1_0_0_1_n_n none l r) : (⟨S12288x12288, .f32⟩ : BufTy).Contents (Elt F) → (⟨S12288x64, .f32⟩ : BufTy).Contents (Elt F) → (⟨S12288x64, .f32⟩ : BufTy).Contents (Elt F)),
    nullary main_cst_4 (constant S_ .f32 0x3E4CCCCD#32),
    TRef.nullary main_call2.cst (constant S_ .f32 0x00000000#32),
    TRef.unary main_call2.cst main_call2.v0 (broadcastInDim S12288x64 ![] bcast_S_S12288x64),
    TRef.binary (.of main_v24 : TRef sig ⟨S12288x64, .f32⟩) main_call2.v0 main_call2.v1 (cmpf .oge),
    TRef.unary (.of main_cst_4 : TRef sig ⟨S_, .f32⟩) main_call2.v2 id,
    TRef.unary main_call2.v2 main_call2.v3 (broadcastInDim S12288x64 ![] bcast_S_S12288x64),
    TRef.binary main_call2.v3 (.of main_v24 : TRef sig ⟨S12288x64, .f32⟩) main_call2.v4 mulf,
    TRef.ternary main_call2.v1 (.of main_v24 : TRef sig ⟨S12288x64, .f32⟩) main_call2.v4 main_call2.call0.v0 select ]

-- sequencing is associative, so the program with its calls unfolded is the sequence of its forty-seven operations
set_option maxRecDepth 2048 in
/-- The program is that straight line: the called functions unfolded at their calls and the records at their
    fields, both sides are one chain of steps once sequencing is reassociated. -/
theorem main_eq (c : Dev nD) : main (F := F) c = seq ops := by
  simp only [main, fn_leaky_relu.body, fn_where.body, fn_where_0.body, fn_leaky_relu_1.body, fn_where_2.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub .., nullary_bufs_sub ..,
    unary_bufs_sub .., unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub ..⟩

/-! ## What the line leaves in the result and in the arguments -/

attribute [local irreducible] Host.reduce Host.reduceAdd Host.exp Host.divf in
set_option maxRecDepth 8192 in
/-- The result buffer after the line holds the layer's term of the arguments' contents: each operation's result is
    read at its own buffer, every other buffer keeps what it held, and contents carried to a called function's
    buffer type and back are themselves. -/
theorem out_eq (V : Valuation τ sig (Elt F)) :
    after ops V (main_v25 : DevRef τ sig)
      = outArr (V (main_arg0 : DevRef τ sig)) (V (main_arg1 : DevRef τ sig)) (V (main_arg2 : DevRef τ sig))
          (V (main_arg3 : DevRef τ sig)) := by
  after_results_simp
  simp only [Cert.LibHostLine.ofBuf_toBuf]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

end Line

/-! ## The run -/

/-- On every device, from any memory with zero counters: every weakly fair execution of the reference terminates
    with the result buffer at the layer's term of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v25).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

/-- The reference runs and leaves its four argument arrays as they were: the run above with the result dropped. -/
theorem frame : Cert.frame_ReferenceIdeal := fun m g _ =>
  (θ_run defs _ _).mono (fun _ h c => (h c).2) (run m g)

end Cert.ReferenceIdeal.Hand

end
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«100860_j31645319037629_2_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.LibRowMax.lean ====
/-
  The maximum along the lanes of a row, read at an index, at the exact values.

  A lane maximum of an [a, b] array started from the word of minus infinity is, at row p, the fold of `max` from that word's value
  over the row's b entries; the host's one-operand reduce with a maximum body over the same axis is the same fold from
  its initial value. Both forms are stated over `Fin b` with the entries named by their coordinates, so a row-wise
  normalization on a block of rows and on the whole array meet in one expression.
-/
import Idealize.ShloMosaic.Lib.ValueIdx
import Idealize.ShloMosaic.PureOps.Ideal.Laws
import Idealize.ShloMosaic.PureOps.Reduce

noncomputable section

namespace Cert.LibRowMax

open Idealize.ShloMosaic Idealize.ShloMosaic.ValueIdx

/-- The inserted index of a lane reduction of an [a, b] array at row p and lane k is (p, k). -/
theorem lift_row {a b : ℕ} (h : (⟨2, ![a, b]⟩ : Shape).Reduces [1] ⟨1, ![a]⟩) (p : Fin a) (k : Fin b) :
    h.lift (ix1 p) k = ix2 p k :=
  funext fun c => by
    match c with
    | ⟨0, _⟩ => exact Fin.ext rfl
    | ⟨1, _⟩ => exact Fin.ext rfl

/-- The lane maximum of an `[a, b]` array started from the word of minus infinity, at row `p`: the fold of `max`
    over the row's entries from that word's value. -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src 0xFF800000#32 h hφ hacc (ix1 p)).trans
    (congrArg (Finset.fold max (Ideal.ofBits .f32 0xFF800000#32) · Finset.univ) (funext fun k => congrArg src (lift_row h p k)))

/-- The host's reduce with a maximum body over the lanes of an `[a, b]` array, at row `p`: the fold of `max`
    over the row's entries from the initial value. -/
theorem hostMax_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) :=
  (Host.reduce_eq_fold_single (FloatOps.maximumf (F := Ideal) (φ := .f32)) x init h' h hu (ix1 p)).trans
    (congrArg (Finset.fold max (init (Shape.Idx.first hu)) · Finset.univ) (funext fun k => congrArg x (lift_row h p k)))

end Cert.LibRowMax

end
-- ==== Proof.RefRead.lean ====
/-
  The reference's result read at an index.

  Each stage of the layer's term is read at explicit coordinates, innermost first: the three matrix products as finite
  sums over their contracted axis, the slices of the attention vector at their offsets, the broadcasts and the
  transpose at the coordinates they repeat, the two rectifiers and the mask as choices on a comparison, the row
  maximum as a fold of the maximum, the row sum of the exponentials as a finite sum from the zero word, and the
  quotient as the exact division. Together they say that entry (i, d) of the result is the weights form of the
  specification.
-/
import proofs.«100860_j31645319037629_2_alg».proof.Proof.RefRun
import proofs.«100860_j31645319037629_2_alg».proof.Proof.LibDotRead
import proofs.«100860_j31645319037629_2_alg».proof.Proof.LibRowMax
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Hand

open Cert.ReferenceIdeal Cert.ReferenceIdeal.Facts₀ Idealize.ShloMosaic Idealize.ShloMosaic.ValueIdx
  Idealize.ShloMosaic.MatmulRead

variable (x : Arr Ideal S12288x256) (adj : (⟨S12288x12288, .i32⟩ : BufTy).Contents (Elt Ideal))
  (W : Arr Ideal S256x64) (a : Arr Ideal S128x1)

/-! ## The three contraction records are of the rows-by-columns form -/

theorem rowsByCols_xW : RowsByCols dot_S12288x256_S256x64_S12288x64_1_0_0_1_n_n := ⟨rfl, rfl, rfl, rfl, rfl, rfl⟩
theorem rowsByCols_ha : RowsByCols dot_S12288x64_S64x1_S12288x1_1_0_0_1_n_n := ⟨rfl, rfl, rfl, rfl, rfl, rfl⟩
theorem rowsByCols_ph : RowsByCols dot_S12288x12288_S12288x64_S12288x64_1_0_0_1_n_n := ⟨rfl, rfl, rfl, rfl, rfl, rfl⟩

/-! ## The features and the two score vectors -/

/-- Entry (j, d) of the features is row j of x against column d of W. -/
theorem feat_apply (j : Fin 12288) (d : Fin 64) : feat x W (ix2 j d) = Spec.h x W j d :=
  hostDot_ix2 (a := 12288) (K := 256) (b := 64) rowsByCols_xW rfl rfl none x W j d

/-- Entry k of the first slice of the attention vector is its entry k. -/
theorem slice_lo_apply (k : Fin 64) :
    extractStridedSlice S64x1 ![0, 0] a slices_S128x1_S64x1_0_0 (ix2 k (0 : Fin 1))
      = a (ix2 (⟨k.val, by omega⟩ : Fin 128) (0 : Fin 1)) :=
  extractStridedSlice_apply ![0, 0] a slices_S128x1_S64x1_0_0 (ix2 k (0 : Fin 1)) (ix2 (⟨k.val, by omega⟩ : Fin 128) (0 : Fin 1))
    fun ax => by
      match ax with
      | ⟨0, _⟩ => exact (Nat.zero_add _).symm
      | ⟨1, _⟩ => rfl

/-- Entry k of the second slice of the attention vector is its entry 64 + k. -/
theorem slice_hi_apply (k : Fin 64) :
    extractStridedSlice S64x1 ![64, 0] a slices_S128x1_S64x1_64_0 (ix2 k (0 : Fin 1))
      = a (ix2 (⟨64 + k.val, by omega⟩ : Fin 128) (0 : Fin 1)) :=
  extractStridedSlice_apply ![64, 0] a slices_S128x1_S64x1_64_0 (ix2 k (0 : Fin 1)) (ix2 (⟨64 + k.val, by omega⟩ : Fin 128) (0 : Fin 1))
    fun ax => by
      match ax with
      | ⟨0, _⟩ => rfl
      | ⟨1, _⟩ => rfl

/-- The source score of node i. -/
theorem src_apply (i : Fin 12288) : src x W a (ix2 i (0 : Fin 1)) = Spec.w1 x W a i :=
  (hostDot_ix2 (a := 12288) (K := 64) (b := 1) rowsByCols_ha rfl rfl none (feat x W) _ i 0).trans
    (Finset.sum_congr rfl fun k _ => by rw [feat_apply, slice_lo_apply])

/-- The destination score of node j. -/
theorem dst_apply (j : Fin 12288) : dst x W a (ix2 j (0 : Fin 1)) = Spec.w2 x W a j :=
  (hostDot_ix2 (a := 12288) (K := 64) (b := 1) rowsByCols_ha rfl rfl none (feat x W) _ j 0).trans
    (Finset.sum_congr rfl fun k _ => by rw [feat_apply, slice_hi_apply])

/-! ## Broadcasts and the transpose at the coordinates they repeat -/

section Layout

variable {α : Type}

/-- A column laid along the rows reads, at (i, j), the column's entry of row i. -/
theorem bcastCol_apply (v : S12288x1.Idx → α) (i j : Fin 12288) :
    broadcastInDim S12288x12288 ![0, 1] bcast_S12288x1_S12288x12288_0_1 v (ix2 i j) = v (ix2 i (0 : Fin 1)) :=
  broadcastInDim_apply ![0, 1] bcast_S12288x1_S12288x12288_0_1 v (ix2 i j) (ix2 i (0 : Fin 1)) fun ax => by
    match ax with
    | ⟨0, _⟩ => rfl
    | ⟨1, _⟩ => rfl

/-- A row laid down the columns reads, at (i, j), the row's entry of column j. -/
theorem bcastRow_apply (v : S1x12288.Idx → α) (i j : Fin 12288) :
    broadcastInDim S12288x12288 ![0, 1] bcast_S1x12288_S12288x12288_0_1 v (ix2 i j) = v (ix2 (0 : Fin 1) j) :=
  broadcastInDim_apply ![0, 1] bcast_S1x12288_S12288x12288_0_1 v (ix2 i j) (ix2 (0 : Fin 1) j) fun ax => by
    match ax with
    | ⟨0, _⟩ => rfl
    | ⟨1, _⟩ => rfl

/-- The transposed column reads, at (0, j), the column's entry of row j. -/
theorem transposeCol_apply (v : S12288x1.Idx → α) (j : Fin 12288) :
    transpose S1x12288 [1, 0] v transposes_S12288x1_S1x12288_1_0 (ix2 (0 : Fin 1) j) = v (ix2 j (0 : Fin 1)) :=
  transpose_apply [1, 0] v transposes_S12288x1_S1x12288_1_0 (ix2 (0 : Fin 1) j) (ix2 j (0 : Fin 1)) fun b => by
    match b with
    | ⟨0, _⟩ => rfl
    | ⟨1, _⟩ => rfl

/-- A vector cast to a column reads, at (i, u), the vector's entry i. -/
theorem bcastVecCol_apply (v : S12288.Idx → α) (i : Fin 12288) (u : Fin 1) :
    broadcastInDim S12288x1 ![0] bcast_S12288_S12288x1_0 v (ix2 i u) = v (ix1 i) :=
  broadcastInDim_apply ![0] bcast_S12288_S12288x1_0 v (ix2 i u) (ix1 i) fun ax => by
    match ax with
    | ⟨0, _⟩ => rfl

/-- A scalar spread over the square array reads the scalar everywhere. -/
theorem bcastScalarSq_apply (s : S_.Idx → α) (j : S12288x12288.Idx) :
    broadcastInDim S12288x12288 ![] bcast_S_S12288x12288 s j = s ix0 :=
  broadcastInDim_apply ![] bcast_S_S12288x12288 s j ix0 fun ax => ax.elim0

/-- A scalar spread over the result's shape reads the scalar everywhere. -/
theorem bcastScalarOut_apply (s : S_.Idx → α) (j : S12288x64.Idx) :
    broadcastInDim S12288x64 ![] bcast_S_S12288x64 s j = s ix0 :=
  broadcastInDim_apply ![] bcast_S_S12288x64 s j ix0 fun ax => ax.elim0

/-- A scalar spread over a vector reads the scalar everywhere. -/
theorem bcastScalarVec_apply (s : S_.Idx → α) (j : S12288.Idx) :
    broadcastInDim S12288 ![] bcast_S_S12288 s j = s ix0 :=
  broadcastInDim_apply ![] bcast_S_S12288 s j ix0 fun ax => ax.elim0

end Layout

/-! ## The pair sums, the rectifier and the mask -/

/-- The pair sum at (i, j) is the source score of i plus the destination score of j. -/
theorem pairSum_apply (i j : Fin 12288) : pairSum x W a (ix2 i j) = Spec.w1 x W a i + Spec.w2 x W a j := by
  unfold pairSum
  rw [addf_apply, bcastCol_apply, bcastRow_apply, transposeCol_apply, src_apply, dst_apply]

/-- The called rectifier on the square array is the specification's, the slope read from its scalar (the function
    multiplies slope by value, the specification value by slope). -/
theorem leakySq_apply (z : Arr Ideal S12288x12288) (s : Arr Ideal S_) (i j : Fin 12288) :
    leakySq z s (ix2 i j) = Spec.leaky (s ix0) (z (ix2 i j)) := by
  unfold leakySq Spec.leaky
  rw [select_apply, cmpf_apply, mulf_apply, bcastScalarSq_apply, bcastScalarSq_apply, mul_comm (id s ix0)]
  rfl

/-- The pair score at (i, j). -/
theorem score_apply (i j : Fin 12288) :
    score x W a (ix2 i j) = Spec.leaky Spec.slope1 (Spec.w1 x W a i + Spec.w2 x W a j) := by
  unfold score
  rw [leakySq_apply, pairSum_apply]
  rfl

/-- The masked score at (i, j). -/
theorem maskedArr_apply (i j : Fin 12288) : maskedArr x adj W a (ix2 i j) = Spec.masked x adj W a i j := by
  unfold maskedArr Spec.masked
  rw [select_apply, score_apply, bcastScalarSq_apply]
  rfl

/-! ## The row maximum, the exponentials, their row sums and the weights -/

/-- The square array reduces along its second axis to a vector. -/
theorem reduces_rows : S12288x12288.Reduces [1] S12288 := by decide

/-- The row maximum of row i: the fold of the maximum over the row's masked scores from minus infinity, joined with
    minus infinity once more. -/
theorem rowMaxArr_apply (i : Fin 12288) : rowMaxArr x adj W a (ix1 i) = Spec.rowMax x adj W a i := by
  unfold rowMaxArr Spec.rowMax
  rw [maximumf_apply, bcastScalarVec_apply]
  have e := Cert.LibRowMax.hostMax_apply (a := 12288) (b := 12288) (maskedArr x adj W a)
    (constant (F := Ideal) S_ .f32 0xFF800000#32) reducesTo_S12288x12288_S12288_d1 reduces_rows h_S_ i
  refine (congrArg (max _) e).trans ?_
  simp only [maskedArr_apply]
  rfl

/-- The exponential at (i, j): of the masked score less its row's maximum. -/
theorem expArr_apply (i j : Fin 12288) :
    expArr x adj W a (ix2 i j) = Ideal.exp (Spec.masked x adj W a i j - Spec.rowMax x adj W a i) := by
  unfold expArr
  refine congrArg Ideal.exp ?_
  rw [subf_apply, maskedArr_apply, bcastCol_apply, bcastVecCol_apply, rowMaxArr_apply]

/-- The row sum of row i: the finite sum of the row's exponentials (the initial word is zero). -/
theorem sumArr_apply (i : Fin 12288) :
    sumArr x adj W a (ix1 i)
      = ∑ j : Fin 12288, Ideal.exp (Spec.masked x adj W a i j - Spec.rowMax x adj W a i) := by
  unfold sumArr
  show Ideal.hostReduceAdd reducesTo_S12288x12288_S12288_d1 (expArr x adj W a) (Ideal.ofBits .f32 0x00000000#32) (ix1 i) = _
  rw [Ideal.hostReduceAdd_single reducesTo_S12288x12288_S12288_d1 reduces_rows, Ideal.ofBits_zero_f32, zero_add]
  refine Finset.sum_congr rfl fun k _ => ?_
  exact (congrArg (expArr x adj W a) (Cert.LibRowMax.lift_row (a := 12288) (b := 12288) reduces_rows i k)).trans
    (expArr_apply x adj W a i k)

/-- The weight at (i, j): the exponential over its row's sum. -/
theorem weightArr_apply (i j : Fin 12288) :
    weightArr x adj W a (ix2 i j)
      = Ideal.div (Ideal.exp (Spec.masked x adj W a i j - Spec.rowMax x adj W a i))
          (∑ j' : Fin 12288, Ideal.exp (Spec.masked x adj W a i j' - Spec.rowMax x adj W a i)) := by
  unfold weightArr
  show Ideal.div (expArr x adj W a (ix2 i j))
      (broadcastInDim S12288x12288 ![0, 1] bcast_S12288x1_S12288x12288_0_1
        (broadcastInDim S12288x1 ![0] bcast_S12288_S12288x1_0 (sumArr x adj W a)) (ix2 i j)) = _
  rw [expArr_apply, bcastCol_apply, bcastVecCol_apply, sumArr_apply]

/-! ## The weighted sum and the final rectifier -/

/-- The weighted sum at (i, d): the weights of row i against column d of the features. -/
theorem aggArr_apply (i : Fin 12288) (d : Fin 64) :
    aggArr x adj W a (ix2 i d)
      = ∑ j : Fin 12288,
          Ideal.div (Ideal.exp (Spec.masked x adj W a i j - Spec.rowMax x adj W a i))
            (∑ j' : Fin 12288, Ideal.exp (Spec.masked x adj W a i j' - Spec.rowMax x adj W a i)) * Spec.h x W j d := by
  unfold aggArr
  refine (hostDot_ix2 (a := 12288) (K := 12288) (b := 64) rowsByCols_ph rfl rfl none (weightArr x adj W a) (feat x W) i d).trans ?_
  refine Finset.sum_congr rfl fun j _ => ?_
  rw [weightArr_apply, feat_apply]

/-- The called rectifier on the result's shape is the specification's, the slope read from its scalar. -/
theorem leakyOut_apply (z : Arr Ideal S12288x64) (s : Arr Ideal S_) (i : Fin 12288) (d : Fin 64) :
    leakyOut z s (ix2 i d) = Spec.leaky (s ix0) (z (ix2 i d)) := by
  unfold leakyOut Spec.leaky
  rw [select_apply, cmpf_apply, mulf_apply, bcastScalarOut_apply, bcastScalarOut_apply, mul_comm (id s ix0)]
  rfl

/-- ENTRY (i, d) OF THE REFERENCE'S RESULT is the weights form of the specification. -/
theorem refOut_apply (x : Spec.SX.Idx → EReal) (adj : Spec.SA.Idx → BitVec 32) (W : Spec.SW.Idx → EReal)
    (a : Spec.SV.Idx → EReal) (i : Fin 12288) (d : Fin 64) :
    refOut x adj W a (ix2 i d) = Spec.outW x adj W a i d := by
  unfold refOut outArr Spec.outW
  rw [leakyOut_apply, aggArr_apply]
  rfl

end Cert.ReferenceIdeal.Hand

end
-- ==== Proof.Finite.lean ====
/-
  The finiteness precondition, read back.

  The precondition's predicate is the conjunction of three tests, one per float argument: every entry's absolute value is
  below plus infinity, folded by "and" over the whole array. When the predicate is all ones each fold is one, so each
  entry passes its test; and an extended real z with max z (-z) below the top element is neither the top element nor
  the bottom one, that is, it is a real number.
-/
import proofs.«100860_j31645319037629_2_alg».proof.Pre_finite_inputs
import proofs.«100860_j31645319037629_2_alg».proof.Proof.Gen.Pre_finite_inputs
import Idealize.ShloMosaic.Lib.ReduceAll
import Idealize.ShloMosaic.PureOps.Ideal
import Idealize.ShloMosaic.Lib.ValueIdx

noncomputable section

namespace Cert.Finite

open Idealize.ShloMosaic Cert.Pre_finite_inputs

/-- The shape of rank zero has one index. -/
instance subsingleton_scalar_idx : Subsingleton S_.Idx := ⟨fun _ _ => funext fun d => d.elim0⟩

/-- The word 0x7F800000 is the top element. -/
theorem posInf_eq_top : Ideal.ofBits .f32 0x7F800000#32 = (⊤ : EReal) := by
  simp [Ideal.ofBits, Ideal.ieee]

/-- An extended real whose absolute value compares below plus infinity is real. -/
theorem real_of_abs_lt_posInf (z : EReal)
    (h : Ideal.cmp .olt (max z (-z)) (Ideal.ofBits .f32 0x7F800000#32) = 1#1) : ∃ r : ℝ, z = (r : EReal) := by
  rw [posInf_eq_top] at h
  induction z using EReal.rec with
  | bot => simp [Ideal.cmp] at h
  | coe r => exact ⟨r, rfl⟩
  | top => simp [Ideal.cmp] at h

/-- When the precondition's predicate is all ones, every entry of the three float arguments is real. -/
theorem real_of_fn [Facts] (x : FVec Ideal S12288x256 .f32) (adj : IVec S12288x12288 32)
    (W : FVec Ideal S256x64 .f32) (a : FVec Ideal S128x1 .f32)
    (h : fn (F := Ideal) x adj W a = fun _ => 1#1) :
    (∀ k, ∃ r : ℝ, x k = (r : EReal)) ∧ (∀ k, ∃ r : ℝ, W k = (r : EReal)) ∧ (∀ k, ∃ r : ℝ, a k = (r : EReal)) := by
  have h0 := congrFun h ValueIdx.ix0
  dsimp only [fn] at h0
  obtain ⟨h12, h3⟩ := IntOp.andi_eq_one.1 h0
  obtain ⟨h1, h2⟩ := IntOp.andi_eq_one.1 h12
  refine ⟨fun k => ?_, fun k => ?_, fun k => ?_⟩
  · exact real_of_abs_lt_posInf _ (Host.reduce_andi_all _ _ _ _ _ h1 k)
  · exact real_of_abs_lt_posInf _ (Host.reduce_andi_all _ _ _ _ _ h2 k)
  · exact real_of_abs_lt_posInf _ (Host.reduce_andi_all _ _ _ _ _ h3 k)

end Cert.Finite

end
-- ==== Proof.lean ====
/-
  A dense graph-attention layer on 12288 nodes: the kernel and its reference compute the same array on the extended reals.

  Both project the features, h = x · W, score every node twice, w1 = h · a[0:64] and w2 = h · a[64:128], take the leaky
  rectifier of w1 i + w2 j as the score of the pair (i, j), replace it by the finite number -9e15 where the adjacency
  word is not positive, turn row i of the scores into weights proportional to exp (score − shift), and return the
  rectified weighted sum of the rows of h. They differ in the shift and in the order of the arithmetic. The reference
  subtracts the row's maximum, normalizes the weights first and then sums. The kernel subtracts the number
  leaky (w1 i + max w2), streams the key columns in twelve tiles while accumulating the plain sum of the exponentials
  and their sum weighted by h, and divides once at the end. With every input finite all these numbers are real, the
  exponentials are positive, and the factor exp (shift' − shift) cancels between numerator and denominator: the two
  results agree whatever the shifts are. Regrouping the kernel's tile sums into one sum needs no finiteness; the
  cancellation does, and that is where the precondition is used.

  The kernel's program is two pipelined regions with two stretches of host operations between them. Each region's
  frame and value are read off its own run; the second region carries its two running sums in scratch buffers across
  the key tiles of a query tile. The reference is a straight line of host operations with three called functions.
-/
import proofs.«100860_j31645319037629_2_alg».proof.Defs
import proofs.«100860_j31645319037629_2_alg».proof.Proof.Gen.Kernel
import proofs.«100860_j31645319037629_2_alg».proof.Proof.Gen.KernelIdeal
import proofs.«100860_j31645319037629_2_alg».proof.Proof.Gen.ReferenceIdeal
import proofs.«100860_j31645319037629_2_alg».proof.Proof.Gen.Pre_finite_inputs
import proofs.«100860_j31645319037629_2_alg».proof.Proof.KernelRun
import proofs.«100860_j31645319037629_2_alg».proof.Proof.WKernelRun
import proofs.«100860_j31645319037629_2_alg».proof.Proof.KernelValue
import proofs.«100860_j31645319037629_2_alg».proof.Proof.RefRun
import proofs.«100860_j31645319037629_2_alg».proof.Proof.RefRead
import proofs.«100860_j31645319037629_2_alg».proof.Proof.Bridge
import proofs.«100860_j31645319037629_2_alg».proof.Proof.Finite

noncomputable section

namespace Cert.Proof

open Idealize.ShloMosaic Idealize.ShloMosaic.ValueIdx Idealize.SL.Sem

/-- The kernel as printed runs to the end, faults nowhere and leaves its four arguments unchanged. -/
theorem frame_k : Cert.frame_Kernel := fun m ρ _ => Cert.Kernel.Hand.frame (F := Bits) m ρ

/-- So does its reading on the extended reals. -/
theorem frame_ki : Cert.frame_KernelIdeal := fun m ρ _ => Cert.KernelIdeal.Hand.frame (F := Ideal) m ρ

/-- The ideal pass rewrote nothing. -/
theorem preserves : Cert.preserves_Kernel_KernelIdeal := trivial

/-- On finite inputs the kernel's result array and the reference's are equal, entry by entry: the quotient of the
    streamed sums at the kernel's shift is the sum of normalized weights at the row maximum. -/
theorem algebraic : Cert.algebraic_KernelIdeal_ReferenceIdeal := by
  intro m ρ m' ρ' hpre hagree
  refine ⟨fun c => (Cert.KernelIdeal.Hand.dat1 (F := Ideal) (Cert.KernelIdeal.Hand.Vc m ρ) c).arrAt 5 Cert.KernelIdeal.cfg1.N,
    Cert.KernelIdeal.Hand.run_result (F := Ideal) m ρ, ?_⟩
  refine (θ_run Cert.ReferenceIdeal.defs _ _).mono (fun _ h c => ⟨(h c).1.trans ?_, (h c).2⟩)
    (Cert.ReferenceIdeal.Hand.run m' ρ')
  obtain ⟨hx, hW, ha⟩ := Cert.Finite.real_of_fn _ _ _ _ (hpre c)
  rw [(hagree c).1, (hagree c).2.1, (hagree c).2.2.1, (hagree c).2.2.2]
  funext idx
  obtain ⟨i, d, rfl⟩ : ∃ (i : Fin 12288) (d : Fin 64), idx = ix2 i d := ⟨idx 0, idx 1, eq_ix2 idx⟩
  rw [Cert.ReferenceIdeal.Hand.refOut_apply]
  show _ = (Cert.KernelIdeal.Hand.dat1 (F := Ideal) (Cert.KernelIdeal.Hand.Vc m ρ) c).arrAt 5 Cert.KernelIdeal.cfg1.N (ix2 i d)
  rw [Cert.KernelIdeal.Hand.kernel_value m ρ c]
  exact (Cert.Bridge.outQ_eq_outW _ _ _ _ hx hW ha _ (Cert.KernelIdeal.Hand.shiftK_real m ρ c hx hW ha) _ _).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.Hand.frame, preserves, algebraic⟩

end Cert.Proof

end
